-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_v107_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_v330) = v1 c
          ∧ r.2.mem ((c.tc : Thread Cert.ReferenceIdeal.nD Cert.ReferenceIdeal.τ).loc Cert.ReferenceIdeal.main_v252) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S4x64x64 : Shape := ⟨3, ![4, 64, 64]⟩
abbrev S3x64 : Shape := ⟨2, ![3, 64]⟩
abbrev S4x64 : Shape := ⟨2, ![4, 64]⟩
abbrev S4x3x64x64 : Shape := ⟨4, ![4, 3, 64, 64]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x64 : S_.BroadcastsInDim S4x64 (![] : Fin 0 → Fin S4x64.rank)
  reducesTo_S4x64_S_d0_1 : S4x64.ReducesTo [0, 1] S_
  bcast_S_S4x3x64x64 : S_.BroadcastsInDim S4x3x64x64 (![] : Fin 0 → Fin S4x3x64x64.rank)
  reducesTo_S4x3x64x64_S_d0_1_2_3 : S4x3x64x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S4x3x64x64 .f32) (main_arg9 : FVec F S4x64 .f32) (main_arg10 : FVec F S64x64 .f32) (main_arg11 : FVec F S64 .f32) (main_v33 : IVec S_ 1) : IVec S_ 1 :=
  let main_v34 : FVec F S4x3x64x64 .f32 := Host.absf main_arg8
  let main_cst_12 : FVec F S_ .f32 := constant S_ .f32 0x7F800000#32
  let main_v35 : FVec F S4x3x64x64 .f32 := broadcastInDim S4x3x64x64 ![] bcast_S_S4x3x64x64 main_cst_12
  let main_v36 : IVec S4x3x64x64 1 := cmpf .olt main_v34 main_v35
  let main_c_13 : IVec S_ 1 := constantI S_ 1 1#1
  let main_v37 : IVec S_ 1 := (fun x v => Host.reduce IntOp.andi x v reducesTo_S4x3x64x64_S_d0_1_2_3 h_S_) main_v36 main_c_13
  let main_v38 : IVec S_ 1 := andi main_v33 main_v37
  let main_v39 : FVec F S4x64 .f32 := Host.absf main_arg9
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S4x64x64 .f32) (main_arg6 : FVec F S3x64 .f32) (main_arg7 : FVec F S4x64 .f32) (main_arg8 : FVec F S4x3x64x64 .f32) (main_arg9 : FVec F S4x64 .f32) (main_arg10 : FVec F S64x64 .f32) (main_arg11 : FVec F S64 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S4x64x64 .f32 := Host.absf main_arg5
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x1600000 32) (main_arg2 : FVec F S1600000 .f32) (main_arg3 : FVec F S50000x64 .f32) (main_arg4 : FVec F S50000x64 .f32) (main_arg5 : FVec F S4x64x64 .f32) (main_arg6 : FVec F S3x64 .f32) (main_arg7 : FVec F S4x64 .f32) (main_arg8 : FVec F S4x3x64x64 .f32) (main_arg9 : FVec F S4x64 .f32) (main_arg10 : FVec F S64x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg4
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S4x64x64 : Shape := ⟨3, ![4, 64, 64]⟩
abbrev S3x64 : Shape := ⟨2, ![3, 64]⟩
abbrev S4x64 : Shape := ⟨2, ![4, 64]⟩
abbrev S4x3x64x64 : Shape := ⟨4, ![4, 3, 64, 64]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x64 : Shape := ⟨2, ![1600000, 64]⟩
abbrev S50000x1 : Shape := ⟨2, ![50000, 1]⟩
abbrev S1x64x64 : Shape := ⟨3, ![1, 64, 64]⟩
abbrev S1x1x64x64 : Shape := ⟨4, ![1, 1, 64, 64]⟩
abbrev S256x64 : Shape := ⟨2, ![256, 64]⟩
abbrev S256x256 : Shape := ⟨2, ![256, 256]⟩
abbrev S256 : Shape := ⟨1, ![256]⟩
abbrev S1x256 : Shape := ⟨2, ![1, 256]⟩
abbrev S1x64 : Shape := ⟨2, ![1, 64]⟩
abbrev S2000x64 : Shape := ⟨2, ![2000, 64]⟩
abbrev S2000x1 : Shape := ⟨2, ![2000, 1]⟩
abbrev S2000x256 : Shape := ⟨2, ![2000, 256]⟩

abbrev nBuf : Space → Nat
  | .hbm => 139
  | .vmem => 23
  | .smem => 0
  | _ => 0

abbrev hbmTy0_0 (i : Nat) : BufTy := match i % 128 with
  | 0 => ⟨S50000x64, .f32⟩
  | 1 => ⟨S2x1600000, .i32⟩
  | 2 => ⟨S1600000, .f32⟩
  | 3 => ⟨S50000x64, .f32⟩
  | 4 => ⟨S50000x64, .f32⟩
  | 5 => ⟨S4x64x64, .f32⟩
  | 6 => ⟨S3x64, .f32⟩
  | 7 => ⟨S4x64, .f32⟩
  | 8 => ⟨S4x3x64x64, .f32⟩
  | 9 => ⟨S4x64, .f32⟩
  | 10 => ⟨S64x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S50000, .f32⟩
  | 52 => ⟨S50000, .f32⟩
  | 53 => ⟨S_, .f32⟩
  | 54 => ⟨S50000, .f32⟩
  | 55 => ⟨S50000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S50000x64, .f32⟩
  | 70 => ⟨S1600000x1, .i32⟩
  | 71 => ⟨S50000x64, .f32⟩
  | 72 => ⟨S50000x1, .f32⟩
  | 73 => ⟨S50000x64, .f32⟩
  | 74 => ⟨S50000x64, .f32⟩
  | 75 => ⟨S50000x64, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x64, .f32⟩
  | 87 => ⟨S1600000x64, .f32⟩
  | 88 => ⟨S_, .f32⟩
  | 89 => ⟨S50000x64, .f32⟩
  | 90 => ⟨S1600000x1, .i32⟩
  | 91 => ⟨S50000x64, .f32⟩
  | 92 => ⟨S50000x1, .f32⟩
  | 93 => ⟨S1x64x64, .f32⟩
  | 94 => ⟨S64x64, .f32⟩
  | 95 => ⟨S1x1x64x64, .f32⟩
  | 96 => ⟨S64x64, .f32⟩
  | 97 => ⟨S1x1x64x64, .f32⟩
  | 98 => ⟨S64x64, .f32⟩
  | 99 => ⟨S1x1x64x64, .f32⟩
  | 100 => ⟨S64x64, .f32⟩
  | 101 => ⟨S256x64, .f32⟩
  | 102 => ⟨S1x64x64, .f32⟩
  | 103 => ⟨S64x64, .f32⟩
  | 104 => ⟨S1x1x64x64, .f32⟩
  | 105 => ⟨S64x64, .f32⟩
  | 106 => ⟨S1x1x64x64, .f32⟩
  | 107 => ⟨S64x64, .f32⟩
  | 108 => ⟨S1x1x64x64, .f32⟩
  | 109 => ⟨S64x64, .f32⟩
  | 110 => ⟨S256x64, .f32⟩
  | 111 => ⟨S1x64x64, .f32⟩
  | 112 => ⟨S64x64, .f32⟩
  | 113 => ⟨S1x1x64x64, .f32⟩
  | 114 => ⟨S64x64, .f32⟩
  | 115 => ⟨S1x1x64x64, .f32⟩
  | 116 => ⟨S64x64, .f32⟩
  | 117 => ⟨S1x1x64x64, .f32⟩
  | 118 => ⟨S64x64, .f32⟩
  | 119 => ⟨S256x64, .f32⟩
  | 120 => ⟨S1x64x64, .f32⟩
  | 121 => ⟨S64x64, .f32⟩
  | 122 => ⟨S1x1x64x64, .f32⟩
  | 123 => ⟨S64x64, .f32⟩
  | 124 => ⟨S1x1x64x64, .f32⟩
  | 125 => ⟨S64x64, .f32⟩
  | 126 => ⟨S1x1x64x64, .f32⟩
  | 127 => ⟨S64x64, .f32⟩
  | _ => ⟨S50000x64, .f32⟩

abbrev hbmTy0_1 (i : Nat) : BufTy := match i % 128 with
  | 0 => ⟨S256x64, .f32⟩
  | 1 => ⟨S256x256, .f32⟩
  | 2 => ⟨S256x256, .bf16⟩
  | 3 => ⟨S4x64, .f32⟩
  | 4 => ⟨S256, .f32⟩
  | 5 => ⟨S1x256, .f32⟩
  | 6 => ⟨S64x64, .bf16⟩
  | 7 => ⟨S1x64, .f32⟩
  | 8 => ⟨S50000x64, .f32⟩
  | 9 => ⟨S50000x64, .f32⟩
  | 10 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S256x256, .bf16⟩
  | .local _ .vmem, ⟨13, _⟩ => ⟨S1x256, .f32⟩
  | .local _ .vmem, ⟨14, _⟩ => ⟨S3x64, .f32⟩
  | .local _ .vmem, ⟨15, _⟩ => ⟨S64x64, .bf16⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107_0 : Ref sig .tc := ⟨.hbm, 136, rfl⟩
abbrev main_v107_1 : Ref sig .tc := ⟨.hbm, 137, rfl⟩
abbrev main_v107_2 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S4x64x64_S1x64x64_0_0_0 : S4x64x64.Slices ![0, 0, 0] S1x64x64
  shapeCasts_S1x64x64_S64x64 : S1x64x64.ShapeCasts S64x64
  slices_S4x3x64x64_S1x1x64x64_0_0_0_0 : S4x3x64x64.Slices ![0, 0, 0, 0] S1x1x64x64
  shapeCasts_S1x1x64x64_S64x64 : S1x1x64x64.ShapeCasts S64x64
  slices_S4x3x64x64_S1x1x64x64_0_1_0_0 : S4x3x64x64.Slices ![0, 1, 0, 0] S1x1x64x64
  slices_S4x3x64x64_S1x1x64x64_0_2_0_0 : S4x3x64x64.Slices ![0, 2, 0, 0] S1x1x64x64
  concatenates_S64x64_S64x64_S64x64_S64x64_S256x64_d0 : Shape.Concatenates [S64x64, S64x64, S64x64, S64x64] S256x64 0
  slices_S4x64x64_S1x64x64_1_0_0 : S4x64x64.Slices ![1, 0, 0] S1x64x64
  slices_S4x3x64x64_S1x1x64x64_1_0_0_0 : S4x3x64x64.Slices ![1, 0, 0, 0] S1x1x64x64
  slices_S4x3x64x64_S1x1x64x64_1_1_0_0 : S4x3x64x64.Slices ![1, 1, 0, 0] S1x1x64x64
  slices_S4x3x64x64_S1x1x64x64_1_2_0_0 : S4x3x64x64.Slices ![1, 2, 0, 0] S1x1x64x64
  slices_S4x64x64_S1x64x64_2_0_0 : S4x64x64.Slices ![2, 0, 0] S1x64x64
  slices_S4x3x64x64_S1x1x64x64_2_0_0_0 : S4x3x64x64.Slices ![2, 0, 0, 0] S1x1x64x64
  slices_S4x3x64x64_S1x1x64x64_2_1_0_0 : S4x3x64x64.Slices ![2, 1, 0, 0] S1x1x64x64
  slices_S4x3x64x64_S1x1x64x64_2_2_0_0 : S4x3x64x64.Slices ![2, 2, 0, 0] S1x1x64x64
  slices_S4x64x64_S1x64x64_3_0_0 : S4x64x64.Slices ![3, 0, 0] S1x64x64
  slices_S4x3x64x64_S1x1x64x64_3_0_0_0 : S4x3x64x64.Slices ![3, 0, 0, 0] S1x1x64x64
  slices_S4x3x64x64_S1x1x64x64_3_1_0_0 : S4x3x64x64.Slices ![3, 1, 0, 0] S1x1x64x64
  slices_S4x3x64x64_S1x1x64x64_3_2_0_0 : S4x3x64x64.Slices ![3, 2, 0, 0] S1x1x64x64
  concatenates_S256x64_S256x64_S256x64_S256x64_S256x256_d1 : Shape.Concatenates [S256x64, S256x64, S256x64, S256x64] S256x256 1
  bitsLt_bf16_f32 : FTy.bits .bf16 < FTy.bits .f32
  shapeCasts_S4x64_S256 : S4x64.ShapeCasts S256
  bcast_S256_S1x256_1 : S256.BroadcastsInDim S1x256 (![1] : Fin 1 → Fin S1x256.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  concatenates_S2000x64_S2000x64_S2000x64_S2000x64_S2000x256_d1 : Shape.Concatenates [S2000x64, S2000x64, S2000x64, S2000x64] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S3x64_S3x64_0_0 : ∀ a, (![0, 0] : Fin 2 → Nat) a + S3x64.size a ≤ S3x64.size a
  h_S3x64 : 0 < S3x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  slices_S3x64_o0_0_S1x64 : S3x64.Slices ![0, 0] S1x64
  shapeCasts_S1x64_S64 : S1x64.ShapeCasts S64
  broadcasts_S1x64_S2000x64 : S1x64.Broadcasts S2000x64
  slices_S3x64_o1_0_S1x64 : S3x64.Slices ![1, 0] S1x64
  slices_S3x64_o2_0_S1x64 : S3x64.Slices ![2, 0] S1x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x256_S256x256_S2000x256_1_0_0_1_n_n_wf : DotDims.WF S2000x256 S256x256 S2000x256 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S50000x64.size a
  hwx0_11 : ∀ i : grid0.Coords, EltTy.bits .f32 = 32 ∨ (Rect.block (s := S50000x64) S2000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x64.size a ≤ S50000x64.size a
  hwx0_12 : ∀ i : grid0.Coords, EltTy.bits .f32 = 32 ∨ (Rect.block (s := S50000x64) S2000x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S50000x64.size a
  hwx0_13 : ∀ i : grid0.Coords, EltTy.bits .f32 = 32 ∨ (Rect.block (s := S50000x64) S2000x64.size (cc0_transform_13 i) (hinb0_13 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v62) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v63) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v101) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v104) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v105) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v106) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v107_0) S2000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v107_1) S2000x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v107_2) S2000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S4x64x64 : Shape := ⟨3, ![4, 64, 64]⟩
abbrev S3x64 : Shape := ⟨2, ![3, 64]⟩
abbrev S4x64 : Shape := ⟨2, ![4, 64]⟩
abbrev S4x3x64x64 : Shape := ⟨4, ![4, 3, 64, 64]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1x64x64 : Shape := ⟨3, ![1, 64, 64]⟩
abbrev S1x3x64x64 : Shape := ⟨4, ![1, 3, 64, 64]⟩
abbrev S3x64x64 : Shape := ⟨3, ![3, 64, 64]⟩
abbrev S1x64 : Shape := ⟨2, ![1, 64]⟩
abbrev S1600000x64 : Shape := ⟨2, ![1600000, 64]⟩
abbrev S50000x1 : Shape := ⟨2, ![50000, 1]⟩

abbrev nBuf : Space → Nat
  | .hbm => 395
  | .vmem => 0
  | .smem => 0
  | _ => 0

abbrev hbmTy0_0 (i : Nat) : BufTy := match i % 128 with
  | 0 => ⟨S50000x64, .f32⟩
  | 1 => ⟨S2x1600000, .i32⟩
  | 2 => ⟨S1600000, .f32⟩
  | 3 => ⟨S50000x64, .f32⟩
  | 4 => ⟨S50000x64, .f32⟩
  | 5 => ⟨S4x64x64, .f32⟩
  | 6 => ⟨S3x64, .f32⟩
  | 7 => ⟨S4x64, .f32⟩
  | 8 => ⟨S4x3x64x64, .f32⟩
  | 9 => ⟨S4x64, .f32⟩
  | 10 => ⟨S64x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S50000, .f32⟩
  | 52 => ⟨S50000, .f32⟩
  | 53 => ⟨S_, .f32⟩
  | 54 => ⟨S50000, .f32⟩
  | 55 => ⟨S50000, .f32⟩
  | 56 => ⟨S1x64x64, .f32⟩
  | 57 => ⟨S64x64, .f32⟩
  | 58 => ⟨S50000x64, .f32⟩
  | 59 => ⟨S1x3x64x64, .f32⟩
  | 60 => ⟨S3x64x64, .f32⟩
  | 61 => ⟨S1x64, .f32⟩
  | 62 => ⟨S64, .f32⟩
  | 63 => ⟨S1x64x64, .f32⟩
  | 64 => ⟨S64x64, .f32⟩
  | 65 => ⟨S50000x64, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x64, .f32⟩
  | 77 => ⟨S1600000x64, .f32⟩
  | 78 => ⟨S_, .f32⟩
  | 79 => ⟨S50000x64, .f32⟩
  | 80 => ⟨S1600000x1, .i32⟩
  | 81 => ⟨S50000x64, .f32⟩
  | 82 => ⟨S50000x1, .f32⟩
  | 83 => ⟨S50000x64, .f32⟩
  | 84 => ⟨S50000x64, .f32⟩
  | 85 => ⟨S50000x64, .f32⟩
  | 86 => ⟨S1x64x64, .f32⟩
  | 87 => ⟨S64x64, .f32⟩
  | 88 => ⟨S50000x64, .f32⟩
  | 89 => ⟨S50000x64, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S50000x64, .f32⟩
  | 104 => ⟨S1600000x1, .i32⟩
  | 105 => ⟨S50000x64, .f32⟩
  | 106 => ⟨S50000x1, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S1x64x64, .f32⟩
  | 115 => ⟨S64x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S1x64, .f32⟩
  | 123 => ⟨S64, .f32⟩
  | 124 => ⟨S1x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S1x64, .f32⟩
  | 1 => ⟨S64, .f32⟩
  | 2 => ⟨S1x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S1x64x64, .f32⟩
  | 14 => ⟨S64x64, .f32⟩
  | 15 => ⟨S50000x64, .f32⟩
  | 16 => ⟨S1x3x64x64, .f32⟩
  | 17 => ⟨S3x64x64, .f32⟩
  | 18 => ⟨S1x64, .f32⟩
  | 19 => ⟨S64, .f32⟩
  | 20 => ⟨S1x64x64, .f32⟩
  | 21 => ⟨S64x64, .f32⟩
  | 22 => ⟨S50000x64, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S1600000x64, .f32⟩
  | 35 => ⟨S_, .f32⟩
  | 36 => ⟨S50000x64, .f32⟩
  | 37 => ⟨S1600000x1, .i32⟩
  | 38 => ⟨S50000x64, .f32⟩
  | 39 => ⟨S50000x1, .f32⟩
  | 40 => ⟨S50000x64, .f32⟩
  | 41 => ⟨S50000x64, .f32⟩
  | 42 => ⟨S50000x64, .f32⟩
  | 43 => ⟨S1x64x64, .f32⟩
  | 44 => ⟨S64x64, .f32⟩
  | 45 => ⟨S50000x64, .f32⟩
  | 46 => ⟨S50000x64, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x64, .f32⟩
  | 58 => ⟨S1600000x64, .f32⟩
  | 59 => ⟨S_, .f32⟩
  | 60 => ⟨S50000x64, .f32⟩
  | 61 => ⟨S1600000x1, .i32⟩
  | 62 => ⟨S50000x64, .f32⟩
  | 63 => ⟨S50000x1, .f32⟩
  | 64 => ⟨S50000x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S1x64x64, .f32⟩
  | 72 => ⟨S64x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S50000x64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S50000x64, .f32⟩
  | 85 => ⟨S1x64, .f32⟩
  | 86 => ⟨S64, .f32⟩
  | 87 => ⟨S1x64, .f32⟩
  | 88 => ⟨S50000x64, .f32⟩
  | 89 => ⟨S50000x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S1x64x64, .f32⟩
  | 99 => ⟨S64x64, .f32⟩
  | 100 => ⟨S50000x64, .f32⟩
  | 101 => ⟨S1x3x64x64, .f32⟩
  | 102 => ⟨S3x64x64, .f32⟩
  | 103 => ⟨S1x64, .f32⟩
  | 104 => ⟨S64, .f32⟩
  | 105 => ⟨S1x64x64, .f32⟩
  | 106 => ⟨S64x64, .f32⟩
  | 107 => ⟨S50000x64, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S1600000x64, .f32⟩
  | 120 => ⟨S_, .f32⟩
  | 121 => ⟨S50000x64, .f32⟩
  | 122 => ⟨S1600000x1, .i32⟩
  | 123 => ⟨S50000x64, .f32⟩
  | 124 => ⟨S50000x1, .f32⟩
  | 125 => ⟨S50000x64, .f32⟩
  | 126 => ⟨S50000x64, .f32⟩
  | 127 => ⟨S50000x64, .f32⟩
  | _ => ⟨S50000x64, .f32⟩

abbrev hbmTy0_2 (i : Nat) : BufTy := match i % 128 with
  | 0 => ⟨S1x64x64, .f32⟩
  | 1 => ⟨S64x64, .f32⟩
  | 2 => ⟨S50000x64, .f32⟩
  | 3 => ⟨S50000x64, .f32⟩
  | 4 => ⟨S1600000x1, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x64, .f32⟩
  | 15 => ⟨S1600000x64, .f32⟩
  | 16 => ⟨S_, .f32⟩
  | 17 => ⟨S50000x64, .f32⟩
  | 18 => ⟨S1600000x1, .i32⟩
  | 19 => ⟨S50000x64, .f32⟩
  | 20 => ⟨S50000x1, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64x64, .f32⟩
  | 29 => ⟨S64x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S50000x64, .f32⟩
  | 36 => ⟨S1x64, .f32⟩
  | 37 => ⟨S64, .f32⟩
  | 38 => ⟨S1x64, .f32⟩
  | 39 => ⟨S50000x64, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S1x64x64, .f32⟩
  | 46 => ⟨S64x64, .f32⟩
  | 47 => ⟨S50000x64, .f32⟩
  | 48 => ⟨S1x3x64x64, .f32⟩
  | 49 => ⟨S3x64x64, .f32⟩
  | 50 => ⟨S1x64, .f32⟩
  | 51 => ⟨S64, .f32⟩
  | 52 => ⟨S1x64x64, .f32⟩
  | 53 => ⟨S64x64, .f32⟩
  | 54 => ⟨S50000x64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S50000x64, .f32⟩
  | 69 => ⟨S1600000x1, .i32⟩
  | 70 => ⟨S50000x64, .f32⟩
  | 71 => ⟨S50000x1, .f32⟩
  | 72 => ⟨S50000x64, .f32⟩
  | 73 => ⟨S50000x64, .f32⟩
  | 74 => ⟨S50000x64, .f32⟩
  | 75 => ⟨S1x64x64, .f32⟩
  | 76 => ⟨S64x64, .f32⟩
  | 77 => ⟨S50000x64, .f32⟩
  | 78 => ⟨S50000x64, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S1600000x64, .f32⟩
  | 91 => ⟨S_, .f32⟩
  | 92 => ⟨S50000x64, .f32⟩
  | 93 => ⟨S1600000x1, .i32⟩
  | 94 => ⟨S50000x64, .f32⟩
  | 95 => ⟨S50000x1, .f32⟩
  | 96 => ⟨S50000x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S1x64x64, .f32⟩
  | 104 => ⟨S64x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S50000x64, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x64, .f32⟩

abbrev hbmTy0_3 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_10 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_cst_15 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_16 : Ref sig .tc := ⟨.hbm, 152, rfl⟩
abbrev main_v120 : Ref sig .tc := ⟨.hbm, 153, rfl⟩
abbrev main_v121 : Ref sig .tc := ⟨.hbm, 154, rfl⟩
abbrev main_c_17 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_18 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_c_19 : Ref sig .tc := ⟨.hbm, 176, rfl⟩
abbrev main_v141 : Ref sig .tc := ⟨.hbm, 177, rfl⟩
abbrev main_v142 : Ref sig .tc := ⟨.hbm, 178, rfl⟩
abbrev main_c_20 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_21 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_22 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_23 : Ref sig .tc := ⟨.hbm, 220, rfl⟩
abbrev main_v181 : Ref sig .tc := ⟨.hbm, 221, rfl⟩
abbrev main_v182 : Ref sig .tc := ⟨.hbm, 222, rfl⟩
abbrev main_cst_24 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_c_25 : Ref sig .tc := ⟨.hbm, 237, rfl⟩
abbrev main_v196 : Ref sig .tc := ⟨.hbm, 238, rfl⟩
abbrev main_v197 : Ref sig .tc := ⟨.hbm, 239, rfl⟩
abbrev main_c_26 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_cst_27 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_c_28 : Ref sig .tc := ⟨.hbm, 261, rfl⟩
abbrev main_v217 : Ref sig .tc := ⟨.hbm, 262, rfl⟩
abbrev main_v218 : Ref sig .tc := ⟨.hbm, 263, rfl⟩
abbrev main_c_29 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_30 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_cst_31 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_c_32 : Ref sig .tc := ⟨.hbm, 312, rfl⟩
abbrev main_v264 : Ref sig .tc := ⟨.hbm, 313, rfl⟩
abbrev main_v265 : Ref sig .tc := ⟨.hbm, 314, rfl⟩
abbrev main_c_33 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_cst_34 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_c_35 : Ref sig .tc := ⟨.hbm, 336, rfl⟩
abbrev main_v285 : Ref sig .tc := ⟨.hbm, 337, rfl⟩
abbrev main_v286 : Ref sig .tc := ⟨.hbm, 338, rfl⟩
abbrev main_c_36 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_cst_37 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_cst_38 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_cst_39 : Ref sig .tc := ⟨.hbm, 380, rfl⟩
abbrev main_v325 : Ref sig .tc := ⟨.hbm, 381, rfl⟩
abbrev main_v326 : Ref sig .tc := ⟨.hbm, 382, rfl⟩
abbrev main_cst_40 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_call1_cst : Ref sig .tc := ⟨.hbm, 388, rfl⟩
abbrev main_call1_v0 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S4x64x64_S1x64x64_0_0_0 : S4x64x64.Slices ![0, 0, 0] S1x64x64
  shapeCasts_S1x64x64_S64x64 : S1x64x64.ShapeCasts S64x64
  slices_S4x3x64x64_S1x3x64x64_0_0_0_0 : S4x3x64x64.Slices ![0, 0, 0, 0] S1x3x64x64
  shapeCasts_S1x3x64x64_S3x64x64 : S1x3x64x64.ShapeCasts S3x64x64
  slices_S4x64_S1x64_0_0 : S4x64.Slices ![0, 0] S1x64
  shapeCasts_S1x64_S64 : S1x64.ShapeCasts S64
  slices_S3x64x64_S1x64x64_0_0_0 : S3x64x64.Slices ![0, 0, 0] S1x64x64
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64_S1x64_0_0 : S3x64.Slices ![0, 0] S1x64
  slices_S4x64x64_S1x64x64_1_0_0 : S4x64x64.Slices ![1, 0, 0] S1x64x64
  slices_S4x3x64x64_S1x3x64x64_1_0_0_0 : S4x3x64x64.Slices ![1, 0, 0, 0] S1x3x64x64
  slices_S4x64_S1x64_1_0 : S4x64.Slices ![1, 0] S1x64
  slices_S3x64_S1x64_1_0 : S3x64.Slices ![1, 0] S1x64
  slices_S4x64x64_S1x64x64_2_0_0 : S4x64x64.Slices ![2, 0, 0] S1x64x64
  slices_S4x3x64x64_S1x3x64x64_2_0_0_0 : S4x3x64x64.Slices ![2, 0, 0, 0] S1x3x64x64
  slices_S4x64_S1x64_2_0 : S4x64.Slices ![2, 0] S1x64
  slices_S4x64x64_S1x64x64_3_0_0 : S4x64x64.Slices ![3, 0, 0] S1x64x64
  slices_S4x3x64x64_S1x3x64x64_3_0_0_0 : S4x3x64x64.Slices ![3, 0, 0, 0] S1x3x64x64
  slices_S4x64_S1x64_3_0 : S4x64.Slices ![3, 0] S1x64
  slices_S3x64_S1x64_2_0 : S3x64.Slices ![2, 0] S1x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KPrefix.lean ====
/-
  The host stretch of @main that runs before the one pallas_call — the degree and normalisation of the graph,
  the two propagations, the packed weight matrix and bias — seen as one fold of operations over the launch memory.
  `V` names what every TensorCore array holds when the region is entered; `hmain` says @main is that fold followed
  by the region; and no operation of the fold writes an argument array, so each argument is found as launched.
-/
import proofs.«138098_j15135464751774_2_alg».proof.Proof.Gen.Kernel.Launch
import proofs.«138098_j15135464751774_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s TensorCore arrays when the region is entered: the launch contents folded through the three host
    stretches (the operations before the `where`, the `where` itself, the operations after it). -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
set_option maxHeartbeats 4000000 in
theorem fresh2 : (hostOps0_2 : List (HloOp τ sig (Elt F))).Forall fun op => op.fresh = ∅ := by
  simp only [List.Forall]; repeat' constructor

/-- @main is the three host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨fresh0, fresh1, fresh2⟩ (fun c => (main_chain c).trans rfl)

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

end Cert.Kernel.Hand

end
-- ==== Proof.KBody.lean ====
/-
  The kernel body of the one pipelined call, on whole staging buffers. The body reads its eleven input buffers whole,
  forms the four gate pre-activations as one packed product, and overwrites each of its three output buffers whole:
  the new hidden state, the new cell state, and the projected output. Each output buffer therefore ends at the
  canonical contents of a single covering store, a function of the eleven input buffers alone; what the output
  buffers held before is read by the body but never used.
-/
import proofs.«138098_j15135464751774_2_alg».proof.Proof.Gen.Kernel.Skeleton
import proofs.«138098_j15135464751774_2_alg».proof.Proof.Gen.Kernel.Launch
import proofs.«138098_j15135464751774_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every buffer is read or written whole -/

abbrev rBlk : Rect S2000x64 := Rect.unit (s := S2000x64) ![0, 0] S2000x64.size inb_S2000x64_S2000x64_0_0
abbrev rCol : Rect S2000x1 := Rect.unit (s := S2000x1) ![0, 0] S2000x1.size inb_S2000x1_S2000x1_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rP : Rect S3x64 := Rect.unit (s := S3x64) ![0, 0] S3x64.size inb_S3x64_S3x64_0_0
abbrev rWo : Rect S64x64 := Rect.unit (s := S64x64) ![0, 0] S64x64.size inb_S64x64_S64x64_0_0
abbrev rBo : Rect S1x64 := Rect.unit (s := S1x64) ![0, 0] S1x64.size inb_S1x64_S1x64_0_0

/-! ## What the body leaves in each output buffer, from the input buffers' contents

  Inputs in window order: `x0` the features, `x1` the hidden state, `x2` the cell state, `x3`, `x4` the two
  propagated features, `x5` the degree column, `x6` the packed gate weights, `x7` the gate bias, `x8` the three
  peephole rows, `x9` the output weights, `x10` the output bias. -/

/-- The packed gate pre-activations `[i | f | g | o]`, one product of the concatenated operands with the packed weights. -/
abbrev gatesOf (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : FVec F S2000x256 .f32 :=
  k0_pay6 (View.ld x0 rBlk) (View.ld x1 rBlk) (View.ld x3 rBlk) (View.ld x4 rBlk) (View.ld x5 rCol) (View.ld x6 rW) (View.ld x7 rB)

/-- The third output buffer after the body: the new cell state. -/
def cnBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay1 (View.ld x2 rBlk) (View.ld x8 rP) (gatesOf x0 x1 x2 x3 x4 x5 x6 x7 x8 x9 x10)⟩]

/-- The second output buffer after the body: the new hidden state. -/
def hnBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay2 (View.ld x2 rBlk) (View.ld x8 rP) (gatesOf x0 x1 x2 x3 x4 x5 x6 x7 x8 x9 x10)⟩]

/-- The first output buffer after the body: the rectified hidden state through the output layer. -/
def houtBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay3 (View.ld x2 rBlk) (View.ld x8 rP) (k0_pay4 (View.ld x9 rWo)) (k0_pay5 (View.ld x10 rBo)) (gatesOf x0 x1 x2 x3 x4 x5 x6 x7 x8 x9 x10)⟩]

/-- One whole-buffer store covers the buffer. -/
theorem cover_whole (p : Vec F S2000x64 .f32) (y : S2000x64.Idx) :
    ∃ pc ∈ ([⟨rBlk, p⟩] : List (View.Piece (Elt F) S2000x64 .f32)), y ∈ pc.1.set :=
  View.cover_of_tiled [⟨rBlk, p⟩] S2000x64.size (by rfl) y

/-! ## The body's triple -/

set_option maxHeartbeats 4000000 in
/-- The kernel function on whole buffers, the inputs' owned at contents `xW` and the outputs' at anything, runs to the
    continuation holding the inputs' as they were and the outputs' at `houtBlock`, `hnBlock`, `cnBlock` of the inputs'. -/
theorem sound_kernel (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x64 .f32) (harg9 : arg9.IsWhole) (arg10 : Memref sig .tc .vmem S64x64 .bf16) (harg10 : arg10.IsWhole) (arg11 : Memref sig .tc .vmem S1x64 .f32) (harg11 : arg11.IsWhole) (arg12 : Memref sig .tc .vmem S2000x64 .f32) (harg12 : arg12.IsWhole) (arg13 : Memref sig .tc .vmem S2000x64 .f32) (harg13 : arg13.IsWhole) (arg14 : Memref sig .tc .vmem S2000x64 .f32) (harg14 : arg14.IsWhole)
    (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (houtBlock x0 x1 x2 x3 x4 x5 x6 x7 x8 x9 x10) ∗ owns (c : Thread nD τ) arg13 fullShare (hnBlock x0 x1 x2 x3 x4 x5 x6 x7 x8 x9 x10) ∗ owns (c : Thread nD τ) arg14 fullShare (cnBlock x0 x1 x2 x3 x4 x5 x6 x7 x8 x9 x10)) -∗ K ⟨⟩))
      ⊢ wp frame (wpE (defs₀ (F := F)) Variants.none c none) E (cc0__gclstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gclstm_kernel_eq_skeleton]; unfold cc0__gclstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_whole _)
  isplitl [H12]
  · iexists _; isplitr
    swap; · iexact H12
    ipureintro
    exact View.read_writes_eq_canon _ _ _ (cover_whole _)
  iexists _; isplitr
  swap; · iexact H13
  ipureintro
  exact View.read_writes_eq_canon _ _ _ (cover_whole _)

end Cert.Kernel.Hand

end
-- ==== Proof.KFrame.lean ====
/-
  The frame of the program: the proof data of its one pipelined call — each array as the region finds it, each input
  window's buffer at its block, each output window's buffer at what the body computes from the eleven input blocks —,
  the body obligation at a generic point, the run of @main to the library's frame post, and from it the claim that
  every argument array ends as launched: four arguments are arrays the pipeline stages as inputs (read, never
  written back), the other eight are arrays no window stages, which bypass the region.
-/
import proofs.«138098_j15135464751774_2_alg».proof.Proof.Gen.Kernel.Skeleton
import proofs.«138098_j15135464751774_2_alg».proof.Proof.Gen.Kernel.Launch
import proofs.«138098_j15135464751774_2_alg».proof.Proof.Gen.Kernel.Points
import proofs.«138098_j15135464751774_2_alg».proof.Proof.KPrefix
import proofs.«138098_j15135464751774_2_alg».proof.Proof.KBody
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data of the pipeline on core `c`: the arrays as the region finds them; after the body at point `t`
    each input's buffer still at its block and each output's at the body's function of the eleven input blocks; the
    invariant is the scoped rest and the generator register, which the body never touches; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => houtBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => hnBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => cnBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (projected, the host fold never unfolded). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = houtBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_12 (c : Dev nD) (t : Fin cfg0.N) : (dats m 0 c).after 12 t = hnBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_13 (c : Dev nD) (t : Fin cfg0.N) : (dats m 0 c).after 13 t = cnBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current buffer holds its block at every point, whether the pipeline fetched it there (the six row
    blocks, at every point) or not (the five resident arrays after the first point: their block index never moves). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any `F`: every weakly fair execution of @main terminates without fault and the twelve argument
    arrays end unchanged. Arguments 0, 3, 4 and 6 are the arrays of input windows 0, 1, 2 and 8: an input's array
    ends at its entry contents, which no host operation wrote. The other eight arguments are staged by no window:
    they bypass the region at their entry contents, which again are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.Kernel.Hand

end
-- ==== Proof.KIPrefix.lean ====
/-
  The host stretch of @main that runs before the one pallas_call — the degree and normalisation of the graph,
  the two propagations, the packed weight matrix and bias — seen as one fold of operations over the launch memory.
  `V` names what every TensorCore array holds when the region is entered; `hmain` says @main is that fold followed
  by the region; and no operation of the fold writes an argument array, so each argument is found as launched.
-/
import proofs.«138098_j15135464751774_2_alg».proof.Proof.Gen.KernelIdeal.Launch
import proofs.«138098_j15135464751774_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s TensorCore arrays when the region is entered: the launch contents folded through the three host
    stretches (the operations before the `where`, the `where` itself, the operations after it). -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
set_option maxHeartbeats 4000000 in
theorem fresh2 : (hostOps0_2 : List (HloOp τ sig (Elt F))).Forall fun op => op.fresh = ∅ := by
  simp only [List.Forall]; repeat' constructor

/-- @main is the three host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    ⟨hostOps0_sub, hostOps0_1_sub, hostOps0_2_sub⟩ ⟨fresh0, fresh1, fresh2⟩ (fun c => (main_chain c).trans rfl)

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.ternary, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

end Cert.KernelIdeal.Hand

end
-- ==== Proof.KIBody.lean ====
/-
  The kernel body of the one pipelined call, on whole staging buffers. The body reads its eleven input buffers whole,
  forms the four gate pre-activations as one packed product, and overwrites each of its three output buffers whole:
  the new hidden state, the new cell state, and the projected output. Each output buffer therefore ends at the
  canonical contents of a single covering store, a function of the eleven input buffers alone; what the output
  buffers held before is read by the body but never used.
-/
import proofs.«138098_j15135464751774_2_alg».proof.Proof.Gen.KernelIdeal.Skeleton
import proofs.«138098_j15135464751774_2_alg».proof.Proof.Gen.KernelIdeal.Launch
import proofs.«138098_j15135464751774_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every buffer is read or written whole -/

abbrev rBlk : Rect S2000x64 := Rect.unit (s := S2000x64) ![0, 0] S2000x64.size inb_S2000x64_S2000x64_0_0
abbrev rCol : Rect S2000x1 := Rect.unit (s := S2000x1) ![0, 0] S2000x1.size inb_S2000x1_S2000x1_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rP : Rect S3x64 := Rect.unit (s := S3x64) ![0, 0] S3x64.size inb_S3x64_S3x64_0_0
abbrev rWo : Rect S64x64 := Rect.unit (s := S64x64) ![0, 0] S64x64.size inb_S64x64_S64x64_0_0
abbrev rBo : Rect S1x64 := Rect.unit (s := S1x64) ![0, 0] S1x64.size inb_S1x64_S1x64_0_0

/-! ## What the body leaves in each output buffer, from the input buffers' contents

  Inputs in window order: `x0` the features, `x1` the hidden state, `x2` the cell state, `x3`, `x4` the two
  propagated features, `x5` the degree column, `x6` the packed gate weights, `x7` the gate bias, `x8` the three
  peephole rows, `x9` the output weights, `x10` the output bias. -/

/-- The packed gate pre-activations `[i | f | g | o]`, one product of the concatenated operands with the packed weights. -/
abbrev gatesOf (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : FVec F S2000x256 .f32 :=
  k0_pay6 (View.ld x0 rBlk) (View.ld x1 rBlk) (View.ld x3 rBlk) (View.ld x4 rBlk) (View.ld x5 rCol) (View.ld x6 rW) (View.ld x7 rB)

/-- The third output buffer after the body: the new cell state. -/
def cnBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay1 (View.ld x2 rBlk) (View.ld x8 rP) (gatesOf x0 x1 x2 x3 x4 x5 x6 x7 x8 x9 x10)⟩]

/-- The second output buffer after the body: the new hidden state. -/
def hnBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay2 (View.ld x2 rBlk) (View.ld x8 rP) (gatesOf x0 x1 x2 x3 x4 x5 x6 x7 x8 x9 x10)⟩]

/-- The first output buffer after the body: the rectified hidden state through the output layer. -/
def houtBlock (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  View.canon [⟨rBlk, k0_pay3 (View.ld x2 rBlk) (View.ld x8 rP) (k0_pay4 (View.ld x9 rWo)) (k0_pay5 (View.ld x10 rBo)) (gatesOf x0 x1 x2 x3 x4 x5 x6 x7 x8 x9 x10)⟩]

/-- One whole-buffer store covers the buffer. -/
theorem cover_whole (p : Vec F S2000x64 .f32) (y : S2000x64.Idx) :
    ∃ pc ∈ ([⟨rBlk, p⟩] : List (View.Piece (Elt F) S2000x64 .f32)), y ∈ pc.1.set :=
  View.cover_of_tiled [⟨rBlk, p⟩] S2000x64.size (by rfl) y

/-! ## The body's triple -/

set_option maxHeartbeats 4000000 in
/-- The kernel function on whole buffers, the inputs' owned at contents `xW` and the outputs' at anything, runs to the
    continuation holding the inputs' as they were and the outputs' at `houtBlock`, `hnBlock`, `cnBlock` of the inputs'. -/
theorem sound_kernel (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x64 .f32) (harg9 : arg9.IsWhole) (arg10 : Memref sig .tc .vmem S64x64 .bf16) (harg10 : arg10.IsWhole) (arg11 : Memref sig .tc .vmem S1x64 .f32) (harg11 : arg11.IsWhole) (arg12 : Memref sig .tc .vmem S2000x64 .f32) (harg12 : arg12.IsWhole) (arg13 : Memref sig .tc .vmem S2000x64 .f32) (harg13 : arg13.IsWhole) (arg14 : Memref sig .tc .vmem S2000x64 .f32) (harg14 : arg14.IsWhole)
    (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (houtBlock x0 x1 x2 x3 x4 x5 x6 x7 x8 x9 x10) ∗ owns (c : Thread nD τ) arg13 fullShare (hnBlock x0 x1 x2 x3 x4 x5 x6 x7 x8 x9 x10) ∗ owns (c : Thread nD τ) arg14 fullShare (cnBlock x0 x1 x2 x3 x4 x5 x6 x7 x8 x9 x10)) -∗ K ⟨⟩))
      ⊢ wp frame (wpE (defs₀ (F := F)) Variants.none c none) E (cc0__gclstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gclstm_kernel_eq_skeleton]; unfold cc0__gclstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_whole _)
  isplitl [H12]
  · iexists _; isplitr
    swap; · iexact H12
    ipureintro
    exact View.read_writes_eq_canon _ _ _ (cover_whole _)
  iexists _; isplitr
  swap; · iexact H13
  ipureintro
  exact View.read_writes_eq_canon _ _ _ (cover_whole _)

end Cert.KernelIdeal.Hand

end
-- ==== Proof.KIFrame.lean ====
/-
  The frame of the program: the proof data of its one pipelined call — each array as the region finds it, each input
  window's buffer at its block, each output window's buffer at what the body computes from the eleven input blocks —,
  the body obligation at a generic point, the run of @main to the library's frame post, and from it the claim that
  every argument array ends as launched: four arguments are arrays the pipeline stages as inputs (read, never
  written back), the other eight are arrays no window stages, which bypass the region.
-/
import proofs.«138098_j15135464751774_2_alg».proof.Proof.Gen.KernelIdeal.Skeleton
import proofs.«138098_j15135464751774_2_alg».proof.Proof.Gen.KernelIdeal.Launch
import proofs.«138098_j15135464751774_2_alg».proof.Proof.Gen.KernelIdeal.Points
import proofs.«138098_j15135464751774_2_alg».proof.Proof.KIPrefix
import proofs.«138098_j15135464751774_2_alg».proof.Proof.KIBody
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data of the pipeline on core `c`: the arrays as the region finds them; after the body at point `t`
    each input's buffer still at its block and each output's at the body's function of the eleven input blocks; the
    invariant is the scoped rest and the generator register, which the body never touches; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => houtBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => hnBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => cnBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (projected, the host fold never unfolded). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = houtBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_12 (c : Dev nD) (t : Fin cfg0.N) : (dats m 0 c).after 12 t = hnBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_13 (c : Dev nD) (t : Fin cfg0.N) : (dats m 0 c).after 13 t = cnBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current buffer holds its block at every point, whether the pipeline fetched it there (the six row
    blocks, at every point) or not (the five resident arrays after the first point: their block index never moves). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any `F`: every weakly fair execution of @main terminates without fault and the twelve argument
    arrays end unchanged. Arguments 0, 3, 4 and 6 are the arrays of input windows 0, 1, 2 and 8: an input's array
    ends at its entry contents, which no host operation wrote. The other eight arguments are staged by no window:
    they bypass the region at their entry contents, which again are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Hand

end
-- ==== Proof.KIFinal.lean ====
/-
  The three result arrays after the run, as whole-array functions. The grid has 25 points; point `t` stages rows
  `2000 t … 2000 t + 1999` of the six row-blocked inputs and the five small inputs whole, and writes back rows
  `2000 t … 2000 t + 1999` of each of the three results. The 25 blocks of a result tile its 50000 rows, so each result
  array ends as the array assembled from what each point left: row `r` is row `r % 2000` of the body's result over the
  input blocks of point `r / 2000`.
-/
import proofs.«138098_j15135464751774_2_alg».proof.Proof.KIFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx
open Cert.KernelIdeal Cert.KernelIdeal.Gen

variable {F : FTy → Type} [FloatOps F]

variable (m : (ℓ : Loc nD τ sig) → Buf (Elt F) ℓ) (ρ : Dev nD → PrngReg)

theorem hz : (![0, 0] : Fin 2 → Nat) = fun _ => 0 := funext fun a => by fin_cases a <;> rfl

/-! ## The body's results over the blocks themselves

  A load through the whole-buffer rectangle reads the buffer, and one whole-buffer store leaves its payload. -/

/-- The new cell state over the eleven input blocks. -/
abbrev cnPay (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  k0_pay1 x2 x8 (k0_pay6 x0 x1 x3 x4 x5 x6 x7)
/-- The new hidden state over the eleven input blocks. -/
abbrev hnPay (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  k0_pay2 x2 x8 (k0_pay6 x0 x1 x3 x4 x5 x6 x7)
/-- The projected output over the eleven input blocks. -/
abbrev houtPay (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : Vec F S2000x64 .f32 :=
  k0_pay3 x2 x8 (k0_pay4 x9) (k0_pay5 x10) (k0_pay6 x0 x1 x3 x4 x5 x6 x7)

theorem cnBlock_eq (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : cnBlock x0 x1 x2 x3 x4 x5 x6 x7 x8 x9 x10 = cnPay x0 x1 x2 x3 x4 x5 x6 x7 x8 x9 x10 := by
  unfold cnBlock cnPay gatesOf
  rw [View.canon_unit_zero hz]
  simp only [View.ld_unit_zero (S := S2000x64) hz, View.ld_unit_zero (S := S2000x1) hz, View.ld_unit_zero (S := S256x256) hz, View.ld_unit_zero (S := S1x256) hz, View.ld_unit_zero (S := S3x64) hz, View.ld_unit_zero (S := S64x64) hz, View.ld_unit_zero (S := S1x64) hz]
theorem hnBlock_eq (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : hnBlock x0 x1 x2 x3 x4 x5 x6 x7 x8 x9 x10 = hnPay x0 x1 x2 x3 x4 x5 x6 x7 x8 x9 x10 := by
  unfold hnBlock hnPay gatesOf
  rw [View.canon_unit_zero hz]
  simp only [View.ld_unit_zero (S := S2000x64) hz, View.ld_unit_zero (S := S2000x1) hz, View.ld_unit_zero (S := S256x256) hz, View.ld_unit_zero (S := S1x256) hz, View.ld_unit_zero (S := S3x64) hz, View.ld_unit_zero (S := S64x64) hz, View.ld_unit_zero (S := S1x64) hz]
theorem houtBlock_eq (x0 : Vec F S2000x64 .f32) (x1 : Vec F S2000x64 .f32) (x2 : Vec F S2000x64 .f32) (x3 : Vec F S2000x64 .f32) (x4 : Vec F S2000x64 .f32) (x5 : Vec F S2000x1 .f32) (x6 : Vec F S256x256 .bf16) (x7 : Vec F S1x256 .f32) (x8 : Vec F S3x64 .f32) (x9 : Vec F S64x64 .bf16) (x10 : Vec F S1x64 .f32) : houtBlock x0 x1 x2 x3 x4 x5 x6 x7 x8 x9 x10 = houtPay x0 x1 x2 x3 x4 x5 x6 x7 x8 x9 x10 := by
  unfold houtBlock houtPay gatesOf
  rw [View.canon_unit_zero hz]
  simp only [View.ld_unit_zero (S := S2000x64) hz, View.ld_unit_zero (S := S2000x1) hz, View.ld_unit_zero (S := S256x256) hz, View.ld_unit_zero (S := S1x256) hz, View.ld_unit_zero (S := S3x64) hz, View.ld_unit_zero (S := S64x64) hz, View.ld_unit_zero (S := S1x64) hz]

/-! ## Rows and grid points -/

/-- The grid point whose block holds row `r`, -/
def ptOf (r : Fin 50000) : Fin cfg0.N := ⟨r.val / 2000, by have := r.isLt; rw [show cfg0.N = 25 from N_0]; omega⟩
/-- the row's place in that block, -/
def rowIn (r : Fin 50000) : Fin 2000 := ⟨r.val % 2000, Nat.mod_lt _ (by decide)⟩
/-- and row `p` of point `t`'s block as a row of the array. -/
def rowAt (t : Fin cfg0.N) (p : Fin 2000) : Fin 50000 := ⟨2000 * t.val + p.val, by
  have ht : t.val < 25 := Nat.lt_of_lt_of_eq t.isLt N_0
  have hp : p.val < 2000 := p.isLt
  omega⟩

/-- A 50000-row array assembled from one 2000-row block per grid point. -/
def rowsOf (B : Fin cfg0.N → Vec F S2000x64 .f32) : S50000x64.Idx → Elt F .f32 :=
  fun i => B (ptOf (i 0)) (ix2 (rowIn (i 0)) (i 1) : S2000x64.Idx)

/-- At row `2000 t + y₀` it reads block `t` at row `y₀`. -/
theorem rowsOf_apply (B : Fin cfg0.N → Vec F S2000x64 .f32) (t : Fin cfg0.N) (y : S2000x64.Idx) (i : S50000x64.Idx)
    (h0 : (i 0).val = t.val * 2000 + (y 0).val) (h1 : (i 1).val = (y 1).val) : rowsOf B i = B t y := by
  unfold rowsOf
  have hy : (y 0).val < 2000 := (y 0).isLt
  have hp : ptOf (i 0) = t := Fin.ext (by show (i 0).val / 2000 = t.val; omega)
  have hl : (ix2 (rowIn (i 0)) (i 1) : S2000x64.Idx) = y := by
    funext a
    apply Fin.ext
    match a with
    | ⟨0, _⟩ => show (i 0).val % 2000 = (y 0).val; omega
    | ⟨1, _⟩ => exact h1
  rw [hp, hl]

/-! ## The printed index maps, decided over the 25 points

  The six row-blocked inputs and the three results move one block of rows per point; the five small inputs stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-! ## The input blocks as rows of their arrays -/

/-- Input window 0's block at point `t` is rows `2000 t … 2000 t + 1999` of its array. -/
theorem iblk_0_apply (c : Dev nD) (t : Fin cfg0.N) (x : S2000x64.Idx) (k : S50000x64.Idx)
    (hk0 : (k 0).val = 2000 * t.val + (x 0).val) (hk1 : (k 1).val = (x 1).val) :
    iblk m c 0 t x = V m c main_arg0 k := by
  obtain ⟨e0, e1⟩ := (idx_facts t).1
  unfold iblk
  rw [View.read_apply]
  show V m c main_arg0 _ = V m c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 64 + 1 * (x 1).val = (k 1).val; rw [e1, hk1]; omega
theorem iblk_0_row (c : Dev nD) (t : Fin cfg0.N) (p : Fin 2000) (l : Fin 64) :
    iblk m c 0 t (ix2 p l) = V m c main_arg0 (ix2 (rowAt t p) l) :=
  iblk_0_apply m c t (ix2 p l) (ix2 (rowAt t p) l) rfl rfl
/-- Input window 1's block at point `t` is rows `2000 t … 2000 t + 1999` of its array. -/
theorem iblk_1_apply (c : Dev nD) (t : Fin cfg0.N) (x : S2000x64.Idx) (k : S50000x64.Idx)
    (hk0 : (k 0).val = 2000 * t.val + (x 0).val) (hk1 : (k 1).val = (x 1).val) :
    iblk m c 1 t x = V m c main_arg3 k := by
  obtain ⟨e0, e1⟩ := (idx_facts t).2.1
  unfold iblk
  rw [View.read_apply]
  show V m c main_arg3 _ = V m c main_arg3 _
  congr 1
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 64 + 1 * (x 1).val = (k 1).val; rw [e1, hk1]; omega
theorem iblk_1_row (c : Dev nD) (t : Fin cfg0.N) (p : Fin 2000) (l : Fin 64) :
    iblk m c 1 t (ix2 p l) = V m c main_arg3 (ix2 (rowAt t p) l) :=
  iblk_1_apply m c t (ix2 p l) (ix2 (rowAt t p) l) rfl rfl
/-- Input window 2's block at point `t` is rows `2000 t … 2000 t + 1999` of its array. -/
theorem iblk_2_apply (c : Dev nD) (t : Fin cfg0.N) (x : S2000x64.Idx) (k : S50000x64.Idx)
    (hk0 : (k 0).val = 2000 * t.val + (x 0).val) (hk1 : (k 1).val = (x 1).val) :
    iblk m c 2 t x = V m c main_arg4 k := by
  obtain ⟨e0, e1⟩ := (idx_facts t).2.2.1
  unfold iblk
  rw [View.read_apply]
  show V m c main_arg4 _ = V m c main_arg4 _
  congr 1
  funext a
  apply Fin.ext
  match a with
  | ⟨0, _⟩ => show win0_2.index t (0 : Fin 2) * 2000 + 1 * (x 0).val = (k 0).val; rw [e0, hk0]; omega
  | ⟨1, _⟩ => show win0_2.index t (1 : Fin 2) * 64 + 1 * (x 1).val = (k 1).val; rw [e1, hk1]; omega
theorem iblk_2_row (c : Dev nD) (t : Fin cfg0.N) (p : Fin 2000) (l : Fin 64) :
    iblk m c 2 t (ix2 p l) = V m c main_arg4 (ix2 (rowAt t p) l) :=
  iblk_2_apply m c t (ix2 p l) (ix2 (rowAt t p) l) rfl rfl
/-- Input window 3's block at point `t` is rows `2000 t … 2000 t + 1999` of its array. -/
theorem iblk_3_apply (c : Dev nD) (t : Fin cfg0.N) (x : S2000x64.Idx) (k : S50000x64.Idx)
    (hk0 : (k 0).val = 2000 * t.val + (x 0).val) (hk1 : (k 1).val = (x 1).val) :
    iblk m c 3 t x = V m c main_v49 k := by
  obtain ⟨e0, e1⟩ := (idx_facts t).2.2.2.1
  unfold iblk
  rw [View.read_apply]
  show V m c main_v49 _ = V m c main_v49 _
  congr 1
  funext a
  apply Fin.ext
  match a with
  | ⟨0, _⟩ => show win0_3.index t (0 : Fin 2) * 2000 + 1 * (x 0).val = (k 0).val; rw [e0, hk0]; omega
  | ⟨1, _⟩ => show win0_3.index t (1 : Fin 2) * 64 + 1 * (x 1).val = (k 1).val; rw [e1, hk1]; omega
theorem iblk_3_row (c : Dev nD) (t : Fin cfg0.N) (p : Fin 2000) (l : Fin 64) :
    iblk m c 3 t (ix2 p l) = V m c main_v49 (ix2 (rowAt t p) l) :=
  iblk_3_apply m c t (ix2 p l) (ix2 (rowAt t p) l) rfl rfl
/-- Input window 4's block at point `t` is rows `2000 t … 2000 t + 1999` of its array. -/
theorem iblk_4_apply (c : Dev nD) (t : Fin cfg0.N) (x : S2000x64.Idx) (k : S50000x64.Idx)
    (hk0 : (k 0).val = 2000 * t.val + (x 0).val) (hk1 : (k 1).val = (x 1).val) :
    iblk m c 4 t x = V m c main_v62 k := by
  obtain ⟨e0, e1⟩ := (idx_facts t).2.2.2.2.1
  unfold iblk
  rw [View.read_apply]
  show V m c main_v62 _ = V m c main_v62 _
  congr 1
  funext a
  apply Fin.ext
  match a with
  | ⟨0, _⟩ => show win0_4.index t (0 : Fin 2) * 2000 + 1 * (x 0).val = (k 0).val; rw [e0, hk0]; omega
  | ⟨1, _⟩ => show win0_4.index t (1 : Fin 2) * 64 + 1 * (x 1).val = (k 1).val; rw [e1, hk1]; omega
theorem iblk_4_row (c : Dev nD) (t : Fin cfg0.N) (p : Fin 2000) (l : Fin 64) :
    iblk m c 4 t (ix2 p l) = V m c main_v62 (ix2 (rowAt t p) l) :=
  iblk_4_apply m c t (ix2 p l) (ix2 (rowAt t p) l) rfl rfl
/-- Input window 5's block at point `t` is rows `2000 t … 2000 t + 1999` of the one-lane degree column. -/
theorem iblk_5_apply (c : Dev nD) (t : Fin cfg0.N) (x : S2000x1.Idx) (k : S50000x1.Idx)
    (hk0 : (k 0).val = 2000 * t.val + (x 0).val) (hk1 : (k 1).val = (x 1).val) :
    iblk m c 5 t x = V m c main_v63 k := by
  obtain ⟨e0, e1⟩ := (idx_facts t).2.2.2.2.2.1
  unfold iblk
  rw [View.read_apply]
  show V m c main_v63 _ = V m c main_v63 _
  congr 1
  funext a
  apply Fin.ext
  match a with
  | ⟨0, _⟩ => show win0_5.index t (0 : Fin 2) * 2000 + 1 * (x 0).val = (k 0).val; rw [e0, hk0]; omega
  | ⟨1, _⟩ => show win0_5.index t (1 : Fin 2) * 1 + 1 * (x 1).val = (k 1).val; rw [e1, hk1]; omega
theorem iblk_5_col (c : Dev nD) (t : Fin cfg0.N) (p : Fin 2000) (l : Fin 1) :
    iblk m c 5 t (ix2 p l) = V m c main_v63 (ix2 (rowAt t p) l) :=
  iblk_5_apply m c t (ix2 p l) (ix2 (rowAt t p) l) rfl rfl
/-- Input window 6 is its whole array at every point. -/
theorem iblk_6_whole (c : Dev nD) (t : Fin cfg0.N) (y : S256x256.Idx) : iblk m c 6 t y = V m c main_v101 y := by
  obtain ⟨e0, e1⟩ := (idx_facts t).2.2.2.2.2.2.1
  unfold iblk
  rw [View.read_apply]
  show V m c main_v101 _ = V m c main_v101 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega
/-- Input window 7 is its whole array at every point. -/
theorem iblk_7_whole (c : Dev nD) (t : Fin cfg0.N) (y : S1x256.Idx) : iblk m c 7 t y = V m c main_v104 y := by
  obtain ⟨e0, e1⟩ := (idx_facts t).2.2.2.2.2.2.2.1
  unfold iblk
  rw [View.read_apply]
  show V m c main_v104 _ = V m c main_v104 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega
/-- Input window 8 is its whole array at every point. -/
theorem iblk_8_whole (c : Dev nD) (t : Fin cfg0.N) (y : S3x64.Idx) : iblk m c 8 t y = V m c main_arg6 y := by
  obtain ⟨e0, e1⟩ := (idx_facts t).2.2.2.2.2.2.2.2.1
  unfold iblk
  rw [View.read_apply]
  show V m c main_arg6 _ = V m c main_arg6 _
  congr 1
  funext a
  apply Fin.ext
  match a with
  | ⟨0, _⟩ => show win0_8.index t (0 : Fin 2) * 3 + 1 * (y 0).val = (y 0).val; rw [e0]; omega
  | ⟨1, _⟩ => show win0_8.index t (1 : Fin 2) * 64 + 1 * (y 1).val = (y 1).val; rw [e1]; omega
/-- Input window 9 is its whole array at every point. -/
theorem iblk_9_whole (c : Dev nD) (t : Fin cfg0.N) (y : S64x64.Idx) : iblk m c 9 t y = V m c main_v105 y := by
  obtain ⟨e0, e1⟩ := (idx_facts t).2.2.2.2.2.2.2.2.2.1
  unfold iblk
  rw [View.read_apply]
  show V m c main_v105 _ = V m c main_v105 _
  congr 1
  funext a
  apply Fin.ext
  match a with
  | ⟨0, _⟩ => show win0_9.index t (0 : Fin 2) * 64 + 1 * (y 0).val = (y 0).val; rw [e0]; omega
  | ⟨1, _⟩ => show win0_9.index t (1 : Fin 2) * 64 + 1 * (y 1).val = (y 1).val; rw [e1]; omega
/-- Input window 10 is its whole array at every point. -/
theorem iblk_10_whole (c : Dev nD) (t : Fin cfg0.N) (y : S1x64.Idx) : iblk m c 10 t y = V m c main_v106 y := by
  obtain ⟨e0, e1⟩ := (idx_facts t).2.2.2.2.2.2.2.2.2.2.1
  unfold iblk
  rw [View.read_apply]
  show V m c main_v106 _ = V m c main_v106 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-! ## The result arrays -/

/-! ### Output window 11 -/

/-- What the body leaves for window 11 at point `t`, over the eleven input blocks there. -/
def houtAt (c : Dev nD) (t : Fin cfg0.N) : Vec F S2000x64 .f32 := houtPay (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The array of window 11 after the run: row `r` is row `r % 2000` of what point `r / 2000` left. -/
def finalHoutArr (c : Dev nD) : S50000x64.Idx → Elt F .f32 := rowsOf (houtAt m c)

/-- Block `t` of an array assembled from blocks is block `t`. -/
theorem read_blk_rowsOf_11 (B : Fin cfg0.N → Vec F S2000x64 .f32) (t : Fin cfg0.N) :
    ((cfg0.win 11).blk t).view.read (Elt F) (rowsOf B) = B t := by
  obtain ⟨e0, e1⟩ := (idx_facts t).2.2.2.2.2.2.2.2.2.2.2.1
  funext y
  rw [View.read_apply]
  refine rowsOf_apply B t y _ ?_ ?_
  · show win0_11.index t (0 : Fin 2) * 2000 + 1 * (y 0).val = t.val * 2000 + (y 0).val; rw [e0]; omega
  · show win0_11.index t (1 : Fin 2) * 64 + 1 * (y 1).val = (y 1).val; rw [e1]; omega

/-- An index of the array is in point `t`'s block iff each coordinate is in the block's range on its axis. -/
theorem mem_blk_11 (t : Fin cfg0.N) (i : S50000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v107_0).slice (win0_11.rect t)).set ↔ _
  rw [View.set_slice_whole, Rect.mem_set_unit]
  exact Iff.rfl

/-- Every index of the array is in the block of the point its row belongs to. -/
theorem cover_11 (i : S50000x64.Idx) : ∃ t : Fin cfg0.N, (cfg0.win 11).flush t = true ∧ i ∈ ((cfg0.win 11).blk t).view.set := by
  refine ⟨ptOf (i 0), flush0_11 _, ?_⟩
  obtain ⟨e0, e1⟩ := (idx_facts (ptOf (i 0))).2.2.2.2.2.2.2.2.2.2.2.1
  have hp : (ptOf (i 0)).val = (i 0).val / 2000 := rfl
  have h0 : (i 0).val < 50000 := (i 0).isLt
  have h1 : (i 1).val < 64 := (i 1).isLt
  rw [mem_blk_11]
  intro a
  match a with
  | ⟨0, _⟩ => show win0_11.index (ptOf (i 0)) (0 : Fin 2) * 2000 ≤ (i 0).val ∧ (i 0).val < win0_11.index (ptOf (i 0)) (0 : Fin 2) * 2000 + 2000; rw [e0, hp]; omega
  | ⟨1, _⟩ => show win0_11.index (ptOf (i 0)) (1 : Fin 2) * 64 ≤ (i 1).val ∧ (i 1).val < win0_11.index (ptOf (i 0)) (1 : Fin 2) * 64 + 64; rw [e1]; omega

/-- What point `t` writes back is block `t` of the assembled array. -/
theorem flushed_11 (c : Dev nD) (t : Fin cfg0.N) :
    (dats m 0 c).flushed 11 t = ((cfg0.win 11).blk t).view.read (Elt F) (finalHoutArr m c) := by
  show (cfg0.win 11).cut (grid0.coords t) ((dats m 0 c).after 11 t) = _
  rw [after_11, houtBlock_eq]
  exact (read_blk_rowsOf_11 (houtAt m c) t).symm

/-- So the array ends holding the assembled array: the blocks cover it. -/
theorem finalHout (c : Dev nD) : (dats m 0 c).arrAt 11 cfg0.N = finalHoutArr m c :=
  (dats m 0 c).arrAt_eq_of_cover 11 (finalHoutArr m c) (fun t _ => flushed_11 m c t) cover_11

/-- Row `r`, lane `j` of it: the body's result over the blocks of point `r / 2000`, at row `r % 2000`. -/
theorem finalHout_apply (c : Dev nD) (r : Fin 50000) (j : Fin 64) :
    (dats m 0 c).arrAt 11 cfg0.N (ix2 r j) = houtPay (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r)) (iblk m c 9 (ptOf r)) (iblk m c 10 (ptOf r)) (ix2 (rowIn r) j) := by
  rw [finalHout]; rfl

/-! ### Output window 12 -/

/-- What the body leaves for window 12 at point `t`, over the eleven input blocks there. -/
def hnAt (c : Dev nD) (t : Fin cfg0.N) : Vec F S2000x64 .f32 := hnPay (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The array of window 12 after the run: row `r` is row `r % 2000` of what point `r / 2000` left. -/
def finalHnArr (c : Dev nD) : S50000x64.Idx → Elt F .f32 := rowsOf (hnAt m c)

/-- Block `t` of an array assembled from blocks is block `t`. -/
theorem read_blk_rowsOf_12 (B : Fin cfg0.N → Vec F S2000x64 .f32) (t : Fin cfg0.N) :
    ((cfg0.win 12).blk t).view.read (Elt F) (rowsOf B) = B t := by
  obtain ⟨e0, e1⟩ := (idx_facts t).2.2.2.2.2.2.2.2.2.2.2.2.1
  funext y
  rw [View.read_apply]
  refine rowsOf_apply B t y _ ?_ ?_
  · show win0_12.index t (0 : Fin 2) * 2000 + 1 * (y 0).val = t.val * 2000 + (y 0).val; rw [e0]; omega
  · show win0_12.index t (1 : Fin 2) * 64 + 1 * (y 1).val = (y 1).val; rw [e1]; omega

/-- An index of the array is in point `t`'s block iff each coordinate is in the block's range on its axis. -/
theorem mem_blk_12 (t : Fin cfg0.N) (i : S50000x64.Idx) :
    i ∈ ((cfg0.win 12).blk t).view.set ↔ ∀ a : Fin 2, win0_12.index t a * S2000x64.size a ≤ (i a).val ∧ (i a).val < win0_12.index t a * S2000x64.size a + S2000x64.size a := by
  show i ∈ ((View.whole main_v107_1).slice (win0_12.rect t)).set ↔ _
  rw [View.set_slice_whole, Rect.mem_set_unit]
  exact Iff.rfl

/-- Every index of the array is in the block of the point its row belongs to. -/
theorem cover_12 (i : S50000x64.Idx) : ∃ t : Fin cfg0.N, (cfg0.win 12).flush t = true ∧ i ∈ ((cfg0.win 12).blk t).view.set := by
  refine ⟨ptOf (i 0), flush0_12 _, ?_⟩
  obtain ⟨e0, e1⟩ := (idx_facts (ptOf (i 0))).2.2.2.2.2.2.2.2.2.2.2.2.1
  have hp : (ptOf (i 0)).val = (i 0).val / 2000 := rfl
  have h0 : (i 0).val < 50000 := (i 0).isLt
  have h1 : (i 1).val < 64 := (i 1).isLt
  rw [mem_blk_12]
  intro a
  match a with
  | ⟨0, _⟩ => show win0_12.index (ptOf (i 0)) (0 : Fin 2) * 2000 ≤ (i 0).val ∧ (i 0).val < win0_12.index (ptOf (i 0)) (0 : Fin 2) * 2000 + 2000; rw [e0, hp]; omega
  | ⟨1, _⟩ => show win0_12.index (ptOf (i 0)) (1 : Fin 2) * 64 ≤ (i 1).val ∧ (i 1).val < win0_12.index (ptOf (i 0)) (1 : Fin 2) * 64 + 64; rw [e1]; omega

/-- What point `t` writes back is block `t` of the assembled array. -/
theorem flushed_12 (c : Dev nD) (t : Fin cfg0.N) :
    (dats m 0 c).flushed 12 t = ((cfg0.win 12).blk t).view.read (Elt F) (finalHnArr m c) := by
  show (cfg0.win 12).cut (grid0.coords t) ((dats m 0 c).after 12 t) = _
  rw [after_12, hnBlock_eq]
  exact (read_blk_rowsOf_12 (hnAt m c) t).symm

/-- So the array ends holding the assembled array: the blocks cover it. -/
theorem finalHn (c : Dev nD) : (dats m 0 c).arrAt 12 cfg0.N = finalHnArr m c :=
  (dats m 0 c).arrAt_eq_of_cover 12 (finalHnArr m c) (fun t _ => flushed_12 m c t) cover_12

/-- Row `r`, lane `j` of it: the body's result over the blocks of point `r / 2000`, at row `r % 2000`. -/
theorem finalHn_apply (c : Dev nD) (r : Fin 50000) (j : Fin 64) :
    (dats m 0 c).arrAt 12 cfg0.N (ix2 r j) = hnPay (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r)) (iblk m c 9 (ptOf r)) (iblk m c 10 (ptOf r)) (ix2 (rowIn r) j) := by
  rw [finalHn]; rfl

/-! ### Output window 13 -/

/-- What the body leaves for window 13 at point `t`, over the eleven input blocks there. -/
def cnAt (c : Dev nD) (t : Fin cfg0.N) : Vec F S2000x64 .f32 := cnPay (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The array of window 13 after the run: row `r` is row `r % 2000` of what point `r / 2000` left. -/
def finalCnArr (c : Dev nD) : S50000x64.Idx → Elt F .f32 := rowsOf (cnAt m c)

/-- Block `t` of an array assembled from blocks is block `t`. -/
theorem read_blk_rowsOf_13 (B : Fin cfg0.N → Vec F S2000x64 .f32) (t : Fin cfg0.N) :
    ((cfg0.win 13).blk t).view.read (Elt F) (rowsOf B) = B t := by
  obtain ⟨e0, e1⟩ := (idx_facts t).2.2.2.2.2.2.2.2.2.2.2.2.2
  funext y
  rw [View.read_apply]
  refine rowsOf_apply B t y _ ?_ ?_
  · show win0_13.index t (0 : Fin 2) * 2000 + 1 * (y 0).val = t.val * 2000 + (y 0).val; rw [e0]; omega
  · show win0_13.index t (1 : Fin 2) * 64 + 1 * (y 1).val = (y 1).val; rw [e1]; omega

/-- An index of the array is in point `t`'s block iff each coordinate is in the block's range on its axis. -/
theorem mem_blk_13 (t : Fin cfg0.N) (i : S50000x64.Idx) :
    i ∈ ((cfg0.win 13).blk t).view.set ↔ ∀ a : Fin 2, win0_13.index t a * S2000x64.size a ≤ (i a).val ∧ (i a).val < win0_13.index t a * S2000x64.size a + S2000x64.size a := by
  show i ∈ ((View.whole main_v107_2).slice (win0_13.rect t)).set ↔ _
  rw [View.set_slice_whole, Rect.mem_set_unit]
  exact Iff.rfl

/-- Every index of the array is in the block of the point its row belongs to. -/
theorem cover_13 (i : S50000x64.Idx) : ∃ t : Fin cfg0.N, (cfg0.win 13).flush t = true ∧ i ∈ ((cfg0.win 13).blk t).view.set := by
  refine ⟨ptOf (i 0), flush0_13 _, ?_⟩
  obtain ⟨e0, e1⟩ := (idx_facts (ptOf (i 0))).2.2.2.2.2.2.2.2.2.2.2.2.2
  have hp : (ptOf (i 0)).val = (i 0).val / 2000 := rfl
  have h0 : (i 0).val < 50000 := (i 0).isLt
  have h1 : (i 1).val < 64 := (i 1).isLt
  rw [mem_blk_13]
  intro a
  match a with
  | ⟨0, _⟩ => show win0_13.index (ptOf (i 0)) (0 : Fin 2) * 2000 ≤ (i 0).val ∧ (i 0).val < win0_13.index (ptOf (i 0)) (0 : Fin 2) * 2000 + 2000; rw [e0, hp]; omega
  | ⟨1, _⟩ => show win0_13.index (ptOf (i 0)) (1 : Fin 2) * 64 ≤ (i 1).val ∧ (i 1).val < win0_13.index (ptOf (i 0)) (1 : Fin 2) * 64 + 64; rw [e1]; omega

/-- What point `t` writes back is block `t` of the assembled array. -/
theorem flushed_13 (c : Dev nD) (t : Fin cfg0.N) :
    (dats m 0 c).flushed 13 t = ((cfg0.win 13).blk t).view.read (Elt F) (finalCnArr m c) := by
  show (cfg0.win 13).cut (grid0.coords t) ((dats m 0 c).after 13 t) = _
  rw [after_13, cnBlock_eq]
  exact (read_blk_rowsOf_13 (cnAt m c) t).symm

/-- So the array ends holding the assembled array: the blocks cover it. -/
theorem finalCn (c : Dev nD) : (dats m 0 c).arrAt 13 cfg0.N = finalCnArr m c :=
  (dats m 0 c).arrAt_eq_of_cover 13 (finalCnArr m c) (fun t _ => flushed_13 m c t) cover_13

/-- Row `r`, lane `j` of it: the body's result over the blocks of point `r / 2000`, at row `r % 2000`. -/
theorem finalCn_apply (c : Dev nD) (r : Fin 50000) (j : Fin 64) :
    (dats m 0 c).arrAt 13 cfg0.N (ix2 r j) = cnPay (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r)) (iblk m c 9 (ptOf r)) (iblk m c 10 (ptOf r)) (ix2 (rowIn r) j) := by
  rw [finalCn]; rfl

/-! ## The run, read -/

/-- The frame run with each result array named as the array assembled from the points' results, the arguments unchanged. -/
theorem run_final : θ_run defs (onTc (τ := τ) (main (F := F))) ⟨m, fun _ => 0, ρ⟩ (fun r => ∀ c : Dev nD,
      r.2.mem ((c.tc : Thread nD τ).loc main_v107_0) = finalHoutArr m c
      ∧ r.2.mem ((c.tc : Thread nD τ).loc main_v107_1) = finalHnArr m c
      ∧ r.2.mem ((c.tc : Thread nD τ).loc main_v107_2) = finalCnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (finalHout m c), ((h c).1 12).trans (finalHn m c), ((h c).1 13).trans (finalCn m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Hand

end
-- ==== Proof.LibStack4.lean ====
/-
  Four arrays of one shape joined along an axis, read at an index: laid side by side along the lanes, the entry in
  lane l + K q is piece q's entry in lane l; stacked along the rows, the entry in row l + K q is piece q's entry in
  row l. For arrays of any element type and any extents.
-/
import Idealize.ShloMosaic.Lib.Pipeline.Value
import Idealize.ShloMosaic.Lib.ValueIdx

noncomputable section

namespace Cert.Lib.Stack4

open Idealize.ShloMosaic Idealize.ShloMosaic.ValueIdx

variable {α : Type}

/-- Four [n0, K] arrays side by side make an [n0, N] array: lane `l + K q` of the whole is lane `l` of piece `q`. -/
theorem lanes {n0 K N : ℕ} (x0 x1 x2 x3 : (⟨2, ![n0, K]⟩ : Shape).Idx → α)
    (h : Shape.Concatenates (([⟨⟨2, ![n0, K]⟩, x0⟩, ⟨⟨2, ![n0, K]⟩, x1⟩, ⟨⟨2, ![n0, K]⟩, x2⟩, ⟨⟨2, ![n0, K]⟩, x3⟩] :
      List ((s : Shape) × (s.Idx → α))).map (·.1)) ⟨2, ![n0, N]⟩ 1)
    (p : Fin n0) (q : Fin 4) (l : Fin K) (c : Fin N) (hc : c.val = l.val + K * q.val) :
    concatenate ⟨2, ![n0, N]⟩ 1 [⟨⟨2, ![n0, K]⟩, x0⟩, ⟨⟨2, ![n0, K]⟩, x1⟩, ⟨⟨2, ![n0, K]⟩, x2⟩, ⟨⟨2, ![n0, K]⟩, x3⟩] h (ix2 p c)
      = (![x0, x1, x2, x3] q) (ix2 p l) := by
  have hi : ∀ b : Fin (⟨2, ![n0, K]⟩ : Shape).rank, b.cast (rfl : (⟨2, ![n0, K]⟩ : Shape).rank = (⟨2, ![n0, N]⟩ : Shape).rank) ≠ (1 : Fin 2) →
      ((ix2 p l : (⟨2, ![n0, K]⟩ : Shape).Idx) b).val = ((ix2 p c : (⟨2, ![n0, N]⟩ : Shape).Idx) (b.cast rfl)).val := by
    intro b hb
    match b, hb with
    | ⟨0, _⟩, _ => rfl
    | ⟨1, _⟩, hb => exact absurd rfl hb
  match q, hc with
  | ⟨0, _⟩, hc =>
    exact concatenate_apply_piece 1 _ h _ 0 (by simp) ⟨2, ![n0, K]⟩ x0 rfl rfl 0 (by simp) (ix2 p l) hi (by
      show 0 + l.val = c.val; rw [hc]; simp)
  | ⟨1, _⟩, hc =>
    exact concatenate_apply_piece 1 _ h _ 1 (by simp) ⟨2, ![n0, K]⟩ x1 rfl rfl K (by simp [Shape.size]) (ix2 p l) hi (by
      show K + l.val = c.val; rw [hc]; simp; omega)
  | ⟨2, _⟩, hc =>
    exact concatenate_apply_piece 1 _ h _ 2 (by simp) ⟨2, ![n0, K]⟩ x2 rfl rfl (K + K) (by simp [Shape.size]) (ix2 p l) hi (by
      show K + K + l.val = c.val; rw [hc]; simp; omega)
  | ⟨3, _⟩, hc =>
    exact concatenate_apply_piece 1 _ h _ 3 (by simp) ⟨2, ![n0, K]⟩ x3 rfl rfl (K + K + K) (by simp [Shape.size]; omega) (ix2 p l) hi (by
      show K + K + K + l.val = c.val; rw [hc]; simp; omega)

/-- Four [K, n1] arrays stacked make an [N, n1] array: row `l + K q` of the whole is row `l` of piece `q`. -/
theorem rows {n1 K N : ℕ} (x0 x1 x2 x3 : (⟨2, ![K, n1]⟩ : Shape).Idx → α)
    (h : Shape.Concatenates (([⟨⟨2, ![K, n1]⟩, x0⟩, ⟨⟨2, ![K, n1]⟩, x1⟩, ⟨⟨2, ![K, n1]⟩, x2⟩, ⟨⟨2, ![K, n1]⟩, x3⟩] :
      List ((s : Shape) × (s.Idx → α))).map (·.1)) ⟨2, ![N, n1]⟩ 0)
    (q : Fin 4) (l : Fin K) (j : Fin n1) (c : Fin N) (hc : c.val = l.val + K * q.val) :
    concatenate ⟨2, ![N, n1]⟩ 0 [⟨⟨2, ![K, n1]⟩, x0⟩, ⟨⟨2, ![K, n1]⟩, x1⟩, ⟨⟨2, ![K, n1]⟩, x2⟩, ⟨⟨2, ![K, n1]⟩, x3⟩] h (ix2 c j)
      = (![x0, x1, x2, x3] q) (ix2 l j) := by
  have hi : ∀ b : Fin (⟨2, ![K, n1]⟩ : Shape).rank, b.cast (rfl : (⟨2, ![K, n1]⟩ : Shape).rank = (⟨2, ![N, n1]⟩ : Shape).rank) ≠ (0 : Fin 2) →
      ((ix2 l j : (⟨2, ![K, n1]⟩ : Shape).Idx) b).val = ((ix2 c j : (⟨2, ![N, n1]⟩ : Shape).Idx) (b.cast rfl)).val := by
    intro b hb
    match b, hb with
    | ⟨0, _⟩, hb => exact absurd rfl hb
    | ⟨1, _⟩, _ => rfl
  match q, hc with
  | ⟨0, _⟩, hc =>
    exact concatenate_apply_piece 0 _ h _ 0 (by simp) ⟨2, ![K, n1]⟩ x0 rfl rfl 0 (by simp) (ix2 l j) hi (by
      show 0 + l.val = c.val; rw [hc]; simp)
  | ⟨1, _⟩, hc =>
    exact concatenate_apply_piece 0 _ h _ 1 (by simp) ⟨2, ![K, n1]⟩ x1 rfl rfl K (by simp [Shape.size]) (ix2 l j) hi (by
      show K + l.val = c.val; rw [hc]; simp; omega)
  | ⟨2, _⟩, hc =>
    exact concatenate_apply_piece 0 _ h _ 2 (by simp) ⟨2, ![K, n1]⟩ x2 rfl rfl (K + K) (by simp [Shape.size]) (ix2 l j) hi (by
      show K + K + l.val = c.val; rw [hc]; simp; omega)
  | ⟨3, _⟩, hc =>
    exact concatenate_apply_piece 0 _ h _ 3 (by simp) ⟨2, ![K, n1]⟩ x3 rfl rfl (K + K + K) (by simp [Shape.size]; omega) (ix2 l j) hi (by
      show K + K + K + l.val = c.val; rw [hc]; simp; omega)

end Cert.Lib.Stack4

end
-- ==== Proof.LibSumReindex.lean ====
/-
  Re-indexing finite sums (and maxima) of tiles along an equivalence, and sums of coerced reals.

  A row read in tiles is indexed by a pair (tile `k`, position `j` in the tile); the same row in a
  reference is indexed by one flat index `p`. Along an equivalence `e : κ × ι ≃ ρ` the double sum
  `∑ k, ∑ j, f (e (k, j))` is the flat sum `∑ p, f p`, in any commutative additive monoid (the reals
  and the extended reals among them), and the maximum over the pairs is the maximum over the flat
  index. For tiles of equal length `n` the equivalence is `finProdFinEquiv`, `(k, j) ↦ j + n * k`.
  A finite sum of coerced reals is the coercion of the real sum.
-/
import Mathlib.Data.EReal.Operations
import Mathlib.Algebra.BigOperators.Group.Finset.Basic
import Mathlib.Algebra.BigOperators.Fin
import Mathlib.Data.Fintype.BigOperators
import Mathlib.Data.Finset.Lattice.Fold
import Mathlib.Logic.Equiv.Fin.Basic

noncomputable section

open scoped BigOperators

namespace Cert.Lib.SumReindex

/-! ## Sums of coerced reals -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum over a whole finite type of coerced reals is the coercion of the real sum. -/
theorem coe_sum {ι : Type*} [Fintype ι] (f : ι → ℝ) :
    (∑ i, (f i : EReal)) = ((∑ i, f i : ℝ) : EReal) :=
  coe_finset_sum Finset.univ f

/-- A double sum of coerced reals is the coercion of the real double sum. -/
theorem coe_sum_sum {κ ι : Type*} [Fintype κ] [Fintype ι] (f : κ → ι → ℝ) :
    (∑ k, ∑ j, (f k j : EReal)) = ((∑ k, ∑ j, f k j : ℝ) : EReal) := by
  rw [← coe_sum]
  exact Finset.sum_congr rfl fun k _ => coe_sum (f k)

/-- A sum of products of coerced reals (a contraction) is the coercion of the real sum of products. -/
theorem coe_sum_mul {ι : Type*} [Fintype ι] (f g : ι → ℝ) :
    (∑ i, (f i : EReal) * (g i : EReal)) = ((∑ i, f i * g i : ℝ) : EReal) := by
  rw [← coe_sum]
  exact Finset.sum_congr rfl fun i _ => (EReal.coe_mul _ _).symm

/-! ## Tiles to a flat index -/

section Reindex
variable {M : Type*} [AddCommMonoid M] {κ ι ρ : Type*} [Fintype κ] [Fintype ι] [Fintype ρ]

/-- The sum over tiles `k` and positions `j` of `f` at the flat index `e (k, j)` is the sum of `f`
    over the flat index, for an equivalence `e` of the pairs with the flat index. -/
theorem sum_sum_comp_equiv (e : κ × ι ≃ ρ) (f : ρ → M) :
    ∑ k, ∑ j, f (e (k, j)) = ∑ p, f p := by
  rw [← Fintype.sum_prod_type (f := fun q => f (e q))]
  exact Equiv.sum_comp e f

/-- The same for a tiled family `a k j` that is `f` at the flat index `e (k, j)`. -/
theorem sum_sum_eq_sum_of_equiv (e : κ × ι ≃ ρ) (a : κ → ι → M) (f : ρ → M)
    (h : ∀ k j, a k j = f (e (k, j))) :
    ∑ k, ∑ j, a k j = ∑ p, f p := by
  rw [← sum_sum_comp_equiv e f]
  exact Finset.sum_congr rfl fun k _ => Finset.sum_congr rfl fun j _ => h k j

/-- The flat sum as the sum over tiles of the tiles' sums, read through the inverse equivalence. -/
theorem sum_eq_sum_sum_symm (e : κ × ι ≃ ρ) (a : κ → ι → M) :
    ∑ p, a (e.symm p).1 (e.symm p).2 = ∑ k, ∑ j, a k j := by
  rw [← sum_sum_comp_equiv e fun p => a (e.symm p).1 (e.symm p).2]
  simp

end Reindex

/-- `K` tiles of equal length `n`: the sum over tile `k` and position `j` of `f` at the flat position
    `j + n * k` (`finProdFinEquiv (k, j)`) is the sum of `f` over `Fin (K * n)`. -/
theorem sum_fin_sum_fin {M : Type*} [AddCommMonoid M] {K n : ℕ} (f : Fin (K * n) → M) :
    ∑ k : Fin K, ∑ j : Fin n, f (finProdFinEquiv (k, j)) = ∑ p, f p :=
  sum_sum_comp_equiv finProdFinEquiv f

/-- The flat position of `finProdFinEquiv (k, j)` is `j + n * k`. -/
theorem finProdFinEquiv_val {K n : ℕ} (k : Fin K) (j : Fin n) :
    ((finProdFinEquiv (k, j) : Fin (K * n)) : ℕ) = j + n * k := rfl

/-! ## Maxima along an equivalence -/

/-- The maximum of `f ∘ e` over a finite nonempty type is the maximum of `f`, for an equivalence `e`. -/
theorem sup'_univ_comp_equiv {α κ ρ : Type*} [SemilatticeSup α] [Fintype κ] [Fintype ρ] [Nonempty κ]
    [Nonempty ρ] (e : κ ≃ ρ) (f : ρ → α) :
    Finset.univ.sup' Finset.univ_nonempty (fun q => f (e q))
      = Finset.univ.sup' Finset.univ_nonempty f := by
  apply le_antisymm
  · exact Finset.sup'_le _ _ fun q _ => Finset.le_sup' f (Finset.mem_univ (e q))
  · refine Finset.sup'_le _ _ fun p _ => ?_
    have h := Finset.le_sup' (fun q => f (e q)) (Finset.mem_univ (e.symm p))
    simpa using h

end Cert.Lib.SumReindex
-- ==== Proof.LibRealClosure.lean ====
/-
  Closure of the finite extended reals under the exact float operations.

  A float value read exactly is an extended real, and every float operation is the textbook operation on
  the extended reals. An extended real is called REAL here when it is the coercion of a real number.
  The reals are closed under sum, product, negation, difference, finite sums and maxima; under the
  quotient by a nonzero real; under the square root of a nonnegative real (which is again nonnegative)
  and the reciprocal square root of a positive real (which is again positive). The float literals
  0, 1, 2, 3, 512, 2^-63 * 9223372 (about 1e-12) and 2^-40 * 10995116 (about 1e-5) are real, the last
  two positive. On reals a sum of products re-associates: summing m j * (sum over d of x j d * w d) over j
  is summing (sum over j of m j * x j d) * w d over d. A sum of products whose left factors all vanish is
  zero, with no finiteness needed, since zero times any extended real is zero. A sum of squares of reals
  is a nonnegative real, so its square root is a nonnegative real and the maximum of that root with a
  positive real is a positive real.
-/
import Idealize.ShloMosaic.PureOps.Ideal
import Idealize.ShloMosaic.PureOps.Ideal.Laws
import Mathlib.Data.EReal.Operations
import Mathlib.Data.EReal.Inv

noncomputable section

open scoped BigOperators

namespace Cert.LibRealClosure

open Idealize.ShloMosaic

/-! ## Real extended reals -/

/-- An extended real is real when it is the coercion of a real number. -/
def IsReal (a : EReal) : Prop := ∃ r : ℝ, a = (r : EReal)

/-- The coercion of a real number is real. -/
protected theorem IsReal.coe (r : ℝ) : IsReal (r : EReal) := ⟨r, rfl⟩

/-- Zero is real. -/
protected theorem IsReal.zero : IsReal 0 := ⟨0, EReal.coe_zero.symm⟩

/-- One is real. -/
protected theorem IsReal.one : IsReal 1 := ⟨1, EReal.coe_one.symm⟩

/-- A real extended real is neither infinity. -/
theorem IsReal.ne_top {a : EReal} (ha : IsReal a) : a ≠ ⊤ := by
  obtain ⟨x, rfl⟩ := ha; exact EReal.coe_ne_top x

theorem IsReal.ne_bot {a : EReal} (ha : IsReal a) : a ≠ ⊥ := by
  obtain ⟨x, rfl⟩ := ha; exact EReal.coe_ne_bot x

/-- An extended real that is neither infinity is real. -/
theorem isReal_of_ne {a : EReal} (hb : a ≠ ⊥) (ht : a ≠ ⊤) : IsReal a :=
  ⟨a.toReal, (EReal.coe_toReal ht hb).symm⟩

/-- The sum of two reals is real. -/
protected theorem IsReal.add {a b : EReal} (ha : IsReal a) (hb : IsReal b) : IsReal (a + b) := by
  obtain ⟨x, rfl⟩ := ha; obtain ⟨y, rfl⟩ := hb
  exact ⟨x + y, (EReal.coe_add x y).symm⟩

/-- The product of two reals is real. -/
protected theorem IsReal.mul {a b : EReal} (ha : IsReal a) (hb : IsReal b) : IsReal (a * b) := by
  obtain ⟨x, rfl⟩ := ha; obtain ⟨y, rfl⟩ := hb
  exact ⟨x * y, (EReal.coe_mul x y).symm⟩

/-- The negation of a real is real. -/
protected theorem IsReal.neg {a : EReal} (ha : IsReal a) : IsReal (-a) := by
  obtain ⟨x, rfl⟩ := ha
  exact ⟨-x, (EReal.coe_neg x).symm⟩

/-- The difference of two reals is real. -/
protected theorem IsReal.sub {a b : EReal} (ha : IsReal a) (hb : IsReal b) : IsReal (a - b) := by
  obtain ⟨x, rfl⟩ := ha; obtain ⟨y, rfl⟩ := hb
  exact ⟨x - y, (EReal.coe_sub x y).symm⟩

/-- The maximum of two reals is one of them, hence real. -/
protected theorem IsReal.max {a b : EReal} (ha : IsReal a) (hb : IsReal b) : IsReal (Max.max a b) := by
  rcases le_total a b with h | h
  · rw [max_eq_right h]; exact hb
  · rw [max_eq_left h]; exact ha

/-- The minimum of two reals is one of them, hence real. -/
protected theorem IsReal.min {a b : EReal} (ha : IsReal a) (hb : IsReal b) : IsReal (Min.min a b) := by
  rcases le_total a b with h | h
  · rw [min_eq_left h]; exact ha
  · rw [min_eq_right h]; exact hb

/-- A sum of reals over a finite set is real. -/
protected theorem IsReal.finset_sum {ι : Type*} (s : Finset ι) (f : ι → EReal)
    (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add (h a (Finset.mem_insert_self a s)) (ih fun i hi => h i (Finset.mem_insert_of_mem hi))

/-- A sum of reals over a finite type is real. -/
protected theorem IsReal.sum {ι : Type*} [Fintype ι] (f : ι → EReal) (h : ∀ i, IsReal (f i)) :
    IsReal (∑ i, f i) :=
  IsReal.finset_sum Finset.univ f fun i _ => h i

/-- A finite sum of coerced reals is the coercion of the real sum. -/
theorem coe_sum {ι : Type*} [Fintype ι] (f : ι → ℝ) :
    (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-! ## The quotient, the square root and the reciprocal square root -/

/-- The quotient of two coerced reals by a nonzero divisor is the coerced real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The quotient of a real by a nonzero real is real. -/
protected theorem IsReal.div {a b : EReal} (ha : IsReal a) (hb : IsReal b) (hb0 : b ≠ 0) :
    IsReal (Ideal.div a b) := by
  obtain ⟨x, rfl⟩ := ha; obtain ⟨y, rfl⟩ := hb
  have hy : y ≠ 0 := fun h => hb0 (by rw [h, EReal.coe_zero])
  exact ⟨x / y, div_coe_coe x hy⟩

/-- The square root of a nonnegative coerced real is the coerced real square root. -/
theorem sqrt_coe_of_nonneg {r : ℝ} (h : 0 ≤ r) : Ideal.sqrt (r : EReal) = (Real.sqrt r : EReal) := by
  rw [Ideal.sqrt_coe, if_neg (not_lt.mpr h)]

/-- The square root of a nonnegative real is real. -/
protected theorem IsReal.sqrt {a : EReal} (ha : IsReal a) (h0 : 0 ≤ a) : IsReal (Ideal.sqrt a) := by
  obtain ⟨x, rfl⟩ := ha
  exact ⟨Real.sqrt x, sqrt_coe_of_nonneg (EReal.coe_nonneg.mp h0)⟩

/-- The square root of a nonnegative real is nonnegative. -/
theorem sqrt_nonneg {a : EReal} (ha : IsReal a) (h0 : 0 ≤ a) : 0 ≤ Ideal.sqrt a := by
  obtain ⟨x, rfl⟩ := ha
  rw [sqrt_coe_of_nonneg (EReal.coe_nonneg.mp h0)]
  exact EReal.coe_nonneg.mpr (Real.sqrt_nonneg x)

/-- The square root of a positive real is positive. -/
theorem sqrt_pos {a : EReal} (ha : IsReal a) (h0 : 0 < a) : 0 < Ideal.sqrt a := by
  obtain ⟨x, rfl⟩ := ha
  have hx : 0 < x := EReal.coe_pos.mp h0
  rw [sqrt_coe_of_nonneg hx.le]
  exact EReal.coe_pos.mpr (Real.sqrt_pos.mpr hx)

/-- The reciprocal square root of a positive coerced real is the coerced reciprocal of the real root. -/
theorem rsqrt_coe_of_pos {r : ℝ} (h : 0 < r) :
    Ideal.rsqrt (r : EReal) = (((Real.sqrt r)⁻¹ : ℝ) : EReal) := by
  rw [Ideal.rsqrt_coe, if_neg (not_lt.mpr h.le), if_neg h.ne']

/-- The reciprocal square root of a positive real is real. -/
protected theorem IsReal.rsqrt {a : EReal} (ha : IsReal a) (h0 : 0 < a) : IsReal (Ideal.rsqrt a) := by
  obtain ⟨x, rfl⟩ := ha
  exact ⟨(Real.sqrt x)⁻¹, rsqrt_coe_of_pos (EReal.coe_pos.mp h0)⟩

/-- The reciprocal square root of a positive real is positive. -/
theorem rsqrt_pos {a : EReal} (ha : IsReal a) (h0 : 0 < a) : 0 < Ideal.rsqrt a := by
  obtain ⟨x, rfl⟩ := ha
  have hx : 0 < x := EReal.coe_pos.mp h0
  rw [rsqrt_coe_of_pos hx]
  exact EReal.coe_pos.mpr (inv_pos.mpr (Real.sqrt_pos.mpr hx))

/-! ## The same facts on the float operations of a program read exactly -/

section Fields
variable {φ : FTy} {a b : Ideal φ}

theorem isReal_addf (ha : IsReal a) (hb : IsReal b) : IsReal (FloatOps.addf a b) := by
  rw [Ideal.addf_def]; exact ha.add hb
theorem isReal_subf (ha : IsReal a) (hb : IsReal b) : IsReal (FloatOps.subf a b) := by
  rw [Ideal.subf_def]; exact ha.sub hb
theorem isReal_mulf (ha : IsReal a) (hb : IsReal b) : IsReal (FloatOps.mulf a b) := by
  rw [Ideal.mulf_def]; exact ha.mul hb
theorem isReal_negf (ha : IsReal a) : IsReal (FloatOps.negf a) := by
  rw [Ideal.negf_def]; exact ha.neg
/-- A kernel's maximum of two reals is real. The host's maximum is the same operation. -/
theorem isReal_maximumf (ha : IsReal a) (hb : IsReal b) : IsReal (FloatOps.maximumf a b) := by
  rw [Ideal.maximumf_def]; exact ha.max hb
theorem isReal_minimumf (ha : IsReal a) (hb : IsReal b) : IsReal (FloatOps.minimumf a b) := by
  rw [Ideal.minimumf_def]; exact ha.min hb
/-- A kernel's quotient of a real by a nonzero real is real. -/
theorem isReal_divf (ha : IsReal a) (hb : IsReal b) (hb0 : b ≠ 0) : IsReal (FloatOps.divf a b) := by
  rw [Ideal.divf_def]; exact ha.div hb hb0
/-- The host's quotient of a real by a nonzero real is real. -/
theorem isReal_hostDivf (ha : IsReal a) (hb : IsReal b) (hb0 : b ≠ 0) : IsReal (FloatOps.hostDivf a b) := by
  rw [Ideal.hostDivf_def]; exact ha.div hb hb0
/-- A kernel's square root of a nonnegative real is real. -/
theorem isReal_sqrt (ha : IsReal a) (h0 : 0 ≤ a) : IsReal (FloatOps.sqrt a) := by
  rw [Ideal.sqrt_def]; exact ha.sqrt h0
/-- The host's square root of a nonnegative real is real. -/
theorem isReal_hostSqrt (ha : IsReal a) (h0 : 0 ≤ a) : IsReal (FloatOps.hostUnary .sqrt a) := by
  rw [Ideal.hostUnary_sqrt_def]; exact ha.sqrt h0
/-- A kernel's reciprocal square root of a positive real is real. -/
theorem isReal_rsqrt (ha : IsReal a) (h0 : 0 < a) : IsReal (FloatOps.rsqrt a) := by
  rw [Ideal.rsqrt_def]; exact ha.rsqrt h0
/-- The host's reciprocal square root of a positive real is real. -/
theorem isReal_hostRsqrt (ha : IsReal a) (h0 : 0 < a) : IsReal (FloatOps.hostUnary .rsqrt a) := by
  rw [Ideal.hostUnary_rsqrt_def]; exact ha.rsqrt h0

end Fields

/-! ## Float literals -/

/-- The single-precision word of all zeros denotes 0. -/
theorem ofBits_f32_zero : Ideal.ofBits .f32 0x00000000#32 = 0 := Ideal.ofBits_zero_f32

/-- The single-precision word 0x3F800000 denotes 1. -/
theorem ofBits_f32_one : Ideal.ofBits .f32 0x3F800000#32 = 1 := by
  simp [Ideal.ofBits, Ideal.ieee, -EReal.coe_mul]
  norm_num

/-- The single-precision word 0x40000000 denotes 2. -/
theorem ofBits_f32_two : Ideal.ofBits .f32 0x40000000#32 = ((2 : ℝ) : EReal) := by
  simp [Ideal.ofBits, Ideal.ieee, -EReal.coe_mul]
  norm_num

/-- The single-precision word 0x40400000 denotes 3. -/
theorem ofBits_f32_three : Ideal.ofBits .f32 0x40400000#32 = ((3 : ℝ) : EReal) := by
  simp [Ideal.ofBits, Ideal.ieee, -EReal.coe_mul]
  norm_num

/-- The single-precision word 0x44000000 denotes 512. -/
theorem ofBits_f32_512 : Ideal.ofBits .f32 0x44000000#32 = ((512 : ℝ) : EReal) := by
  simp [Ideal.ofBits, Ideal.ieee, -EReal.coe_mul]
  norm_num

/-- The single-precision word 0x2B8CBCCC denotes 9223372 * 2^-63, the float nearest 1e-12. -/
theorem ofBits_f32_eps12 :
    Ideal.ofBits .f32 0x2B8CBCCC#32 = ((9223372 * (2 : ℝ) ^ (-63 : ℤ) : ℝ) : EReal) := by
  simp [Ideal.ofBits, Ideal.ieee, -EReal.coe_mul]

/-- The single-precision word 0x3727C5AC denotes 10995116 * 2^-40, the float nearest 1e-5. -/
theorem ofBits_f32_eps5 :
    Ideal.ofBits .f32 0x3727C5AC#32 = ((10995116 * (2 : ℝ) ^ (-40 : ℤ) : ℝ) : EReal) := by
  simp [Ideal.ofBits, Ideal.ieee, -EReal.coe_mul]

/-- The single-precision word 0xFF800000 denotes minus infinity. -/
theorem ofBits_f32_neg_inf : Ideal.ofBits .f32 0xFF800000#32 = ⊥ := by
  simp [Ideal.ofBits, Ideal.ieee]

theorem isReal_ofBits_f32_zero : IsReal (Ideal.ofBits .f32 0x00000000#32) := by
  rw [ofBits_f32_zero]; exact IsReal.zero
theorem isReal_ofBits_f32_one : IsReal (Ideal.ofBits .f32 0x3F800000#32) := by
  rw [ofBits_f32_one]; exact IsReal.one
theorem isReal_ofBits_f32_two : IsReal (Ideal.ofBits .f32 0x40000000#32) := ⟨_, ofBits_f32_two⟩
theorem isReal_ofBits_f32_three : IsReal (Ideal.ofBits .f32 0x40400000#32) := ⟨_, ofBits_f32_three⟩
theorem isReal_ofBits_f32_512 : IsReal (Ideal.ofBits .f32 0x44000000#32) := ⟨_, ofBits_f32_512⟩
theorem isReal_ofBits_f32_eps12 : IsReal (Ideal.ofBits .f32 0x2B8CBCCC#32) := ⟨_, ofBits_f32_eps12⟩
theorem isReal_ofBits_f32_eps5 : IsReal (Ideal.ofBits .f32 0x3727C5AC#32) := ⟨_, ofBits_f32_eps5⟩

/-- The literal 1 is positive. -/
theorem ofBits_f32_one_pos : 0 < Ideal.ofBits .f32 0x3F800000#32 := by
  rw [ofBits_f32_one]; exact zero_lt_one
/-- The literal 512 is positive, hence not zero. -/
theorem ofBits_f32_512_pos : 0 < Ideal.ofBits .f32 0x44000000#32 := by
  rw [ofBits_f32_512]; exact EReal.coe_pos.mpr (by norm_num)
theorem ofBits_f32_512_ne_zero : Ideal.ofBits .f32 0x44000000#32 ≠ 0 := ofBits_f32_512_pos.ne'
/-- The literal nearest 1e-12 is positive. -/
theorem ofBits_f32_eps12_pos : 0 < Ideal.ofBits .f32 0x2B8CBCCC#32 := by
  rw [ofBits_f32_eps12]; exact EReal.coe_pos.mpr (by positivity)
/-- The literal nearest 1e-5 is positive. -/
theorem ofBits_f32_eps5_pos : 0 < Ideal.ofBits .f32 0x3727C5AC#32 := by
  rw [ofBits_f32_eps5]; exact EReal.coe_pos.mpr (by positivity)

/-! ## Re-association of a sum of products -/

/-- On reals, the sum over j of m j times the sum over d of x j d * w d is the sum over d of
    (the sum over j of m j * x j d) times w d. -/
theorem sum_mul_sum_assoc {J D : Type*} [Fintype J] [Fintype D] (m : J → EReal) (x : J → D → EReal)
    (w : D → EReal) (hm : ∀ j, IsReal (m j)) (hx : ∀ j d, IsReal (x j d)) (hw : ∀ d, IsReal (w d)) :
    ∑ j, m j * ∑ d, x j d * w d = ∑ d, (∑ j, m j * x j d) * w d := by
  choose m' hm' using hm
  choose x' hx' using hx
  choose w' hw' using hw
  have hL : ∑ j, m j * ∑ d, x j d * w d = ((∑ j, m' j * ∑ d, x' j d * w' d : ℝ) : EReal) := by
    rw [← coe_sum]
    refine Finset.sum_congr rfl fun j _ => ?_
    rw [EReal.coe_mul, ← coe_sum, hm' j]
    congr 1
    refine Finset.sum_congr rfl fun d _ => ?_
    rw [EReal.coe_mul, hx' j d, hw' d]
  have hR : ∑ d, (∑ j, m j * x j d) * w d = ((∑ d, (∑ j, m' j * x' j d) * w' d : ℝ) : EReal) := by
    rw [← coe_sum]
    refine Finset.sum_congr rfl fun d _ => ?_
    rw [EReal.coe_mul, ← coe_sum, hw' d]
    congr 1
    refine Finset.sum_congr rfl fun j _ => ?_
    rw [EReal.coe_mul, hm' j, hx' j d]
  rw [hL, hR]
  congr 1
  simp only [Finset.mul_sum, Finset.sum_mul]
  rw [Finset.sum_comm]
  refine Finset.sum_congr rfl fun d _ => Finset.sum_congr rfl fun j _ => ?_
  ring

/-- A sum of products whose left factors are all zero is zero: zero times any extended real is zero. -/
theorem sum_zero_mul {J : Type*} [Fintype J] (m x : J → EReal) (hm : ∀ j, m j = 0) :
    ∑ j, m j * x j = 0 :=
  Finset.sum_eq_zero fun j _ => by rw [hm j, zero_mul]

/-- So with all left factors zero, the sum over d of (the sum over j of m j * x j d) times w d is zero. -/
theorem sum_sum_zero_mul_mul {J D : Type*} [Fintype J] [Fintype D] (m : J → EReal) (x : J → D → EReal)
    (w : D → EReal) (hm : ∀ j, m j = 0) : ∑ d, (∑ j, m j * x j d) * w d = 0 :=
  Finset.sum_eq_zero fun d _ => by rw [sum_zero_mul m (fun j => x j d) hm, zero_mul]

/-! ## Sums of squares -/

/-- The square of a real is nonnegative. -/
theorem mul_self_nonneg_of_isReal {a : EReal} (ha : IsReal a) : 0 ≤ a * a := by
  obtain ⟨x, rfl⟩ := ha
  rw [← EReal.coe_mul]; exact EReal.coe_nonneg.mpr (mul_self_nonneg x)

/-- A sum of squares of reals is real. -/
theorem isReal_sum_mul_self {ι : Type*} [Fintype ι] (y : ι → EReal) (hy : ∀ i, IsReal (y i)) :
    IsReal (∑ i, y i * y i) :=
  IsReal.sum _ fun i => (hy i).mul (hy i)

/-- A sum of squares of reals is nonnegative. -/
theorem sum_mul_self_nonneg {ι : Type*} [Fintype ι] (y : ι → EReal) (hy : ∀ i, IsReal (y i)) :
    0 ≤ ∑ i, y i * y i :=
  Finset.sum_nonneg fun i _ => mul_self_nonneg_of_isReal (hy i)

/-- The square root of a sum of squares of reals is real. -/
theorem isReal_sqrt_sum_mul_self {ι : Type*} [Fintype ι] (y : ι → EReal) (hy : ∀ i, IsReal (y i)) :
    IsReal (Ideal.sqrt (∑ i, y i * y i)) :=
  (isReal_sum_mul_self y hy).sqrt (sum_mul_self_nonneg y hy)

/-- The square root of a sum of squares of reals is nonnegative. -/
theorem sqrt_sum_mul_self_nonneg {ι : Type*} [Fintype ι] (y : ι → EReal) (hy : ∀ i, IsReal (y i)) :
    0 ≤ Ideal.sqrt (∑ i, y i * y i) :=
  sqrt_nonneg (isReal_sum_mul_self y hy) (sum_mul_self_nonneg y hy)

/-- The maximum of a real with a positive real is a positive real. -/
theorem isReal_max_of_pos {a e : EReal} (ha : IsReal a) (he : IsReal e) : IsReal (Max.max a e) :=
  ha.max he

theorem max_pos_of_pos_right {a e : EReal} (he0 : 0 < e) : 0 < Max.max a e :=
  lt_max_of_lt_right he0

theorem max_ne_zero_of_pos_right {a e : EReal} (he0 : 0 < e) : Max.max a e ≠ 0 :=
  (max_pos_of_pos_right he0).ne'

/-- The maximum of the root of a sum of squares of reals with a positive real is a positive real. -/
theorem isReal_max_sqrt_sum_mul_self {ι : Type*} [Fintype ι] (y : ι → EReal) (hy : ∀ i, IsReal (y i))
    {e : EReal} (he : IsReal e) : IsReal (Max.max (Ideal.sqrt (∑ i, y i * y i)) e) :=
  (isReal_sqrt_sum_mul_self y hy).max he

theorem max_sqrt_sum_mul_self_pos {ι : Type*} [Fintype ι] (y : ι → EReal) {e : EReal} (he0 : 0 < e) :
    0 < Max.max (Ideal.sqrt (∑ i, y i * y i)) e :=
  max_pos_of_pos_right he0

/-! ## A running maximum started at minus infinity -/

/-- The maximum of a nonempty finite family of reals, folded from minus infinity, is real. -/
theorem isReal_fold_max_bot {ι : Type*} (s : Finset ι) (f : ι → EReal) (hs : s.Nonempty)
    (hf : ∀ i ∈ s, IsReal (f i)) : IsReal (s.fold Max.max ⊥ f) := by
  classical
  have key : ∀ t : Finset ι, (∀ i ∈ t, IsReal (f i)) →
      (t.fold Max.max ⊥ f = ⊥ ∧ t = ∅) ∨ IsReal (t.fold Max.max ⊥ f) := by
    intro t
    induction t using Finset.induction_on with
    | empty => intro _; exact Or.inl ⟨Finset.fold_empty, rfl⟩
    | insert a t ha ih =>
      intro h
      right
      rw [Finset.fold_insert ha]
      rcases ih (fun i hi => h i (Finset.mem_insert_of_mem hi)) with ⟨h0, _⟩ | hr
      · rw [h0, max_bot_right]; exact h a (Finset.mem_insert_self a t)
      · exact (h a (Finset.mem_insert_self a t)).max hr
  rcases key s hf with ⟨_, he⟩ | hr
  · exact absurd he hs.ne_empty
  · exact hr

/-- The quotient of a real by a positive real is real. -/
theorem IsReal.div_of_pos {a b : EReal} (ha : IsReal a) (hb : IsReal b) (hb0 : 0 < b) :
    IsReal (Ideal.div a b) :=
  ha.div hb hb0.ne'

/-- A real is the coercion of its real part. -/
theorem IsReal.coe_toReal {a : EReal} (ha : IsReal a) : ((a.toReal : ℝ) : EReal) = a :=
  EReal.coe_toReal ha.ne_top ha.ne_bot

end Cert.LibRealClosure
-- ==== Proof.GateSpec.lean ====
/-
  The gated recurrent cell over a graph, index by index, as a function of its arrays.

  For a node r and a hidden unit j: the second Chebyshev term is 2 (A2 + D T1) - h, where T1 is the first
  propagation of h, A2 the edge sum of the second propagation and D the diagonal of the scaled Laplacian; each
  gate's pre-activation is x Wx[k] + ((h θ[k,0] + T1 θ[k,1]) + T2 θ[k,2] + cb[k]); the input, forget and output gates
  are logistic, the cell candidate a hyperbolic tangent; Cn = F c + I T, Hn = O tanh Cn, and the projection is
  relu(Hn) lw + lb. The grouping of every sum is the one in which a plain array program computes it.

  A second program may compute the same pre-activation as ONE product of the four inputs laid side by side
  (x | h | T1 | T2, 256 lanes) with the four weight blocks stacked, plus the two biases added beforehand, and the
  Chebyshev term with the factor 2 distributed: 2 A2 + (2 D) T1 - h. Both are regroupings: the sum over 256 lanes is
  the sum over the four blocks of 64, addition on the extended reals is commutative and associative, and a
  nonnegative real factor distributes over any sum of extended reals. No finiteness is used.
-/
import Mathlib.Data.EReal.Operations
import Mathlib.Algebra.BigOperators.Fin
import Idealize.ShloMosaic.PureOps.Ideal
import Idealize.ShloMosaic.Lib.ValueIdx
import proofs.«138098_j15135464751774_2_alg».proof.Proof.LibSumReindex
import proofs.«138098_j15135464751774_2_alg».proof.Proof.LibRealClosure

noncomputable section

namespace Cert.GateSpec

open Idealize.ShloMosaic Idealize.ShloMosaic.ValueIdx
open scoped BigOperators

/-- The arrays of the cell, entry by entry. -/
structure Arrays where
  x : Fin 50000 → Fin 64 → EReal
  h : Fin 50000 → Fin 64 → EReal
  c : Fin 50000 → Fin 64 → EReal
  T1 : Fin 50000 → Fin 64 → EReal
  A2 : Fin 50000 → Fin 64 → EReal
  D : Fin 50000 → EReal
  Wx : Fin 4 → Fin 64 → Fin 64 → EReal
  θ : Fin 4 → Fin 3 → Fin 64 → Fin 64 → EReal
  wc : Fin 3 → Fin 64 → EReal
  b : Fin 4 → Fin 64 → EReal
  cb : Fin 4 → Fin 64 → EReal
  lw : Fin 64 → Fin 64 → EReal
  lb : Fin 64 → EReal

/-- The float word of 2.0 at the exact instance. -/
abbrev two : EReal := Ideal.ofBits .f32 0x40000000#32

namespace Arrays

variable (p : Arrays)

/-- The second Chebyshev term 2 (A2 + D T1) - h. -/
def T2 (r : Fin 50000) (l : Fin 64) : EReal := two * (p.A2 r l + p.D r * p.T1 r l) - p.h r l

/-- Gate k's pre-activation before the peephole and the gate bias. -/
def pre (k : Fin 4) (r : Fin 50000) (j : Fin 64) : EReal :=
  (∑ l, p.x r l * p.Wx k l j)
    + ((((∑ l, p.h r l * p.θ k 0 l j) + (∑ l, p.T1 r l * p.θ k 1 l j)) + (∑ l, p.T2 r l * p.θ k 2 l j)) + p.cb k j)

def gateI (r : Fin 50000) (j : Fin 64) : EReal := Ideal.logistic ((p.pre 0 r j + p.wc 0 j * p.c r j) + p.b 0 j)
def gateF (r : Fin 50000) (j : Fin 64) : EReal := Ideal.logistic ((p.pre 1 r j + p.wc 1 j * p.c r j) + p.b 1 j)
def gateT (r : Fin 50000) (j : Fin 64) : EReal := Ideal.tanh (p.pre 2 r j + p.b 2 j)
/-- The new cell state. -/
def Cn (r : Fin 50000) (j : Fin 64) : EReal := p.gateF r j * p.c r j + p.gateI r j * p.gateT r j
def gateO (r : Fin 50000) (j : Fin 64) : EReal := Ideal.logistic ((p.pre 3 r j + p.wc 2 j * p.Cn r j) + p.b 3 j)
/-- The new hidden state. -/
def Hn (r : Fin 50000) (j : Fin 64) : EReal := p.gateO r j * Ideal.tanh (p.Cn r j)
/-- The projected output. -/
def hout (r : Fin 50000) (j : Fin 64) : EReal := (∑ l, max (p.Hn r l) 0 * p.lw l j) + p.lb j

/-- The Chebyshev term with the factor 2 distributed is the same extended real: 2 is a nonnegative real. -/
theorem T2_distributed (r : Fin 50000) (l : Fin 64) :
    (two * p.A2 r l + (two * p.D r) * p.T1 r l) - p.h r l = p.T2 r l := by
  unfold T2 two
  rw [Cert.LibRealClosure.ofBits_f32_two,
    EReal.left_distrib_of_nonneg_of_ne_top (by exact_mod_cast (by norm_num : (0 : ℝ) ≤ 2)) (EReal.coe_ne_top 2), mul_assoc]

/-- One product over the four inputs laid side by side is the sum of the four products: with the lanes' entries
    `cat` and the stacked weights' column `W` known block by block, and the packed bias the sum of the two biases,
    the packed pre-activation regroups to the plain one plus the gate bias. -/
theorem packed_pre (k : Fin 4) (r : Fin 50000) (j : Fin 64) (cat W : Fin (4 * 64) → EReal) (bias : EReal)
    (c0 : ∀ l, cat (finProdFinEquiv (0, l)) = p.x r l) (c1 : ∀ l, cat (finProdFinEquiv (1, l)) = p.h r l)
    (c2 : ∀ l, cat (finProdFinEquiv (2, l)) = p.T1 r l) (c3 : ∀ l, cat (finProdFinEquiv (3, l)) = p.T2 r l)
    (w0 : ∀ l, W (finProdFinEquiv (0, l)) = p.Wx k l j) (w1 : ∀ l, W (finProdFinEquiv (1, l)) = p.θ k 0 l j)
    (w2 : ∀ l, W (finProdFinEquiv (2, l)) = p.θ k 1 l j) (w3 : ∀ l, W (finProdFinEquiv (3, l)) = p.θ k 2 l j)
    (hb : bias = p.cb k j + p.b k j) :
    (∑ q, cat q * W q) + bias = p.pre k r j + p.b k j := by
  rw [← Cert.Lib.SumReindex.sum_fin_sum_fin (K := 4) (n := 64) (fun q => cat q * W q), Fin.sum_univ_four, hb]
  simp only [c0, c1, c2, c3, w0, w1, w2, w3]
  unfold pre
  ac_rfl

/-- With a peephole term `w` added after the packed bias. -/
theorem packed_pre_peep (k : Fin 4) (r : Fin 50000) (j : Fin 64) (cat W : Fin (4 * 64) → EReal) (bias w : EReal)
    (c0 : ∀ l, cat (finProdFinEquiv (0, l)) = p.x r l) (c1 : ∀ l, cat (finProdFinEquiv (1, l)) = p.h r l)
    (c2 : ∀ l, cat (finProdFinEquiv (2, l)) = p.T1 r l) (c3 : ∀ l, cat (finProdFinEquiv (3, l)) = p.T2 r l)
    (w0 : ∀ l, W (finProdFinEquiv (0, l)) = p.Wx k l j) (w1 : ∀ l, W (finProdFinEquiv (1, l)) = p.θ k 0 l j)
    (w2 : ∀ l, W (finProdFinEquiv (2, l)) = p.θ k 1 l j) (w3 : ∀ l, W (finProdFinEquiv (3, l)) = p.θ k 2 l j)
    (hb : bias = p.cb k j + p.b k j) :
    ((∑ q, cat q * W q) + bias) + w = (p.pre k r j + w) + p.b k j := by
  rw [p.packed_pre k r j cat W bias c0 c1 c2 c3 w0 w1 w2 w3 hb]
  ac_rfl

end Arrays

/-- The cell's arrays read off arrays indexed by coordinates: the inputs x, h, c, the first propagation T1, the
    edge sum A2 of the second, the Laplacian's diagonal D, and the weights. -/
def arraysOf (x h c T1 A2 : (⟨2, ![50000, 64]⟩ : Shape).Idx → EReal) (D : (⟨1, ![50000]⟩ : Shape).Idx → EReal)
    (Wx : (⟨3, ![4, 64, 64]⟩ : Shape).Idx → EReal) (wc : (⟨2, ![3, 64]⟩ : Shape).Idx → EReal)
    (b : (⟨2, ![4, 64]⟩ : Shape).Idx → EReal) (θ : (⟨4, ![4, 3, 64, 64]⟩ : Shape).Idx → EReal)
    (cb : (⟨2, ![4, 64]⟩ : Shape).Idx → EReal) (lw : (⟨2, ![64, 64]⟩ : Shape).Idx → EReal)
    (lb : (⟨1, ![64]⟩ : Shape).Idx → EReal) : Arrays where
  x r l := x (ix2 r l)
  h r l := h (ix2 r l)
  c r l := c (ix2 r l)
  T1 r l := T1 (ix2 r l)
  A2 r l := A2 (ix2 r l)
  D r := D (ix1 r)
  Wx k l j := Wx (ix3 k l j)
  θ k q l j := θ (ix4 k q l j)
  wc q j := wc (ix2 q j)
  b k j := b (ix2 k j)
  cb k j := cb (ix2 k j)
  lw l j := lw (ix2 l j)
  lb j := lb (ix1 j)

end Cert.GateSpec

end
-- ==== Proof.KIRead.lean ====
/-
  The kernel body's arithmetic at one entry, at the exact instance. A block of 2000 nodes: the four inputs
  x, h, T1 and 2 A2 + (2 D) T1 - h are laid side by side (256 lanes) and multiplied once by the packed 256 x 256
  weight, the packed bias added; the four gate pre-activations are the four 64-lane slices of that product.
  Entry (p, c) of the product is the sum over the 256 lanes; a lane l + 64 q is lane l of input q.
-/
import proofs.«138098_j15135464751774_2_alg».proof.Proof.Gen.KernelIdeal.Skeleton
import proofs.«138098_j15135464751774_2_alg».proof.Proof.LibStack4
import proofs.«138098_j15135464751774_2_alg».proof.Proof.GateSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.ShloMosaic.TcCoe
open Cert.KernelIdeal Cert.KernelIdeal.Gen
open scoped BigOperators

theorem gates_product_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem gates_product_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem gates_product_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem gates_product_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product S2000x256 x S256x256 into a zero accumulator, entry by entry: the sum over the contracted coordinate. -/
theorem gates_product (L : FVec Ideal S2000x256 .bf16) (Rm : FVec Ideal S256x256 .bf16) (p : Fin 2000) (c : Fin 256) :
    matmul dot_S2000x256_S256x256_S2000x256_1_0_0_1_n_n none L Rm (constant S2000x256 .f32 0x00000000#32) (ix2 p c)
      = ∑ k : Fin 256, L (ix2 p k) * Rm (ix2 k c) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p c) ((contrEquiv1 dot_S2000x256_S256x256_S2000x256_1_0_0_1_n_n 256 rfl rfl).symm k) = ix2 p k :=
    funext fun a => Fin.ext (by
      match a with
      | ⟨0, _⟩ => exact gates_product_l0 _ _
      | ⟨1, _⟩ => exact (gates_product_l1 _ _).trans hk)
  have er : dot_S2000x256_S256x256_S2000x256_1_0_0_1_n_n.rhsIdx (ix2 p c) ((contrEquiv1 dot_S2000x256_S256x256_S2000x256_1_0_0_1_n_n 256 rfl rfl).symm k) = ix2 k c :=
    funext fun a => Fin.ext (by
      match a with
      | ⟨0, _⟩ => exact (gates_product_r0 _ _).trans hk
      | ⟨1, _⟩ => exact gates_product_r1 _ _)
  rw [el, er]

theorem proj_product_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem proj_product_l1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem proj_product_r0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem proj_product_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product S2000x64 x S64x64 into a zero accumulator, entry by entry: the sum over the contracted coordinate. -/
theorem proj_product (L : FVec Ideal S2000x64 .bf16) (Rm : FVec Ideal S64x64 .bf16) (p : Fin 2000) (c : Fin 64) :
    matmul dot_S2000x64_S64x64_S2000x64_1_0_0_1_n_n none L Rm (constant S2000x64 .f32 0x00000000#32) (ix2 p c)
      = ∑ k : Fin 64, L (ix2 p k) * Rm (ix2 k c) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p c) ((contrEquiv1 dot_S2000x64_S64x64_S2000x64_1_0_0_1_n_n 64 rfl rfl).symm k) = ix2 p k :=
    funext fun a => Fin.ext (by
      match a with
      | ⟨0, _⟩ => exact proj_product_l0 _ _
      | ⟨1, _⟩ => exact (proj_product_l1 _ _).trans hk)
  have er : dot_S2000x64_S64x64_S2000x64_1_0_0_1_n_n.rhsIdx (ix2 p c) ((contrEquiv1 dot_S2000x64_S64x64_S2000x64_1_0_0_1_n_n 64 rfl rfl).symm k) = ix2 k c :=
    funext fun a => Fin.ext (by
      match a with
      | ⟨0, _⟩ => exact (proj_product_r0 _ _).trans hk
      | ⟨1, _⟩ => exact proj_product_r1 _ _)
  rw [el, er]

/-- A [2000, 1] column stretched over 64 lanes reads its row's entry. -/
theorem column_over_lanes {α : Type} (v : S2000x1.Idx → α) (h : S2000x1.Broadcasts S2000x64) (p : Fin 2000) (l : Fin 64) :
    broadcastTo S2000x64 v h (ix2 p l) = v (ix2 p (0 : Fin 1)) := by
  refine broadcastTo_apply v h (ix2 p l) (ix2 p (0 : Fin 1)) fun ax => ?_
  match ax with
  | ⟨0, _⟩ => rfl
  | ⟨1, _⟩ => rfl

/-- The four inputs side by side, as the body builds them from the loaded blocks
    (x, h, T1, A2 : [2000, 64], the diagonal a [2000, 1] column). -/
def laneCat (x h T1 A2 : Vec Ideal S2000x64 .f32) (D : Vec Ideal S2000x1 .f32) : FVec Ideal S2000x256 .bf16 :=
  concatenate S2000x256 1 [⟨S2000x64, truncf .bf16 x bitsLt_bf16_f32⟩, ⟨S2000x64, truncf .bf16 h bitsLt_bf16_f32⟩,
    ⟨S2000x64, truncf .bf16 (shapeCast S2000x64 T1 shapeCasts_S2000x64_S2000x64) bitsLt_bf16_f32⟩,
    ⟨S2000x64, truncf .bf16 (subf (addf (mulf (broadcast S2000x64 (Scalar.ofBits .f32 0x40000000#32)) (shapeCast S2000x64 A2 shapeCasts_S2000x64_S2000x64))
      (mulf (broadcastTo S2000x64 (mulf (broadcast S2000x1 (Scalar.ofBits .f32 0x40000000#32)) (shapeCast S2000x1 D shapeCasts_S2000x1_S2000x1)) broadcasts_S2000x1_S2000x64)
        (shapeCast S2000x64 T1 shapeCasts_S2000x64_S2000x64))) h) bitsLt_bf16_f32⟩]
    concatenates_S2000x64_S2000x64_S2000x64_S2000x64_S2000x256_d1

/-- The packed pre-activations at an entry: the sum over the 256 lanes of input lane times weight, plus the bias. -/
theorem pay6_read (x h T1 A2 : Vec Ideal S2000x64 .f32) (D : Vec Ideal S2000x1 .f32) (W : Vec Ideal S256x256 .bf16)
    (B : Vec Ideal S1x256 .f32) (p : Fin 2000) (c : Fin 256) :
    k0_pay6 (F := Ideal) x h T1 A2 D W B (ix2 p c)
      = (∑ k : Fin 256, laneCat x h T1 A2 D (ix2 p k) * W (ix2 k c)) + B (ix2 (0 : Fin 1) c) := by
  unfold k0_pay6
  show (matmul dot_S2000x256_S256x256_S2000x256_1_0_0_1_n_n none (laneCat x h T1 A2 D) (shapeCast S256x256 W shapeCasts_S256x256_S256x256)
      (constant S2000x256 .f32 0x00000000#32)) (ix2 p c)
    + broadcastTo S2000x256 (shapeCast S1x256 B shapeCasts_S1x256_S1x256) broadcasts_S1x256_S2000x256 (ix2 p c) = _
  rw [gates_product, shapeCast_self, shapeCast_self, broadcastTo_1b_ab_apply]

/-- The Chebyshev term as the body forms it, with the factor 2 distributed, at an entry. -/
theorem tx2_body_read (h T1 A2 : Vec Ideal S2000x64 .f32) (D : Vec Ideal S2000x1 .f32) (p : Fin 2000) (l : Fin 64) :
    (subf (addf (mulf (broadcast S2000x64 (Scalar.ofBits (F := Ideal) .f32 0x40000000#32)) (shapeCast S2000x64 A2 shapeCasts_S2000x64_S2000x64))
      (mulf (broadcastTo S2000x64 (mulf (broadcast S2000x1 (Scalar.ofBits (F := Ideal) .f32 0x40000000#32)) (shapeCast S2000x1 D shapeCasts_S2000x1_S2000x1)) broadcasts_S2000x1_S2000x64)
        (shapeCast S2000x64 T1 shapeCasts_S2000x64_S2000x64))) h : FVec Ideal S2000x64 .f32) (ix2 p l)
      = (Cert.GateSpec.two * A2 (ix2 p l) + (Cert.GateSpec.two * D (ix2 p (0 : Fin 1))) * T1 (ix2 p l)) - h (ix2 p l) := by
  rw [subf_apply, addf_apply, mulf_apply, mulf_apply, column_over_lanes, mulf_apply, shapeCast_self, shapeCast_self, shapeCast_self]
  rfl

/-- Lane l + 64 q of the side-by-side input is lane l of input q. -/
theorem laneCat_read (x h T1 A2 : Vec Ideal S2000x64 .f32) (D : Vec Ideal S2000x1 .f32) (p : Fin 2000) (l : Fin 64) :
    laneCat x h T1 A2 D (ix2 p (finProdFinEquiv ((0 : Fin 4), l))) = x (ix2 p l)
    ∧ laneCat x h T1 A2 D (ix2 p (finProdFinEquiv ((1 : Fin 4), l))) = h (ix2 p l)
    ∧ laneCat x h T1 A2 D (ix2 p (finProdFinEquiv ((2 : Fin 4), l))) = T1 (ix2 p l)
    ∧ laneCat x h T1 A2 D (ix2 p (finProdFinEquiv ((3 : Fin 4), l)))
        = (Cert.GateSpec.two * A2 (ix2 p l) + (Cert.GateSpec.two * D (ix2 p (0 : Fin 1))) * T1 (ix2 p l)) - h (ix2 p l) := by
  unfold laneCat
  refine ⟨?_, ?_, ?_, ?_⟩
  · exact Cert.Lib.Stack4.lanes (N := 256) _ _ _ _ _ p 0 l (finProdFinEquiv ((0 : Fin 4), l)) rfl
  · exact Cert.Lib.Stack4.lanes (N := 256) _ _ _ _ _ p 1 l (finProdFinEquiv ((1 : Fin 4), l)) rfl
  · refine (Cert.Lib.Stack4.lanes (N := 256) _ _ _ _ _ p 2 l (finProdFinEquiv ((2 : Fin 4), l)) rfl).trans ?_
    show shapeCast S2000x64 T1 shapeCasts_S2000x64_S2000x64 (ix2 p l) = _
    rw [shapeCast_self]
  · refine (Cert.Lib.Stack4.lanes (N := 256) _ _ _ _ _ p 3 l (finProdFinEquiv ((3 : Fin 4), l)) rfl).trans ?_
    exact tx2_body_read h T1 A2 D p l

end Cert.KernelIdeal.Hand

end
-- ==== Proof.KIGates.lean ====
/-
  The gates at one entry of a block, at the exact instance: with g the packed pre-activations (four 64-lane slices,
  gate k in lanes 64 k … 64 k + 63), c the cell state and wc the three peephole rows,
    Cn = logistic(g1 + wc1 c) c + logistic(g0 + wc0 c) tanh(g2),
    Hn = logistic(g3 + wc2 Cn) tanh(Cn),
    out = (sum over the 64 lanes of max(Hn, 0) times the projection weight) + the projection bias.
-/
import proofs.«138098_j15135464751774_2_alg».proof.Proof.KIRead

noncomputable section

namespace Cert.KernelIdeal.Hand

open Idealize.ShloMosaic Idealize.ShloMosaic.ValueIdx Idealize.ShloMosaic.TcCoe
open Cert.KernelIdeal Cert.KernelIdeal.Gen
open scoped BigOperators

/-- A 64-lane slice of the 256-lane array starting at lane `off`. -/
theorem slice_lanes {α : Type} (off : ℕ) (h : S2000x256.Slices ![0, off] S2000x64) (g : S2000x256.Idx → α) (p : Fin 2000) (j : Fin 64)
    (c : Fin 256) (hc : c.val = off + j.val) : extractStridedSlice S2000x64 ![0, off] g h (ix2 p j) = g (ix2 p c) := by
  refine extractStridedSlice_apply _ g h (ix2 p j) (ix2 p c) fun a => ?_
  match a with
  | ⟨0, _⟩ => show p.val = 0 + p.val; omega
  | ⟨1, _⟩ => exact hc

/-- Row `q` of the [3, 64] peephole weights stretched over the block. -/
theorem peephole_row {α : Type} (q : ℕ) (hq : q < 3) (h1 : S3x64.Slices ![q, 0] S1x64) (wc : S3x64.Idx → α) (p : Fin 2000) (j : Fin 64) :
    broadcastTo S2000x64 (shapeCast S1x64 (shapeCast S64 (extractStridedSlice S1x64 ![q, 0] wc h1) shapeCasts_S1x64_S64) shapeCasts_S64_S1x64) broadcasts_S1x64_S2000x64 (ix2 p j)
      = wc (ix2 (⟨q, hq⟩ : Fin 3) j) := by
  rw [broadcastTo_1b_ab_apply, shapeCast_a_1a_apply, shapeCast_1a_a_apply]
  refine extractStridedSlice_apply _ wc h1 _ _ fun a => ?_
  match a with
  | ⟨0, _⟩ => rfl
  | ⟨1, _⟩ => show j.val = 0 + j.val; omega

/-- The new cell state at an entry. -/
theorem pay1_read (c : Vec Ideal S2000x64 .f32) (wc : Vec Ideal S3x64 .f32) (g : FVec Ideal S2000x256 .f32) (p : Fin 2000) (j : Fin 64) :
    k0_pay1 (F := Ideal) c wc g (ix2 p j)
      = Ideal.logistic (g (ix2 p (finProdFinEquiv ((1 : Fin 4), j))) + wc (ix2 (1 : Fin 3) j) * c (ix2 p j)) * c (ix2 p j)
        + Ideal.logistic (g (ix2 p (finProdFinEquiv ((0 : Fin 4), j))) + wc (ix2 (0 : Fin 3) j) * c (ix2 p j)) * Ideal.tanh (g (ix2 p (finProdFinEquiv ((2 : Fin 4), j)))) := by
  unfold k0_pay1
  show Ideal.logistic (extractStridedSlice S2000x64 ![0, 64] g slices_S2000x256_o0_64_S2000x64 (ix2 p j) + broadcastTo S2000x64 (shapeCast S1x64 (shapeCast S64 (extractStridedSlice S1x64 ![1, 0] wc slices_S3x64_o1_0_S1x64) shapeCasts_S1x64_S64) shapeCasts_S64_S1x64) broadcasts_S1x64_S2000x64 (ix2 p j) * c (ix2 p j)) * c (ix2 p j)
      + Ideal.logistic (extractStridedSlice S2000x64 ![0, 0] g slices_S2000x256_o0_0_S2000x64 (ix2 p j) + broadcastTo S2000x64 (shapeCast S1x64 (shapeCast S64 (extractStridedSlice S1x64 ![0, 0] wc slices_S3x64_o0_0_S1x64) shapeCasts_S1x64_S64) shapeCasts_S64_S1x64) broadcasts_S1x64_S2000x64 (ix2 p j) * c (ix2 p j)) * Ideal.tanh (extractStridedSlice S2000x64 ![0, 128] g slices_S2000x256_o0_128_S2000x64 (ix2 p j)) = _
  rw [slice_lanes 64 _ g p j (finProdFinEquiv ((1 : Fin 4), j)) (by show j.val + 64 * 1 = 64 + j.val; omega),
    slice_lanes 0 _ g p j (finProdFinEquiv ((0 : Fin 4), j)) (by show j.val + 64 * 0 = 0 + j.val; omega),
    slice_lanes 128 _ g p j (finProdFinEquiv ((2 : Fin 4), j)) (by show j.val + 64 * 2 = 128 + j.val; omega),
    peephole_row 1 (by decide) _ wc p j, peephole_row 0 (by decide) _ wc p j]
  rfl

/-- The new hidden state at an entry. -/
theorem pay2_read (c : Vec Ideal S2000x64 .f32) (wc : Vec Ideal S3x64 .f32) (g : FVec Ideal S2000x256 .f32) (p : Fin 2000) (j : Fin 64) :
    k0_pay2 (F := Ideal) c wc g (ix2 p j)
      = Ideal.logistic (g (ix2 p (finProdFinEquiv ((3 : Fin 4), j))) + wc (ix2 (2 : Fin 3) j) * k0_pay1 (F := Ideal) c wc g (ix2 p j))
        * Ideal.tanh (k0_pay1 (F := Ideal) c wc g (ix2 p j)) := by
  unfold k0_pay2
  show Ideal.logistic (extractStridedSlice S2000x64 ![0, 192] g slices_S2000x256_o0_192_S2000x64 (ix2 p j) + broadcastTo S2000x64 (shapeCast S1x64 (shapeCast S64 (extractStridedSlice S1x64 ![2, 0] wc slices_S3x64_o2_0_S1x64) shapeCasts_S1x64_S64) shapeCasts_S64_S1x64) broadcasts_S1x64_S2000x64 (ix2 p j) * k0_pay1 (F := Ideal) c wc g (ix2 p j))
      * Ideal.tanh (k0_pay1 (F := Ideal) c wc g (ix2 p j)) = _
  rw [slice_lanes 192 _ g p j (finProdFinEquiv ((3 : Fin 4), j)) (by show j.val + 64 * 3 = 192 + j.val; omega), peephole_row 2 (by decide) _ wc p j]
  rfl

/-- The projected output at an entry. -/
theorem pay3_read (c : Vec Ideal S2000x64 .f32) (wc : Vec Ideal S3x64 .f32) (lw : FVec Ideal S64x64 .bf16) (lb : FVec Ideal S1x64 .f32)
    (g : FVec Ideal S2000x256 .f32) (p : Fin 2000) (j : Fin 64) :
    k0_pay3 (F := Ideal) c wc lw lb g (ix2 p j)
      = (∑ l : Fin 64, max (k0_pay2 (F := Ideal) c wc g (ix2 p l)) 0 * lw (ix2 l j)) + lb (ix2 (0 : Fin 1) j) := by
  unfold k0_pay3
  show matmul dot_S2000x64_S64x64_S2000x64_1_0_0_1_n_n none
        (truncf .bf16 (maximumf (k0_pay2 (F := Ideal) c wc g) (broadcast S2000x64 (Scalar.ofBits (F := Ideal) .f32 0x00000000#32))) bitsLt_bf16_f32) lw
        (constant S2000x64 .f32 0x00000000#32) (ix2 p j)
      + broadcastTo S2000x64 lb broadcasts_S1x64_S2000x64 (ix2 p j) = _
  rw [proj_product, broadcastTo_1b_ab_apply]
  refine congrArg (· + lb (ix2 (0 : Fin 1) j)) (Finset.sum_congr rfl fun l _ => ?_)
  show max (k0_pay2 (F := Ideal) c wc g (ix2 p l)) (Ideal.ofBits .f32 0x00000000#32) * lw (ix2 l j) = _
  rw [Ideal.ofBits_zero_f32]

end Cert.KernelIdeal.Hand

end
-- ==== Proof.KIBlock.lean ====
/-
  One block of the kernel against the cell's specification. If the eleven blocks the body loads hold, at row p, the
  entries of the cell's arrays at node r — the inputs and the two propagated arrays their rows, the diagonal its
  entry, the packed weight the four weight blocks of every gate stacked, the packed bias the sum of the two biases —
  then the three payloads at (p, j) are the new cell state, the new hidden state and the projected output at (r, j).
  The packed product regroups to the plain pre-activation (the sum over 256 lanes is the sum of four sums over 64;
  the Chebyshev term with 2 distributed is the same number), and the gate bias, added before the peephole term in the
  packed form, commutes past it.
-/
import proofs.«138098_j15135464751774_2_alg».proof.Proof.KIGates

noncomputable section

namespace Cert.KernelIdeal.Hand

open Idealize.ShloMosaic Idealize.ShloMosaic.ValueIdx Idealize.ShloMosaic.TcCoe
open Cert.KernelIdeal Cert.KernelIdeal.Gen Cert.GateSpec
open scoped BigOperators

section Block

variable (P : Arrays) (r : Fin 50000) (p : Fin 2000)
  (x h c T1 A2 : Vec Ideal S2000x64 .f32) (D : Vec Ideal S2000x1 .f32) (W : Vec Ideal S256x256 .bf16) (B : Vec Ideal S1x256 .f32)
  (wc : Vec Ideal S3x64 .f32) (lw : Vec Ideal S64x64 .bf16) (lb : Vec Ideal S1x64 .f32)
  (hx : ∀ l, x (ix2 p l) = P.x r l) (hh : ∀ l, h (ix2 p l) = P.h r l) (hc : ∀ l, c (ix2 p l) = P.c r l)
  (hT1 : ∀ l, T1 (ix2 p l) = P.T1 r l) (hA2 : ∀ l, A2 (ix2 p l) = P.A2 r l) (hD : D (ix2 p (0 : Fin 1)) = P.D r)
  (hW0 : ∀ (k : Fin 4) (l j : Fin 64), W (ix2 (finProdFinEquiv ((0 : Fin 4), l)) (finProdFinEquiv (k, j))) = P.Wx k l j)
  (hW1 : ∀ (k : Fin 4) (l j : Fin 64), W (ix2 (finProdFinEquiv ((1 : Fin 4), l)) (finProdFinEquiv (k, j))) = P.θ k 0 l j)
  (hW2 : ∀ (k : Fin 4) (l j : Fin 64), W (ix2 (finProdFinEquiv ((2 : Fin 4), l)) (finProdFinEquiv (k, j))) = P.θ k 1 l j)
  (hW3 : ∀ (k : Fin 4) (l j : Fin 64), W (ix2 (finProdFinEquiv ((3 : Fin 4), l)) (finProdFinEquiv (k, j))) = P.θ k 2 l j)
  (hB : ∀ (k : Fin 4) (j : Fin 64), B (ix2 (0 : Fin 1) (finProdFinEquiv (k, j))) = P.cb k j + P.b k j)
  (hwc : ∀ (q : Fin 3) (j : Fin 64), wc (ix2 q j) = P.wc q j)
  (hlw : ∀ l j : Fin 64, lw (ix2 l j) = P.lw l j) (hlb : ∀ j : Fin 64, lb (ix2 (0 : Fin 1) j) = P.lb j)

include hx hh hT1 hA2 hD hW0 hW1 hW2 hW3 hB in
/-- Gate k's packed pre-activation at (p, j) is the plain pre-activation plus the gate bias. -/
theorem block_pre (k : Fin 4) (j : Fin 64) :
    k0_pay6 (F := Ideal) x h T1 A2 D W B (ix2 p (finProdFinEquiv (k, j))) = P.pre k r j + P.b k j := by
  rw [pay6_read]
  refine P.packed_pre k r j (fun q => laneCat x h T1 A2 D (ix2 p q)) (fun q => W (ix2 q (finProdFinEquiv (k, j)))) _
    (fun l => (laneCat_read x h T1 A2 D p l).1.trans (hx l))
    (fun l => (laneCat_read x h T1 A2 D p l).2.1.trans (hh l))
    (fun l => (laneCat_read x h T1 A2 D p l).2.2.1.trans (hT1 l))
    (fun l => (laneCat_read x h T1 A2 D p l).2.2.2.trans (by rw [hA2, hD, hT1, hh]; exact P.T2_distributed r l))
    (fun l => hW0 k l j) (fun l => hW1 k l j) (fun l => hW2 k l j) (fun l => hW3 k l j) (hB k j)

include hx hh hc hT1 hA2 hD hW0 hW1 hW2 hW3 hB hwc in
/-- The first payload is the new cell state. -/
theorem block_Cn (j : Fin 64) :
    k0_pay1 (F := Ideal) c wc (k0_pay6 (F := Ideal) x h T1 A2 D W B) (ix2 p j) = P.Cn r j := by
  rw [pay1_read, block_pre P r p x h T1 A2 D W B hx hh hT1 hA2 hD hW0 hW1 hW2 hW3 hB 1 j,
    block_pre P r p x h T1 A2 D W B hx hh hT1 hA2 hD hW0 hW1 hW2 hW3 hB 0 j,
    block_pre P r p x h T1 A2 D W B hx hh hT1 hA2 hD hW0 hW1 hW2 hW3 hB 2 j, hwc, hwc, hc]
  unfold Arrays.Cn Arrays.gateF Arrays.gateI Arrays.gateT
  rw [add_right_comm (P.pre 1 r j), add_right_comm (P.pre 0 r j)]

include hx hh hc hT1 hA2 hD hW0 hW1 hW2 hW3 hB hwc in
/-- The second payload is the new hidden state. -/
theorem block_Hn (j : Fin 64) :
    k0_pay2 (F := Ideal) c wc (k0_pay6 (F := Ideal) x h T1 A2 D W B) (ix2 p j) = P.Hn r j := by
  rw [pay2_read, block_Cn P r p x h c T1 A2 D W B wc hx hh hc hT1 hA2 hD hW0 hW1 hW2 hW3 hB hwc j,
    block_pre P r p x h T1 A2 D W B hx hh hT1 hA2 hD hW0 hW1 hW2 hW3 hB 3 j, hwc]
  unfold Arrays.Hn Arrays.gateO
  rw [add_right_comm (P.pre 3 r j)]

include hx hh hc hT1 hA2 hD hW0 hW1 hW2 hW3 hB hwc hlw hlb in
/-- The third payload is the projected output. -/
theorem block_hout (j : Fin 64) :
    k0_pay3 (F := Ideal) c wc (k0_pay4 (F := Ideal) lw) (k0_pay5 (F := Ideal) lb) (k0_pay6 (F := Ideal) x h T1 A2 D W B) (ix2 p j) = P.hout r j := by
  rw [pay3_read]
  unfold Arrays.hout k0_pay4 k0_pay5
  rw [shapeCast_self, shapeCast_self, hlb]
  refine congrArg (· + P.lb j) (Finset.sum_congr rfl fun l _ => ?_)
  rw [block_Hn P r p x h c T1 A2 D W B wc hx hh hc hT1 hA2 hD hW0 hW1 hW2 hW3 hB hwc l, hlw]

end Block

end Cert.KernelIdeal.Hand

end
-- ==== Proof.KIProp.lean ====
/-
  The graph propagation as array terms of the edge list, the edge weights and a node array: the weighted degree, its
  inverse square root where the degree is positive (0 elsewhere), the normalised edge coefficient
  -d[src] w d[dst], the diagonal d d deg - 1 of the scaled Laplacian, the sum over incoming edges of the coefficient
  times the source node's row, and the first propagation of h (edge sum plus diagonal times h). Each is the
  composition of array operations in which the program computes it.
-/
import proofs.«138098_j15135464751774_2_alg».proof.Proof.Gen.KernelIdeal

noncomputable section

namespace Cert.KernelIdeal.Hand

open Cert.KernelIdeal Cert.KernelIdeal.Gen Idealize.ShloMosaic Idealize.ShloMosaic.TcCoe Idealize.SL.Sem

variable {F : FTy → Type} [FloatOps F]

/-- The source node of every edge (row 0 of the edge list). -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The target node of every edge (row 1 of the edge list). -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A node index with a negative value wrapped once by the number of nodes, as a one-column index array. -/
def wrapCol (v : (⟨S1600000, .i32⟩ : BufTy).Contents (Elt F)) : (⟨S1600000x1, .i32⟩ : BufTy).Contents (Elt F) :=
  broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 50000#32))) v)

/-- The weighted degree: the sum of the weights of the edges leaving each node. -/
def degree (ei : (⟨S2x1600000, .i32⟩ : BufTy).Contents (Elt F)) (ew : (⟨S1600000, .f32⟩ : BufTy).Contents (Elt F)) : (⟨S50000, .f32⟩ : BufTy).Contents (Elt F) :=
  Host.scatterAdd scatter_S50000_S1600000x1_S1600000_n_0_0_1 (broadcastInDim S50000 ![] bcast_S_S50000 (constant S_ .f32 0x00000000#32)) (broadcastInDim S1600000x1 ![0] bcast_S1600000_S1600000x1_0 (srcIdx ei)) ew

/-- deg^(-1/2) where the degree is positive, 0 elsewhere. -/
def invSqrtDeg (ei : (⟨S2x1600000, .i32⟩ : BufTy).Contents (Elt F)) (ew : (⟨S1600000, .f32⟩ : BufTy).Contents (Elt F)) : (⟨S50000, .f32⟩ : BufTy).Contents (Elt F) :=
  select (cmpf .ogt (degree ei ew) (broadcastInDim S50000 ![] bcast_S_S50000 (constant S_ .f32 0x00000000#32))) (Host.powf (degree ei ew) (broadcastInDim S50000 ![] bcast_S_S50000 (constant S_ .f32 0xBF000000#32))) (broadcastInDim S50000 ![] bcast_S_S50000 (id (constant S_ .f32 0x00000000#32)))

/-- The off-diagonal Laplacian coefficient of every edge: -d[src] w d[dst]. -/
def edgeCoef (ei : (⟨S2x1600000, .i32⟩ : BufTy).Contents (Elt F)) (ew : (⟨S1600000, .f32⟩ : BufTy).Contents (Elt F)) : (⟨S1600000, .f32⟩ : BufTy).Contents (Elt F) :=
  mulf (mulf (Host.negf (Host.gather gather_S50000_S1600000x1_S1600000_n_0_n_n_0_1_1 (invSqrtDeg ei ew) (wrapCol (srcIdx ei)))) ew) (Host.gather gather_S50000_S1600000x1_S1600000_n_0_n_n_0_1_1 (invSqrtDeg ei ew) (wrapCol (dstIdx ei)))

/-- The Laplacian's diagonal: d d deg - 1. -/
def lapDiag (ei : (⟨S2x1600000, .i32⟩ : BufTy).Contents (Elt F)) (ew : (⟨S1600000, .f32⟩ : BufTy).Contents (Elt F)) : (⟨S50000, .f32⟩ : BufTy).Contents (Elt F) :=
  subf (mulf (mulf (invSqrtDeg ei ew) (invSqrtDeg ei ew)) (degree ei ew)) (broadcastInDim S50000 ![] bcast_S_S50000 (constant S_ .f32 0x3F800000#32))

/-- The sum over the edges entering each node of the coefficient times the source node's row of `z`. -/
def edgeSum (ei : (⟨S2x1600000, .i32⟩ : BufTy).Contents (Elt F)) (ew : (⟨S1600000, .f32⟩ : BufTy).Contents (Elt F)) (z : (⟨S50000x64, .f32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (dstIdx ei)) (mulf (broadcastInDim S1600000x64 ![0, 1] bcast_S1600000x1_S1600000x64_0_1 (broadcastInDim S1600000x1 ![0] bcast_S1600000_S1600000x1_0 (edgeCoef ei ew))) (Host.gather gather_S50000x64_S1600000x1_S1600000x64_1_0_n_n_0_1_164 z (wrapCol (srcIdx ei))))

/-- The diagonal as a one-column array. -/
def lapDiagCol (ei : (⟨S2x1600000, .i32⟩ : BufTy).Contents (Elt F)) (ew : (⟨S1600000, .f32⟩ : BufTy).Contents (Elt F)) : (⟨S50000x1, .f32⟩ : BufTy).Contents (Elt F) :=
  broadcastInDim S50000x1 ![0] bcast_S50000_S50000x1_0 (lapDiag ei ew)

/-- The first propagation of the hidden state: its edge sum plus the diagonal times it. -/
def prop1 (ei : (⟨S2x1600000, .i32⟩ : BufTy).Contents (Elt F)) (ew : (⟨S1600000, .f32⟩ : BufTy).Contents (Elt F)) (h : (⟨S50000x64, .f32⟩ : BufTy).Contents (Elt F)) : (⟨S50000x64, .f32⟩ : BufTy).Contents (Elt F) :=
  addf (edgeSum ei ew h) (mulf (broadcastInDim S50000x64 ![0, 1] bcast_S50000x1_S50000x64_0_1 (lapDiagCol ei ew)) h)

/-- The edge sum of the first propagation. -/
def edgeSum2 (ei : (⟨S2x1600000, .i32⟩ : BufTy).Contents (Elt F)) (ew : (⟨S1600000, .f32⟩ : BufTy).Contents (Elt F)) (h : (⟨S50000x64, .f32⟩ : BufTy).Contents (Elt F)) : (⟨S50000x64, .f32⟩ : BufTy).Contents (Elt F) :=
  edgeSum ei ew (prop1 ei ew h)

end Cert.KernelIdeal.Hand

end
-- ==== Proof.KIHost.lean ====
/-
  What the region finds in the arrays the host stretch computed, as terms of the arguments: the Laplacian's diagonal
  as a column, the first propagation of the hidden state and the edge sum of the second.
-/
import proofs.«138098_j15135464751774_2_alg».proof.Proof.KIPrefix
import proofs.«138098_j15135464751774_2_alg».proof.Proof.KIProp
set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

set_option maxHeartbeats 40000000 in
/-- The diagonal column handed to the region is the Laplacian's diagonal of the edge list and weights. -/
theorem V_diagCol (c : Dev nD) :
    (V m c main_v63 : (⟨S50000x1, .f32⟩ : BufTy).Contents (Elt F)) = lapDiagCol (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp <;> rfl

end Cert.KernelIdeal.Hand

end
-- ==== Proof.KIHostT.lean ====
/-
  What the region finds in the two propagated arrays, as terms of the arguments: the first propagation of the
  hidden state and the edge sum of the second.
-/
import proofs.«138098_j15135464751774_2_alg».proof.Proof.KIPrefix
import proofs.«138098_j15135464751774_2_alg».proof.Proof.KIProp
set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

set_option maxHeartbeats 40000000 in
/-- The fourth row-window's array is the first propagation of the hidden state. -/
theorem V_prop1 (c : Dev nD) :
    (V m c main_v49 : (⟨S50000x64, .f32⟩ : BufTy).Contents (Elt F)) = prop1 (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp <;> rfl

set_option maxHeartbeats 40000000 in
/-- The fifth row-window's array is the edge sum of the first propagation. -/
theorem V_edgeSum2 (c : Dev nD) :
    (V m c main_v62 : (⟨S50000x64, .f32⟩ : BufTy).Contents (Elt F)) = edgeSum2 (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp <;> rfl

end Cert.KernelIdeal.Hand

end
-- ==== Proof.LibHostRows.lean ====
/-
  The reference's array operations read at an index, over arrays of extended reals of any two extents.

  A `broadcast_in_dim` of a column, of a row, of a vector to a column or to a row, and of a scalar; a transpose of a
  matrix; a sum and a maximum along a row and along a column; a product of two matrices: each read at an index with
  named coordinates is the operand at the index it names, the sum (the fold of the maximum) over the reduced
  coordinate, the sum of the products over the contracted coordinate.
-/
import Idealize.ShloMosaic.Lib.ValueIdx
import Idealize.ShloMosaic.Lib.Pipeline.Value
import Idealize.ShloMosaic.PureOps.Ideal.Laws
import Idealize.ShloMosaic.PureOps.Reduce

noncomputable section

namespace Cert.Lib.HostRows

open Idealize.ShloMosaic Idealize.ShloMosaic.ValueIdx
open scoped BigOperators

variable {α : Type} {n0 n1 : ℕ}

/-! ## Broadcasts -/

/-- An [n0, 1] column stretched along the rows of an [n0, n1] array reads its row's entry. -/
theorem bcast_col (h : (⟨2, ![n0, 1]⟩ : Shape).BroadcastsInDim ⟨2, ![n0, n1]⟩ (![0, 1] : Fin 2 → Fin 2))
    (N : (⟨2, ![n0, 1]⟩ : Shape).Idx → α) (a : Fin n0) (b : Fin n1) :
    broadcastInDim ⟨2, ![n0, n1]⟩ (![0, 1] : Fin 2 → Fin 2) h N (ix2 a b) = N (ix2 a 0) := by
  refine broadcastInDim_apply _ h N _ _ fun d => ?_
  fin_cases d
  · show (a : ℕ) = if n0 = 1 then 0 else (a : ℕ)
    split_ifs with h1
    · subst h1; exact Nat.lt_one_iff.mp a.isLt
    · rfl
  · rfl

/-- A [1, n1] row stretched along the columns of an [n0, n1] array reads its column's entry. -/
theorem bcast_row (h : (⟨2, ![1, n1]⟩ : Shape).BroadcastsInDim ⟨2, ![n0, n1]⟩ (![0, 1] : Fin 2 → Fin 2))
    (N : (⟨2, ![1, n1]⟩ : Shape).Idx → α) (a : Fin n0) (b : Fin n1) :
    broadcastInDim ⟨2, ![n0, n1]⟩ (![0, 1] : Fin 2 → Fin 2) h N (ix2 a b) = N (ix2 0 b) := by
  refine broadcastInDim_apply _ h N _ _ fun d => ?_
  fin_cases d
  · rfl
  · show (b : ℕ) = if n1 = 1 then 0 else (b : ℕ)
    split_ifs with h1
    · subst h1; exact Nat.lt_one_iff.mp b.isLt
    · rfl

/-- A vector of `n0` entries as an [n0, 1] column. -/
theorem bcast_vec_col (h : (⟨1, ![n0]⟩ : Shape).BroadcastsInDim ⟨2, ![n0, 1]⟩ (![0] : Fin 1 → Fin 2))
    (R : (⟨1, ![n0]⟩ : Shape).Idx → α) (a : Fin n0) (c : Fin 1) :
    broadcastInDim ⟨2, ![n0, 1]⟩ (![0] : Fin 1 → Fin 2) h R (ix2 a c) = R (ix1 a) := by
  refine broadcastInDim_apply _ h R _ _ fun d => ?_
  fin_cases d
  show (a : ℕ) = if n0 = 1 then 0 else (a : ℕ)
  split_ifs with h1
  · subst h1; exact Nat.lt_one_iff.mp a.isLt
  · rfl

/-- A vector of `n1` entries as a [1, n1] row. -/
theorem bcast_vec_row (h : (⟨1, ![n1]⟩ : Shape).BroadcastsInDim ⟨2, ![1, n1]⟩ (![1] : Fin 1 → Fin 2))
    (R : (⟨1, ![n1]⟩ : Shape).Idx → α) (c : Fin 1) (b : Fin n1) :
    broadcastInDim ⟨2, ![1, n1]⟩ (![1] : Fin 1 → Fin 2) h R (ix2 c b) = R (ix1 b) := by
  refine broadcastInDim_apply _ h R _ _ fun d => ?_
  fin_cases d
  show (b : ℕ) = if n1 = 1 then 0 else (b : ℕ)
  split_ifs with h1
  · subst h1; exact Nat.lt_one_iff.mp b.isLt
  · rfl

/-- A scalar stretched to a vector reads the scalar. -/
theorem bcast_scalar (h : (⟨0, ![]⟩ : Shape).BroadcastsInDim ⟨1, ![n0]⟩ (![] : Fin 0 → Fin 1))
    (c : (⟨0, ![]⟩ : Shape).Idx → α) (a : Fin n0) :
    broadcastInDim ⟨1, ![n0]⟩ (![] : Fin 0 → Fin 1) h c (ix1 a) = c ix0 :=
  broadcastInDim_apply _ h c _ _ fun d => d.elim0

/-! ## Transpose -/

/-- The transpose of an [n0, n1] array read at (b, a) is the array at (a, b). -/
theorem transpose_swap (h : (⟨2, ![n0, n1]⟩ : Shape).Transposes ([1, 0] : List (Fin 2)) ⟨2, ![n1, n0]⟩)
    (Q : (⟨2, ![n0, n1]⟩ : Shape).Idx → α) (a : Fin n0) (b : Fin n1) :
    transpose ⟨2, ![n1, n0]⟩ ([1, 0] : List (Fin 2)) Q h (ix2 b a) = Q (ix2 a b) := by
  refine transpose_apply _ Q h _ _ fun d => ?_
  fin_cases d <;> rfl

/-! ## Reductions -/

/-- The index over the vector index `a` with the coordinate `k` inserted on the second axis. -/
theorem lift_axis1 (h : (⟨2, ![n0, n1]⟩ : Shape).Reduces ([1] : List (Fin 2)) ⟨1, ![n0]⟩) (a : Fin n0) (k : Fin n1) :
    h.lift (ix1 a) k = ix2 a k := by
  funext c
  refine Fin.ext ?_
  fin_cases c <;> rfl

/-- The index over the vector index `b` with the coordinate `k` inserted on the first axis. -/
theorem lift_axis0 (h : (⟨2, ![n0, n1]⟩ : Shape).Reduces ([0] : List (Fin 2)) ⟨1, ![n1]⟩) (b : Fin n1) (k : Fin n0) :
    h.lift (ix1 b) k = ix2 k b := by
  funext c
  refine Fin.ext ?_
  fin_cases c <;> rfl

/-- The host's sum along each row: the initial value plus the sum of the row's entries. -/
theorem hostReduceAdd_rows (h' : (⟨2, ![n0, n1]⟩ : Shape).ReducesTo ([1] : List (Fin 2)) ⟨1, ![n0]⟩)
    (h : (⟨2, ![n0, n1]⟩ : Shape).Reduces ([1] : List (Fin 2)) ⟨1, ![n0]⟩)
    (X : (⟨2, ![n0, n1]⟩ : Shape).Idx → EReal) (init : EReal) (a : Fin n0) :
    Ideal.hostReduceAdd h' X init (ix1 a) = init + ∑ k : Fin n1, X (ix2 a k) := by
  rw [Ideal.hostReduceAdd_single h' h]
  exact congrArg (init + ·) (Finset.sum_congr rfl fun k _ => congrArg X (lift_axis1 h a k))

/-- The host's sum along each column: the initial value plus the sum of the column's entries. -/
theorem hostReduceAdd_cols (h' : (⟨2, ![n0, n1]⟩ : Shape).ReducesTo ([0] : List (Fin 2)) ⟨1, ![n1]⟩)
    (h : (⟨2, ![n0, n1]⟩ : Shape).Reduces ([0] : List (Fin 2)) ⟨1, ![n1]⟩)
    (X : (⟨2, ![n0, n1]⟩ : Shape).Idx → EReal) (init : EReal) (b : Fin n1) :
    Ideal.hostReduceAdd h' X init (ix1 b) = init + ∑ k : Fin n0, X (ix2 k b) := by
  rw [Ideal.hostReduceAdd_single h' h]
  exact congrArg (init + ·) (Finset.sum_congr rfl fun k _ => congrArg X (lift_axis0 h b k))

/-- The host's `reduce` with an add body along each row, as a program writes it: the scalar initial value's one entry
    plus the sum of the row's entries. -/
theorem hostReduceAdd_rows_apply {u : Shape} (h' : (⟨2, ![n0, n1]⟩ : Shape).ReducesTo ([1] : List (Fin 2)) ⟨1, ![n0]⟩)
    (hu : 0 < u.numel) (X : (⟨2, ![n0, n1]⟩ : Shape).Idx → EReal) (init : u.Idx → EReal) (a : Fin n0) :
    Host.reduceAdd (F := Ideal) (φ := .f32) X init h' hu (ix1 a)
      = init (Shape.Idx.first hu) + ∑ k : Fin n1, X (ix2 a k) :=
  hostReduceAdd_rows h' ⟨h'.1, Nat.one_pos, h'.2⟩ X _ a

/-- The same along each column. -/
theorem hostReduceAdd_cols_apply {u : Shape} (h' : (⟨2, ![n0, n1]⟩ : Shape).ReducesTo ([0] : List (Fin 2)) ⟨1, ![n1]⟩)
    (hu : 0 < u.numel) (X : (⟨2, ![n0, n1]⟩ : Shape).Idx → EReal) (init : u.Idx → EReal) (b : Fin n1) :
    Host.reduceAdd (F := Ideal) (φ := .f32) X init h' hu (ix1 b)
      = init (Shape.Idx.first hu) + ∑ k : Fin n0, X (ix2 k b) :=
  hostReduceAdd_cols h' ⟨h'.1, Nat.one_pos, h'.2⟩ X _ b

/-- The f32 zero constant, of any shape, is `0` at every index. -/
theorem constant_zero_apply {s : Shape} (i : s.Idx) : constant (F := Ideal) s .f32 0x00000000#32 i = 0 :=
  Ideal.ofBits_zero_f32

/-- The host's maximum along each row: the fold of the maximum from the initial value over the row's entries. -/
theorem hostReduceMax_rows {u : Shape} (h' : (⟨2, ![n0, n1]⟩ : Shape).ReducesTo ([1] : List (Fin 2)) ⟨1, ![n0]⟩)
    (h : (⟨2, ![n0, n1]⟩ : Shape).Reduces ([1] : List (Fin 2)) ⟨1, ![n0]⟩) (hu : 0 < u.numel)
    (X : (⟨2, ![n0, n1]⟩ : Shape).Idx → EReal) (init : u.Idx → EReal) (a : Fin n0) :
    Host.reduce (FloatOps.maximumf (F := Ideal) (φ := .f32)) X init h' hu (ix1 a)
      = (Finset.univ : Finset (Fin n1)).fold max (init (Shape.Idx.first hu)) fun k => X (ix2 a k) := by
  rw [Host.reduce_eq_fold_single (FloatOps.maximumf (F := Ideal) (φ := .f32)) X init h' h hu]
  refine Finset.fold_congr fun k _ => ?_
  exact congrArg X (lift_axis1 h a k)

/-- The host's maximum along each column. -/
theorem hostReduceMax_cols {u : Shape} (h' : (⟨2, ![n0, n1]⟩ : Shape).ReducesTo ([0] : List (Fin 2)) ⟨1, ![n1]⟩)
    (h : (⟨2, ![n0, n1]⟩ : Shape).Reduces ([0] : List (Fin 2)) ⟨1, ![n1]⟩) (hu : 0 < u.numel)
    (X : (⟨2, ![n0, n1]⟩ : Shape).Idx → EReal) (init : u.Idx → EReal) (b : Fin n1) :
    Host.reduce (FloatOps.maximumf (F := Ideal) (φ := .f32)) X init h' hu (ix1 b)
      = (Finset.univ : Finset (Fin n0)).fold max (init (Shape.Idx.first hu)) fun k => X (ix2 k b) := by
  rw [Host.reduce_eq_fold_single (FloatOps.maximumf (F := Ideal) (φ := .f32)) X init h' h hu]
  refine Finset.fold_congr fun k _ => ?_
  exact congrArg X (lift_axis0 h b k)

/-! ## A product with one contracted axis -/

/-- The host's product read at an index: the sum over the contracted coordinate of the products of the two operands'
    entries, whatever those are known to be (`hl`, `hr`) at the operand indices of that coordinate. -/
theorem dotGeneral_read {sl sr so : Shape} (d : DotDims sl sr so) (K : ℕ) (hrk : d.contr.rank = 1)
    (hs : d.contr.size ⟨0, by omega⟩ = K) (P : FVec Ideal sl .f32) (Q : FVec Ideal sr .f32) (j : so.Idx)
    (L R : Fin K → EReal)
    (hl : ∀ k, P (d.lhsIdx j ((contrEquiv1 d K hrk hs).symm k)) = L k)
    (hr : ∀ k, Q (d.rhsIdx j ((contrEquiv1 d K hrk hs).symm k)) = R k) :
    FloatOps.dotGeneral d none .single P Q j = ∑ k : Fin K, L k * R k := by
  rw [Ideal.dotGeneral_apply, ← Equiv.sum_comp (contrEquiv1 d K hrk hs).symm]
  exact Finset.sum_congr rfl fun k _ => by rw [hl, hr]

end Cert.Lib.HostRows

end
-- ==== Proof.KIWeights.lean ====
/-
  The operands the host prepares for the kernel's two matrix products, as array terms of the arguments. The gate
  product's weight is one 256 × 256 matrix: column block `k` (of 64 lanes) belongs to gate `k`, and within it row block 0
  holds the gate's weights on the features and row blocks 1, 2, 3 its weights on the three propagation orders of the
  hidden state; the matrix is rounded to half precision. The gate bias is the sum of the two bias arrays laid out as one
  row of 256 lanes. The output layer's weight is rounded to half precision and its bias laid out as a row. Each is the
  composition of array operations in which the program computes it; read at an index, each entry is one entry of an
  argument (or the sum of two).
-/
import proofs.«138098_j15135464751774_2_alg».proof.Proof.Gen.KernelIdeal
import proofs.«138098_j15135464751774_2_alg».proof.Proof.LibStack4
import proofs.«138098_j15135464751774_2_alg».proof.Proof.LibHostRows
import proofs.«138098_j15135464751774_2_alg».proof.Proof.LibSumReindex
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-! ## The operands, as the program computes them -/

/-- Gate 0's weights on the features: slab 0 of the feature weights, as a 64 × 64 matrix. -/
def wxBlock_0 (a5 : (⟨S4x64x64, .f32⟩ : BufTy).Contents (Elt F)) : (⟨S64x64, .f32⟩ : BufTy).Contents (Elt F) :=
  shapeCast _ (extractStridedSlice S1x64x64 ![0, 0, 0] a5 slices_S4x64x64_S1x64x64_0_0_0) shapeCasts_S1x64x64_S64x64
/-- Gate 0's weights on propagation order 0 of the hidden state, as a 64 × 64 matrix. -/
def thBlock_0_0 (a8 : (⟨S4x3x64x64, .f32⟩ : BufTy).Contents (Elt F)) : (⟨S64x64, .f32⟩ : BufTy).Contents (Elt F) :=
  shapeCast _ (extractStridedSlice S1x1x64x64 ![0, 0, 0, 0] a8 slices_S4x3x64x64_S1x1x64x64_0_0_0_0) shapeCasts_S1x1x64x64_S64x64
/-- Gate 0's weights on propagation order 1 of the hidden state, as a 64 × 64 matrix. -/
def thBlock_0_1 (a8 : (⟨S4x3x64x64, .f32⟩ : BufTy).Contents (Elt F)) : (⟨S64x64, .f32⟩ : BufTy).Contents (Elt F) :=
  shapeCast _ (extractStridedSlice S1x1x64x64 ![0, 1, 0, 0] a8 slices_S4x3x64x64_S1x1x64x64_0_1_0_0) shapeCasts_S1x1x64x64_S64x64
/-- Gate 0's weights on propagation order 2 of the hidden state, as a 64 × 64 matrix. -/
def thBlock_0_2 (a8 : (⟨S4x3x64x64, .f32⟩ : BufTy).Contents (Elt F)) : (⟨S64x64, .f32⟩ : BufTy).Contents (Elt F) :=
  shapeCast _ (extractStridedSlice S1x1x64x64 ![0, 2, 0, 0] a8 slices_S4x3x64x64_S1x1x64x64_0_2_0_0) shapeCasts_S1x1x64x64_S64x64
/-- Gate 0's 256 × 64 weight block: its feature weights over its three propagation weights, stacked along the rows. -/
def gateBlock_0 (a5 : (⟨S4x64x64, .f32⟩ : BufTy).Contents (Elt F)) (a8 : (⟨S4x3x64x64, .f32⟩ : BufTy).Contents (Elt F)) : (⟨S256x64, .f32⟩ : BufTy).Contents (Elt F) :=
  concatenate S256x64 0 [⟨S64x64, wxBlock_0 a5⟩, ⟨S64x64, thBlock_0_0 a8⟩, ⟨S64x64, thBlock_0_1 a8⟩, ⟨S64x64, thBlock_0_2 a8⟩] concatenates_S64x64_S64x64_S64x64_S64x64_S256x64_d0
/-- Gate 1's weights on the features: slab 1 of the feature weights, as a 64 × 64 matrix. -/
def wxBlock_1 (a5 : (⟨S4x64x64, .f32⟩ : BufTy).Contents (Elt F)) : (⟨S64x64, .f32⟩ : BufTy).Contents (Elt F) :=
  shapeCast _ (extractStridedSlice S1x64x64 ![1, 0, 0] a5 slices_S4x64x64_S1x64x64_1_0_0) shapeCasts_S1x64x64_S64x64
/-- Gate 1's weights on propagation order 0 of the hidden state, as a 64 × 64 matrix. -/
def thBlock_1_0 (a8 : (⟨S4x3x64x64, .f32⟩ : BufTy).Contents (Elt F)) : (⟨S64x64, .f32⟩ : BufTy).Contents (Elt F) :=
  shapeCast _ (extractStridedSlice S1x1x64x64 ![1, 0, 0, 0] a8 slices_S4x3x64x64_S1x1x64x64_1_0_0_0) shapeCasts_S1x1x64x64_S64x64
/-- Gate 1's weights on propagation order 1 of the hidden state, as a 64 × 64 matrix. -/
def thBlock_1_1 (a8 : (⟨S4x3x64x64, .f32⟩ : BufTy).Contents (Elt F)) : (⟨S64x64, .f32⟩ : BufTy).Contents (Elt F) :=
  shapeCast _ (extractStridedSlice S1x1x64x64 ![1, 1, 0, 0] a8 slices_S4x3x64x64_S1x1x64x64_1_1_0_0) shapeCasts_S1x1x64x64_S64x64
/-- Gate 1's weights on propagation order 2 of the hidden state, as a 64 × 64 matrix. -/
def thBlock_1_2 (a8 : (⟨S4x3x64x64, .f32⟩ : BufTy).Contents (Elt F)) : (⟨S64x64, .f32⟩ : BufTy).Contents (Elt F) :=
  shapeCast _ (extractStridedSlice S1x1x64x64 ![1, 2, 0, 0] a8 slices_S4x3x64x64_S1x1x64x64_1_2_0_0) shapeCasts_S1x1x64x64_S64x64
/-- Gate 1's 256 × 64 weight block: its feature weights over its three propagation weights, stacked along the rows. -/
def gateBlock_1 (a5 : (⟨S4x64x64, .f32⟩ : BufTy).Contents (Elt F)) (a8 : (⟨S4x3x64x64, .f32⟩ : BufTy).Contents (Elt F)) : (⟨S256x64, .f32⟩ : BufTy).Contents (Elt F) :=
  concatenate S256x64 0 [⟨S64x64, wxBlock_1 a5⟩, ⟨S64x64, thBlock_1_0 a8⟩, ⟨S64x64, thBlock_1_1 a8⟩, ⟨S64x64, thBlock_1_2 a8⟩] concatenates_S64x64_S64x64_S64x64_S64x64_S256x64_d0
/-- Gate 2's weights on the features: slab 2 of the feature weights, as a 64 × 64 matrix. -/
def wxBlock_2 (a5 : (⟨S4x64x64, .f32⟩ : BufTy).Contents (Elt F)) : (⟨S64x64, .f32⟩ : BufTy).Contents (Elt F) :=
  shapeCast _ (extractStridedSlice S1x64x64 ![2, 0, 0] a5 slices_S4x64x64_S1x64x64_2_0_0) shapeCasts_S1x64x64_S64x64
/-- Gate 2's weights on propagation order 0 of the hidden state, as a 64 × 64 matrix. -/
def thBlock_2_0 (a8 : (⟨S4x3x64x64, .f32⟩ : BufTy).Contents (Elt F)) : (⟨S64x64, .f32⟩ : BufTy).Contents (Elt F) :=
  shapeCast _ (extractStridedSlice S1x1x64x64 ![2, 0, 0, 0] a8 slices_S4x3x64x64_S1x1x64x64_2_0_0_0) shapeCasts_S1x1x64x64_S64x64
/-- Gate 2's weights on propagation order 1 of the hidden state, as a 64 × 64 matrix. -/
def thBlock_2_1 (a8 : (⟨S4x3x64x64, .f32⟩ : BufTy).Contents (Elt F)) : (⟨S64x64, .f32⟩ : BufTy).Contents (Elt F) :=
  shapeCast _ (extractStridedSlice S1x1x64x64 ![2, 1, 0, 0] a8 slices_S4x3x64x64_S1x1x64x64_2_1_0_0) shapeCasts_S1x1x64x64_S64x64
/-- Gate 2's weights on propagation order 2 of the hidden state, as a 64 × 64 matrix. -/
def thBlock_2_2 (a8 : (⟨S4x3x64x64, .f32⟩ : BufTy).Contents (Elt F)) : (⟨S64x64, .f32⟩ : BufTy).Contents (Elt F) :=
  shapeCast _ (extractStridedSlice S1x1x64x64 ![2, 2, 0, 0] a8 slices_S4x3x64x64_S1x1x64x64_2_2_0_0) shapeCasts_S1x1x64x64_S64x64
/-- Gate 2's 256 × 64 weight block: its feature weights over its three propagation weights, stacked along the rows. -/
def gateBlock_2 (a5 : (⟨S4x64x64, .f32⟩ : BufTy).Contents (Elt F)) (a8 : (⟨S4x3x64x64, .f32⟩ : BufTy).Contents (Elt F)) : (⟨S256x64, .f32⟩ : BufTy).Contents (Elt F) :=
  concatenate S256x64 0 [⟨S64x64, wxBlock_2 a5⟩, ⟨S64x64, thBlock_2_0 a8⟩, ⟨S64x64, thBlock_2_1 a8⟩, ⟨S64x64, thBlock_2_2 a8⟩] concatenates_S64x64_S64x64_S64x64_S64x64_S256x64_d0
/-- Gate 3's weights on the features: slab 3 of the feature weights, as a 64 × 64 matrix. -/
def wxBlock_3 (a5 : (⟨S4x64x64, .f32⟩ : BufTy).Contents (Elt F)) : (⟨S64x64, .f32⟩ : BufTy).Contents (Elt F) :=
  shapeCast _ (extractStridedSlice S1x64x64 ![3, 0, 0] a5 slices_S4x64x64_S1x64x64_3_0_0) shapeCasts_S1x64x64_S64x64
/-- Gate 3's weights on propagation order 0 of the hidden state, as a 64 × 64 matrix. -/
def thBlock_3_0 (a8 : (⟨S4x3x64x64, .f32⟩ : BufTy).Contents (Elt F)) : (⟨S64x64, .f32⟩ : BufTy).Contents (Elt F) :=
  shapeCast _ (extractStridedSlice S1x1x64x64 ![3, 0, 0, 0] a8 slices_S4x3x64x64_S1x1x64x64_3_0_0_0) shapeCasts_S1x1x64x64_S64x64
/-- Gate 3's weights on propagation order 1 of the hidden state, as a 64 × 64 matrix. -/
def thBlock_3_1 (a8 : (⟨S4x3x64x64, .f32⟩ : BufTy).Contents (Elt F)) : (⟨S64x64, .f32⟩ : BufTy).Contents (Elt F) :=
  shapeCast _ (extractStridedSlice S1x1x64x64 ![3, 1, 0, 0] a8 slices_S4x3x64x64_S1x1x64x64_3_1_0_0) shapeCasts_S1x1x64x64_S64x64
/-- Gate 3's weights on propagation order 2 of the hidden state, as a 64 × 64 matrix. -/
def thBlock_3_2 (a8 : (⟨S4x3x64x64, .f32⟩ : BufTy).Contents (Elt F)) : (⟨S64x64, .f32⟩ : BufTy).Contents (Elt F) :=
  shapeCast _ (extractStridedSlice S1x1x64x64 ![3, 2, 0, 0] a8 slices_S4x3x64x64_S1x1x64x64_3_2_0_0) shapeCasts_S1x1x64x64_S64x64
/-- Gate 3's 256 × 64 weight block: its feature weights over its three propagation weights, stacked along the rows. -/
def gateBlock_3 (a5 : (⟨S4x64x64, .f32⟩ : BufTy).Contents (Elt F)) (a8 : (⟨S4x3x64x64, .f32⟩ : BufTy).Contents (Elt F)) : (⟨S256x64, .f32⟩ : BufTy).Contents (Elt F) :=
  concatenate S256x64 0 [⟨S64x64, wxBlock_3 a5⟩, ⟨S64x64, thBlock_3_0 a8⟩, ⟨S64x64, thBlock_3_1 a8⟩, ⟨S64x64, thBlock_3_2 a8⟩] concatenates_S64x64_S64x64_S64x64_S64x64_S256x64_d0

/-- The gate product's weight: the four gates' blocks side by side along the lanes, rounded to half precision. -/
def packedWeight (a5 : (⟨S4x64x64, .f32⟩ : BufTy).Contents (Elt F)) (a8 : (⟨S4x3x64x64, .f32⟩ : BufTy).Contents (Elt F)) : (⟨S256x256, .bf16⟩ : BufTy).Contents (Elt F) :=
  truncf .bf16 (concatenate S256x256 1 [⟨S256x64, gateBlock_0 a5 a8⟩, ⟨S256x64, gateBlock_1 a5 a8⟩, ⟨S256x64, gateBlock_2 a5 a8⟩, ⟨S256x64, gateBlock_3 a5 a8⟩] concatenates_S256x64_S256x64_S256x64_S256x64_S256x256_d1) bitsLt_bf16_f32

/-- The gate bias: the propagation bias plus the feature bias, gate by gate, laid out as one row of 256 lanes. -/
def packedBias (a9 a7 : (⟨S4x64, .f32⟩ : BufTy).Contents (Elt F)) : (⟨S1x256, .f32⟩ : BufTy).Contents (Elt F) :=
  broadcastInDim S1x256 ![1] bcast_S256_S1x256_1 (shapeCast _ (addf a9 a7) shapeCasts_S4x64_S256)

/-- The output layer's weight, rounded to half precision. -/
def projWeight (a10 : (⟨S64x64, .f32⟩ : BufTy).Contents (Elt F)) : (⟨S64x64, .bf16⟩ : BufTy).Contents (Elt F) :=
  truncf .bf16 a10 bitsLt_bf16_f32

/-- The output layer's bias as a row. -/
def projBias (a11 : (⟨S64, .f32⟩ : BufTy).Contents (Elt F)) : (⟨S1x64, .f32⟩ : BufTy).Contents (Elt F) :=
  shapeCast _ a11 shapeCasts_S64_S1x64

/-! ## The pieces read at an index -/

theorem wxBlock_0_read (a5 : (⟨S4x64x64, .f32⟩ : BufTy).Contents (Elt F)) (l j : Fin 64) : wxBlock_0 a5 (ix2 l j) = a5 (ix3 (0 : Fin 4) l j) := by
  unfold wxBlock_0
  rw [shapeCast_1ab_ab_apply]
  refine extractStridedSlice_apply _ a5 _ _ _ fun a => ?_
  match a with
  | ⟨0, _⟩ => rfl
  | ⟨1, _⟩ => show l.val = 0 + l.val; omega
  | ⟨2, _⟩ => show j.val = 0 + j.val; omega
theorem thBlock_0_0_read (a8 : (⟨S4x3x64x64, .f32⟩ : BufTy).Contents (Elt F)) (l j : Fin 64) : thBlock_0_0 a8 (ix2 l j) = a8 (ix4 (0 : Fin 4) (0 : Fin 3) l j) := by
  unfold thBlock_0_0
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_0_1_read (a8 : (⟨S4x3x64x64, .f32⟩ : BufTy).Contents (Elt F)) (l j : Fin 64) : thBlock_0_1 a8 (ix2 l j) = a8 (ix4 (0 : Fin 4) (1 : Fin 3) l j) := by
  unfold thBlock_0_1
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_0_2_read (a8 : (⟨S4x3x64x64, .f32⟩ : BufTy).Contents (Elt F)) (l j : Fin 64) : thBlock_0_2 a8 (ix2 l j) = a8 (ix4 (0 : Fin 4) (2 : Fin 3) l j) := by
  unfold thBlock_0_2
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
/-- Row `l + 64 q` of gate 0's block is row `l` of its `q`-th piece. -/
theorem gateBlock_0_read (a5 : (⟨S4x64x64, .f32⟩ : BufTy).Contents (Elt F)) (a8 : (⟨S4x3x64x64, .f32⟩ : BufTy).Contents (Elt F)) (q : Fin 4) (l j : Fin 64) (r : Fin 256) (hr : r.val = l.val + 64 * q.val) :
    gateBlock_0 a5 a8 (ix2 r j) = (![wxBlock_0 a5, thBlock_0_0 a8, thBlock_0_1 a8, thBlock_0_2 a8] q) (ix2 l j) :=
  Cert.Lib.Stack4.rows _ _ _ _ _ q l j r hr
theorem wxBlock_1_read (a5 : (⟨S4x64x64, .f32⟩ : BufTy).Contents (Elt F)) (l j : Fin 64) : wxBlock_1 a5 (ix2 l j) = a5 (ix3 (1 : Fin 4) l j) := by
  unfold wxBlock_1
  rw [shapeCast_1ab_ab_apply]
  refine extractStridedSlice_apply _ a5 _ _ _ fun a => ?_
  match a with
  | ⟨0, _⟩ => rfl
  | ⟨1, _⟩ => show l.val = 0 + l.val; omega
  | ⟨2, _⟩ => show j.val = 0 + j.val; omega
theorem thBlock_1_0_read (a8 : (⟨S4x3x64x64, .f32⟩ : BufTy).Contents (Elt F)) (l j : Fin 64) : thBlock_1_0 a8 (ix2 l j) = a8 (ix4 (1 : Fin 4) (0 : Fin 3) l j) := by
  unfold thBlock_1_0
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_1_1_read (a8 : (⟨S4x3x64x64, .f32⟩ : BufTy).Contents (Elt F)) (l j : Fin 64) : thBlock_1_1 a8 (ix2 l j) = a8 (ix4 (1 : Fin 4) (1 : Fin 3) l j) := by
  unfold thBlock_1_1
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_1_2_read (a8 : (⟨S4x3x64x64, .f32⟩ : BufTy).Contents (Elt F)) (l j : Fin 64) : thBlock_1_2 a8 (ix2 l j) = a8 (ix4 (1 : Fin 4) (2 : Fin 3) l j) := by
  unfold thBlock_1_2
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
/-- Row `l + 64 q` of gate 1's block is row `l` of its `q`-th piece. -/
theorem gateBlock_1_read (a5 : (⟨S4x64x64, .f32⟩ : BufTy).Contents (Elt F)) (a8 : (⟨S4x3x64x64, .f32⟩ : BufTy).Contents (Elt F)) (q : Fin 4) (l j : Fin 64) (r : Fin 256) (hr : r.val = l.val + 64 * q.val) :
    gateBlock_1 a5 a8 (ix2 r j) = (![wxBlock_1 a5, thBlock_1_0 a8, thBlock_1_1 a8, thBlock_1_2 a8] q) (ix2 l j) :=
  Cert.Lib.Stack4.rows _ _ _ _ _ q l j r hr
theorem wxBlock_2_read (a5 : (⟨S4x64x64, .f32⟩ : BufTy).Contents (Elt F)) (l j : Fin 64) : wxBlock_2 a5 (ix2 l j) = a5 (ix3 (2 : Fin 4) l j) := by
  unfold wxBlock_2
  rw [shapeCast_1ab_ab_apply]
  refine extractStridedSlice_apply _ a5 _ _ _ fun a => ?_
  match a with
  | ⟨0, _⟩ => rfl
  | ⟨1, _⟩ => show l.val = 0 + l.val; omega
  | ⟨2, _⟩ => show j.val = 0 + j.val; omega
theorem thBlock_2_0_read (a8 : (⟨S4x3x64x64, .f32⟩ : BufTy).Contents (Elt F)) (l j : Fin 64) : thBlock_2_0 a8 (ix2 l j) = a8 (ix4 (2 : Fin 4) (0 : Fin 3) l j) := by
  unfold thBlock_2_0
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_2_1_read (a8 : (⟨S4x3x64x64, .f32⟩ : BufTy).Contents (Elt F)) (l j : Fin 64) : thBlock_2_1 a8 (ix2 l j) = a8 (ix4 (2 : Fin 4) (1 : Fin 3) l j) := by
  unfold thBlock_2_1
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_2_2_read (a8 : (⟨S4x3x64x64, .f32⟩ : BufTy).Contents (Elt F)) (l j : Fin 64) : thBlock_2_2 a8 (ix2 l j) = a8 (ix4 (2 : Fin 4) (2 : Fin 3) l j) := by
  unfold thBlock_2_2
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
/-- Row `l + 64 q` of gate 2's block is row `l` of its `q`-th piece. -/
theorem gateBlock_2_read (a5 : (⟨S4x64x64, .f32⟩ : BufTy).Contents (Elt F)) (a8 : (⟨S4x3x64x64, .f32⟩ : BufTy).Contents (Elt F)) (q : Fin 4) (l j : Fin 64) (r : Fin 256) (hr : r.val = l.val + 64 * q.val) :
    gateBlock_2 a5 a8 (ix2 r j) = (![wxBlock_2 a5, thBlock_2_0 a8, thBlock_2_1 a8, thBlock_2_2 a8] q) (ix2 l j) :=
  Cert.Lib.Stack4.rows _ _ _ _ _ q l j r hr
theorem wxBlock_3_read (a5 : (⟨S4x64x64, .f32⟩ : BufTy).Contents (Elt F)) (l j : Fin 64) : wxBlock_3 a5 (ix2 l j) = a5 (ix3 (3 : Fin 4) l j) := by
  unfold wxBlock_3
  rw [shapeCast_1ab_ab_apply]
  refine extractStridedSlice_apply _ a5 _ _ _ fun a => ?_
  match a with
  | ⟨0, _⟩ => rfl
  | ⟨1, _⟩ => show l.val = 0 + l.val; omega
  | ⟨2, _⟩ => show j.val = 0 + j.val; omega
theorem thBlock_3_0_read (a8 : (⟨S4x3x64x64, .f32⟩ : BufTy).Contents (Elt F)) (l j : Fin 64) : thBlock_3_0 a8 (ix2 l j) = a8 (ix4 (3 : Fin 4) (0 : Fin 3) l j) := by
  unfold thBlock_3_0
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_3_1_read (a8 : (⟨S4x3x64x64, .f32⟩ : BufTy).Contents (Elt F)) (l j : Fin 64) : thBlock_3_1 a8 (ix2 l j) = a8 (ix4 (3 : Fin 4) (1 : Fin 3) l j) := by
  unfold thBlock_3_1
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
theorem thBlock_3_2_read (a8 : (⟨S4x3x64x64, .f32⟩ : BufTy).Contents (Elt F)) (l j : Fin 64) : thBlock_3_2 a8 (ix2 l j) = a8 (ix4 (3 : Fin 4) (2 : Fin 3) l j) := by
  unfold thBlock_3_2
  refine (shapeCast_apply _ _ (ix2 l j) (ix4 (0 : Fin 1) (0 : Fin 1) l j) (by
    rw [Shape.rowMajor_val_four, Shape.rowMajor_val_two]
    show ((0 * 1 + 0) * 64 + l.val) * 64 + j.val = l.val * 64 + j.val
    omega)).trans ?_
  refine extractStridedSlice_apply _ a8 _ _ _ fun a => ?_
  match a with
  | ⟨0, _⟩ => rfl
  | ⟨1, _⟩ => rfl
  | ⟨2, _⟩ => show l.val = 0 + l.val; omega
  | ⟨3, _⟩ => show j.val = 0 + j.val; omega
/-- Row `l + 64 q` of gate 3's block is row `l` of its `q`-th piece. -/
theorem gateBlock_3_read (a5 : (⟨S4x64x64, .f32⟩ : BufTy).Contents (Elt F)) (a8 : (⟨S4x3x64x64, .f32⟩ : BufTy).Contents (Elt F)) (q : Fin 4) (l j : Fin 64) (r : Fin 256) (hr : r.val = l.val + 64 * q.val) :
    gateBlock_3 a5 a8 (ix2 r j) = (![wxBlock_3 a5, thBlock_3_0 a8, thBlock_3_1 a8, thBlock_3_2 a8] q) (ix2 l j) :=
  Cert.Lib.Stack4.rows _ _ _ _ _ q l j r hr

/-! ## The operands read at an index, over the extended reals (where rounding is the identity) -/

/-- The packed matrix at row `l + 64·0`, column `j + 64 k`: gate `k`'s feature weight from lane `l` to lane `j`. -/
theorem packedWeight_read_0 (a5 : (⟨S4x64x64, .f32⟩ : BufTy).Contents (Elt Ideal)) (a8 : (⟨S4x3x64x64, .f32⟩ : BufTy).Contents (Elt Ideal)) (k : Fin 4) (l j : Fin 64) :
    packedWeight (F := Ideal) a5 a8 (ix2 (n0 := 256) (n1 := 256) (finProdFinEquiv ((0 : Fin 4), l)) (finProdFinEquiv (k, j))) = a5 (ix3 k l j) := by
  unfold packedWeight
  rw [truncf_apply]
  rw [Cert.Lib.Stack4.lanes _ _ _ _ _ (finProdFinEquiv ((0 : Fin 4), l)) k j (finProdFinEquiv (k, j)) rfl]
  match k with
  | ⟨0, _⟩ => show gateBlock_0 a5 a8 _ = _; rw [gateBlock_0_read a5 a8 (0 : Fin 4) l j _ rfl]; exact wxBlock_0_read a5 l j
  | ⟨1, _⟩ => show gateBlock_1 a5 a8 _ = _; rw [gateBlock_1_read a5 a8 (0 : Fin 4) l j _ rfl]; exact wxBlock_1_read a5 l j
  | ⟨2, _⟩ => show gateBlock_2 a5 a8 _ = _; rw [gateBlock_2_read a5 a8 (0 : Fin 4) l j _ rfl]; exact wxBlock_2_read a5 l j
  | ⟨3, _⟩ => show gateBlock_3 a5 a8 _ = _; rw [gateBlock_3_read a5 a8 (0 : Fin 4) l j _ rfl]; exact wxBlock_3_read a5 l j
/-- The packed matrix at row `l + 64·1`, column `j + 64 k`: gate `k`'s weight on propagation order 0 from lane `l` to lane `j`. -/
theorem packedWeight_read_1 (a5 : (⟨S4x64x64, .f32⟩ : BufTy).Contents (Elt Ideal)) (a8 : (⟨S4x3x64x64, .f32⟩ : BufTy).Contents (Elt Ideal)) (k : Fin 4) (l j : Fin 64) :
    packedWeight (F := Ideal) a5 a8 (ix2 (n0 := 256) (n1 := 256) (finProdFinEquiv ((1 : Fin 4), l)) (finProdFinEquiv (k, j))) = a8 (ix4 k (0 : Fin 3) l j) := by
  unfold packedWeight
  rw [truncf_apply]
  rw [Cert.Lib.Stack4.lanes _ _ _ _ _ (finProdFinEquiv ((1 : Fin 4), l)) k j (finProdFinEquiv (k, j)) rfl]
  match k with
  | ⟨0, _⟩ => show gateBlock_0 a5 a8 _ = _; rw [gateBlock_0_read a5 a8 (1 : Fin 4) l j _ rfl]; exact thBlock_0_0_read a8 l j
  | ⟨1, _⟩ => show gateBlock_1 a5 a8 _ = _; rw [gateBlock_1_read a5 a8 (1 : Fin 4) l j _ rfl]; exact thBlock_1_0_read a8 l j
  | ⟨2, _⟩ => show gateBlock_2 a5 a8 _ = _; rw [gateBlock_2_read a5 a8 (1 : Fin 4) l j _ rfl]; exact thBlock_2_0_read a8 l j
  | ⟨3, _⟩ => show gateBlock_3 a5 a8 _ = _; rw [gateBlock_3_read a5 a8 (1 : Fin 4) l j _ rfl]; exact thBlock_3_0_read a8 l j
/-- The packed matrix at row `l + 64·2`, column `j + 64 k`: gate `k`'s weight on propagation order 1 from lane `l` to lane `j`. -/
theorem packedWeight_read_2 (a5 : (⟨S4x64x64, .f32⟩ : BufTy).Contents (Elt Ideal)) (a8 : (⟨S4x3x64x64, .f32⟩ : BufTy).Contents (Elt Ideal)) (k : Fin 4) (l j : Fin 64) :
    packedWeight (F := Ideal) a5 a8 (ix2 (n0 := 256) (n1 := 256) (finProdFinEquiv ((2 : Fin 4), l)) (finProdFinEquiv (k, j))) = a8 (ix4 k (1 : Fin 3) l j) := by
  unfold packedWeight
  rw [truncf_apply]
  rw [Cert.Lib.Stack4.lanes _ _ _ _ _ (finProdFinEquiv ((2 : Fin 4), l)) k j (finProdFinEquiv (k, j)) rfl]
  match k with
  | ⟨0, _⟩ => show gateBlock_0 a5 a8 _ = _; rw [gateBlock_0_read a5 a8 (2 : Fin 4) l j _ rfl]; exact thBlock_0_1_read a8 l j
  | ⟨1, _⟩ => show gateBlock_1 a5 a8 _ = _; rw [gateBlock_1_read a5 a8 (2 : Fin 4) l j _ rfl]; exact thBlock_1_1_read a8 l j
  | ⟨2, _⟩ => show gateBlock_2 a5 a8 _ = _; rw [gateBlock_2_read a5 a8 (2 : Fin 4) l j _ rfl]; exact thBlock_2_1_read a8 l j
  | ⟨3, _⟩ => show gateBlock_3 a5 a8 _ = _; rw [gateBlock_3_read a5 a8 (2 : Fin 4) l j _ rfl]; exact thBlock_3_1_read a8 l j
/-- The packed matrix at row `l + 64·3`, column `j + 64 k`: gate `k`'s weight on propagation order 2 from lane `l` to lane `j`. -/
theorem packedWeight_read_3 (a5 : (⟨S4x64x64, .f32⟩ : BufTy).Contents (Elt Ideal)) (a8 : (⟨S4x3x64x64, .f32⟩ : BufTy).Contents (Elt Ideal)) (k : Fin 4) (l j : Fin 64) :
    packedWeight (F := Ideal) a5 a8 (ix2 (n0 := 256) (n1 := 256) (finProdFinEquiv ((3 : Fin 4), l)) (finProdFinEquiv (k, j))) = a8 (ix4 k (2 : Fin 3) l j) := by
  unfold packedWeight
  rw [truncf_apply]
  rw [Cert.Lib.Stack4.lanes _ _ _ _ _ (finProdFinEquiv ((3 : Fin 4), l)) k j (finProdFinEquiv (k, j)) rfl]
  match k with
  | ⟨0, _⟩ => show gateBlock_0 a5 a8 _ = _; rw [gateBlock_0_read a5 a8 (3 : Fin 4) l j _ rfl]; exact thBlock_0_2_read a8 l j
  | ⟨1, _⟩ => show gateBlock_1 a5 a8 _ = _; rw [gateBlock_1_read a5 a8 (3 : Fin 4) l j _ rfl]; exact thBlock_1_2_read a8 l j
  | ⟨2, _⟩ => show gateBlock_2 a5 a8 _ = _; rw [gateBlock_2_read a5 a8 (3 : Fin 4) l j _ rfl]; exact thBlock_2_2_read a8 l j
  | ⟨3, _⟩ => show gateBlock_3 a5 a8 _ = _; rw [gateBlock_3_read a5 a8 (3 : Fin 4) l j _ rfl]; exact thBlock_3_2_read a8 l j

/-- The gate bias at lane `j + 64 k`: the two biases of gate `k` at lane `j`, added. -/
theorem packedBias_read (a9 a7 : (⟨S4x64, .f32⟩ : BufTy).Contents (Elt Ideal)) (k : Fin 4) (j : Fin 64) :
    packedBias (F := Ideal) a9 a7 (ix2 (n0 := 1) (n1 := 256) (0 : Fin 1) (finProdFinEquiv (k, j))) = a9 (ix2 k j) + a7 (ix2 k j) := by
  unfold packedBias
  rw [Cert.Lib.HostRows.bcast_vec_row]
  refine (shapeCast_apply _ _ (ix1 (n := 256) (finProdFinEquiv (k, j))) (ix2 k j) (by
    rw [Shape.rowMajor_val_two, Shape.rowMajor_val_one]
    show k.val * 64 + j.val = j.val + 64 * k.val
    omega)).trans ?_
  rfl

/-- The output weight over the extended reals is the argument. -/
theorem projWeight_read (a10 : (⟨S64x64, .f32⟩ : BufTy).Contents (Elt Ideal)) (l j : Fin 64) :
    projWeight (F := Ideal) a10 (ix2 l j) = a10 (ix2 l j) := rfl

/-- The output bias row at lane `j` is the argument at `j`. -/
theorem projBias_read (a11 : (⟨S64, .f32⟩ : BufTy).Contents (Elt F)) (j : Fin 64) :
    projBias a11 (ix2 (0 : Fin 1) j) = a11 (ix1 j) := by
  unfold projBias
  exact shapeCast_a_1a_apply a11 _ (0 : Fin 1) j

end Cert.KernelIdeal.Hand

end
-- ==== Proof.KIHostW.lean ====
/-
  What the region finds in the two operands of the gate product the host prepares, as terms of the arguments: the packed
  gate weights and the packed gate bias.
-/
import proofs.«138098_j15135464751774_2_alg».proof.Proof.KIPrefix
import proofs.«138098_j15135464751774_2_alg».proof.Proof.KIWeights
set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

set_option maxHeartbeats 40000000 in
/-- The gate product's weight handed to the region is the packed matrix of the feature weights and the propagation weights. -/
theorem V_packedWeight (c : Dev nD) :
    (V m c main_v101 : (⟨S256x256, .bf16⟩ : BufTy).Contents (Elt F)) = packedWeight (m ((c : Thread nD τ).loc main_arg5)) (m ((c : Thread nD τ).loc main_arg8)) := by
  dsimp only [V]
  simp only [hostOps0, hostOps0_1, hostOps0_2, List.flatten_cons, List.flatten_nil, List.append_nil, List.cons_append, List.nil_append]
  after_results_simp <;> rfl

set_option maxHeartbeats 40000000 in
/-- The gate bias handed to the region is the sum of the two bias arrays as one row. -/
theorem V_packedBias (c : Dev nD) :
    (V m c main_v104 : (⟨S1x256, .f32⟩ : BufTy).Contents (Elt F)) = packedBias (m ((c : Thread nD τ).loc main_arg9)) (m ((c : Thread nD τ).loc main_arg7)) := by
  dsimp only [V]
  simp only [hostOps0, hostOps0_1, hostOps0_2, List.flatten_cons, List.flatten_nil, List.append_nil, List.cons_append, List.nil_append]
  after_results_simp <;> rfl

end Cert.KernelIdeal.Hand

end
-- ==== Proof.KIHostP.lean ====
/-
  What the region finds in the two operands of the output layer the host prepares, as terms of the arguments: the
  output weight rounded to half precision and the output bias as a row.
-/
import proofs.«138098_j15135464751774_2_alg».proof.Proof.KIPrefix
import proofs.«138098_j15135464751774_2_alg».proof.Proof.KIWeights
set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

variable (m : (ℓ : Loc nD τ sig) → Buf (Elt F) ℓ)

set_option maxHeartbeats 40000000 in
/-- The output layer's weight handed to the region is the argument rounded to half precision. -/
theorem V_projWeight (c : Dev nD) :
    (V m c main_v105 : (⟨S64x64, .bf16⟩ : BufTy).Contents (Elt F)) = projWeight (m ((c : Thread nD τ).loc main_arg10)) := by
  dsimp only [V]
  simp only [hostOps0, hostOps0_1, hostOps0_2, List.flatten_cons, List.flatten_nil, List.append_nil, List.cons_append, List.nil_append]
  after_results
  rfl

set_option maxHeartbeats 40000000 in
/-- The output layer's bias handed to the region is the argument as a row. -/
theorem V_projBias (c : Dev nD) :
    (V m c main_v106 : (⟨S1x64, .f32⟩ : BufTy).Contents (Elt F)) = projBias (m ((c : Thread nD τ).loc main_arg11)) := by
  dsimp only [V]
  simp only [hostOps0, hostOps0_1, hostOps0_2, List.flatten_cons, List.flatten_nil, List.append_nil, List.cons_append, List.nil_append]
  after_results
  rfl

end Cert.KernelIdeal.Hand

end
-- ==== Proof.KIValue.lean ====
/-
  The kernel's three result arrays against the cell's specification. After the run each result array, at node r and
  unit j, is the payload of the block that holds row r (point r / 2000, row r % 2000); that block's inputs are rows
  of the argument arrays and of the two propagated arrays the host stretch computed, the diagonal's entry, and the
  resident packed weight, packed bias, peephole rows and projection — so the block lemma applies with the cell's
  arrays read off the arguments.
-/
import proofs.«138098_j15135464751774_2_alg».proof.Proof.KIFinal
import proofs.«138098_j15135464751774_2_alg».proof.Proof.KIBlock
import proofs.«138098_j15135464751774_2_alg».proof.Proof.KIHost
import proofs.«138098_j15135464751774_2_alg».proof.Proof.KIHostT
import proofs.«138098_j15135464751774_2_alg».proof.Proof.KIHostW
import proofs.«138098_j15135464751774_2_alg».proof.Proof.KIHostP
import proofs.«138098_j15135464751774_2_alg».proof.Proof.KIWeights
import proofs.«138098_j15135464751774_2_alg».proof.Proof.LibHostRows

set_option maxRecDepth 16384

noncomputable section

namespace Cert.KernelIdeal.Hand

open Idealize.ShloMosaic Idealize.ShloMosaic.ValueIdx Idealize.ShloMosaic.TcCoe
open Idealize.SL Idealize.SL.Sem
open Cert.KernelIdeal Cert.KernelIdeal.Gen Cert.GateSpec
open scoped BigOperators

variable (m : (ℓ : Loc nD τ sig) → Buf (Elt Ideal) ℓ)

/-- The cell's arrays as the kernel program computes them from its arguments on core `c`. -/
def kerArrays (c : Dev nD) : Arrays :=
  arraysOf (m ((c : Thread nD τ).loc main_arg0)) (m ((c : Thread nD τ).loc main_arg3)) (m ((c : Thread nD τ).loc main_arg4)) (prop1 (m ((c : Thread nD τ).loc main_arg1)) (m ((c : Thread nD τ).loc main_arg2)) (m ((c : Thread nD τ).loc main_arg3))) (edgeSum2 (m ((c : Thread nD τ).loc main_arg1)) (m ((c : Thread nD τ).loc main_arg2)) (m ((c : Thread nD τ).loc main_arg3)))
    (lapDiag (m ((c : Thread nD τ).loc main_arg1)) (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Row `r % 2000` of block `r / 2000` is row `r`. -/
theorem rowAt_split (r : Fin 50000) : rowAt (ptOf r) (rowIn r) = r :=
  Fin.ext (by show 2000 * (r.val / 2000) + r.val % 2000 = r.val; exact Nat.div_add_mod r.val 2000)

section Entries

variable (c : Dev nD) (r : Fin 50000)

theorem hx (l : Fin 64) : iblk m c 0 (ptOf r) (ix2 (rowIn r) l) = (kerArrays m c).x r l := by
  rw [iblk_0_row, rowAt_split, V_main_arg0]; rfl
theorem hh (l : Fin 64) : iblk m c 1 (ptOf r) (ix2 (rowIn r) l) = (kerArrays m c).h r l := by
  rw [iblk_1_row, rowAt_split, V_main_arg3]; rfl
theorem hc (l : Fin 64) : iblk m c 2 (ptOf r) (ix2 (rowIn r) l) = (kerArrays m c).c r l := by
  rw [iblk_2_row, rowAt_split, V_main_arg4]; rfl
theorem hT1 (l : Fin 64) : iblk m c 3 (ptOf r) (ix2 (rowIn r) l) = (kerArrays m c).T1 r l := by
  rw [iblk_3_row, rowAt_split, V_prop1]; rfl
theorem hA2 (l : Fin 64) : iblk m c 4 (ptOf r) (ix2 (rowIn r) l) = (kerArrays m c).A2 r l := by
  rw [iblk_4_row, rowAt_split, V_edgeSum2]; rfl
theorem hD : iblk m c 5 (ptOf r) (ix2 (rowIn r) (0 : Fin 1)) = (kerArrays m c).D r := by
  rw [iblk_5_col, rowAt_split, V_diagCol]
  unfold lapDiagCol
  exact Cert.Lib.HostRows.bcast_vec_col _ _ r 0
theorem hW0 (k : Fin 4) (l j : Fin 64) :
    iblk m c 6 (ptOf r) (ix2 (finProdFinEquiv ((0 : Fin 4), l)) (finProdFinEquiv (k, j))) = (kerArrays m c).Wx k l j := by
  rw [iblk_6_whole, V_packedWeight]; exact packedWeight_read_0 _ _ k l j
theorem hW1 (k : Fin 4) (l j : Fin 64) :
    iblk m c 6 (ptOf r) (ix2 (finProdFinEquiv ((1 : Fin 4), l)) (finProdFinEquiv (k, j))) = (kerArrays m c).θ k 0 l j := by
  rw [iblk_6_whole, V_packedWeight]; exact packedWeight_read_1 _ _ k l j
theorem hW2 (k : Fin 4) (l j : Fin 64) :
    iblk m c 6 (ptOf r) (ix2 (finProdFinEquiv ((2 : Fin 4), l)) (finProdFinEquiv (k, j))) = (kerArrays m c).θ k 1 l j := by
  rw [iblk_6_whole, V_packedWeight]; exact packedWeight_read_2 _ _ k l j
theorem hW3 (k : Fin 4) (l j : Fin 64) :
    iblk m c 6 (ptOf r) (ix2 (finProdFinEquiv ((3 : Fin 4), l)) (finProdFinEquiv (k, j))) = (kerArrays m c).θ k 2 l j := by
  rw [iblk_6_whole, V_packedWeight]; exact packedWeight_read_3 _ _ k l j
theorem hB (k : Fin 4) (j : Fin 64) :
    iblk m c 7 (ptOf r) (ix2 (0 : Fin 1) (finProdFinEquiv (k, j))) = (kerArrays m c).cb k j + (kerArrays m c).b k j := by
  rw [iblk_7_whole, V_packedBias]; exact packedBias_read _ _ k j
theorem hwc (q : Fin 3) (j : Fin 64) : iblk m c 8 (ptOf r) (ix2 q j) = (kerArrays m c).wc q j := by
  rw [iblk_8_whole, V_main_arg6]; rfl
theorem hlw (l j : Fin 64) : iblk m c 9 (ptOf r) (ix2 l j) = (kerArrays m c).lw l j := by
  rw [iblk_9_whole, V_projWeight]; exact projWeight_read _ l j
theorem hlb (j : Fin 64) : iblk m c 10 (ptOf r) (ix2 (0 : Fin 1) j) = (kerArrays m c).lb j := by
  rw [iblk_10_whole, V_projBias]; exact projBias_read _ j

end Entries

/-- The third result array is the new cell state. -/
theorem finalCn_spec (c : Dev nD) (r : Fin 50000) (j : Fin 64) : finalCnArr m c (ix2 r j) = (kerArrays m c).Cn r j := by
  rw [← finalCn m c, finalCn_apply m c r j]
  exact block_Cn (kerArrays m c) r (rowIn r) (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r))
    (hx m c r) (hh m c r) (hc m c r) (hT1 m c r) (hA2 m c r) (hD m c r) (hW0 m c r) (hW1 m c r) (hW2 m c r) (hW3 m c r) (hB m c r) (hwc m c r) j

/-- The second result array is the new hidden state. -/
theorem finalHn_spec (c : Dev nD) (r : Fin 50000) (j : Fin 64) : finalHnArr m c (ix2 r j) = (kerArrays m c).Hn r j := by
  rw [← finalHn m c, finalHn_apply m c r j]
  exact block_Hn (kerArrays m c) r (rowIn r) (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r))
    (hx m c r) (hh m c r) (hc m c r) (hT1 m c r) (hA2 m c r) (hD m c r) (hW0 m c r) (hW1 m c r) (hW2 m c r) (hW3 m c r) (hB m c r) (hwc m c r) j

/-- The first result array is the projected output. -/
theorem finalHout_spec (c : Dev nD) (r : Fin 50000) (j : Fin 64) : finalHoutArr m c (ix2 r j) = (kerArrays m c).hout r j := by
  rw [← finalHout m c, finalHout_apply m c r j]
  exact block_hout (kerArrays m c) r (rowIn r) (iblk m c 0 (ptOf r)) (iblk m c 1 (ptOf r)) (iblk m c 2 (ptOf r)) (iblk m c 3 (ptOf r)) (iblk m c 4 (ptOf r)) (iblk m c 5 (ptOf r)) (iblk m c 6 (ptOf r)) (iblk m c 7 (ptOf r)) (iblk m c 8 (ptOf r)) (iblk m c 9 (ptOf r)) (iblk m c 10 (ptOf r))
    (hx m c r) (hh m c r) (hc m c r) (hT1 m c r) (hA2 m c r) (hD m c r) (hW0 m c r) (hW1 m c r) (hW2 m c r) (hW3 m c r) (hB m c r) (hwc m c r) (hlw m c r) (hlb m c r) j

end Cert.KernelIdeal.Hand

end
-- ==== Proof.RefOps.lean ====
/-
  The plain array program as a straight line: its @main is 383 array operations in order (the two called functions, a
  select and a rectifier, stand inline at their calls), so every weakly fair execution ends with each buffer at the
  fold of the operations' results over the launch memory.
-/
import proofs.«138098_j15135464751774_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- @main's 383 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    unary main_v1 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_arg2 main_v6 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_0 (constant S_ .f32 0x00000000#32),
    unary main_cst_0 main_v7 (broadcastInDim S50000 ![] bcast_S_S50000 : (⟨S_, .f32⟩ : BufTy).Contents (Elt F) → (⟨S50000, .f32⟩ : BufTy).Contents (Elt F)),
    binary main_v6 main_v7 main_v8 (cmpf .ogt : (⟨S50000, .f32⟩ : BufTy).Contents (Elt F) → (⟨S50000, .f32⟩ : BufTy).Contents (Elt F) → (⟨S50000, .i1⟩ : BufTy).Contents (Elt F)),
    nullary main_cst_1 (constant S_ .f32 0xBF000000#32),
    unary main_cst_1 main_v9 (broadcastInDim S50000 ![] bcast_S_S50000 : (⟨S_, .f32⟩ : BufTy).Contents (Elt F) → (⟨S50000, .f32⟩ : BufTy).Contents (Elt F)),
    binary main_v6 main_v9 main_v10 (Host.powf : (⟨S50000, .f32⟩ : BufTy).Contents (Elt F) → (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v10) (TRef.of (T := ⟨S50000, .f32⟩) main_call0_v1) (TRef.of (T := ⟨S50000, .f32⟩) main_v11) select,
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 50000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    unary main_v18 main_v19 (Host.negf : (⟨S1600000, .f32⟩ : BufTy).Contents (Elt F) → (⟨S1600000, .f32⟩ : BufTy).Contents (Elt F)),
    binary main_v19 main_arg2 main_v20 (mulf : (⟨S1600000, .f32⟩ : BufTy).Contents (Elt F) → (⟨S1600000, .f32⟩ : BufTy).Contents (Elt F) → (⟨S1600000, .f32⟩ : BufTy).Contents (Elt F)),
    nullary main_c_4 (constantI S_ 32 0#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v23 (broadcastInDim S1600000 ![] bcast_S_S1600000 : (⟨S_, .i32⟩ : BufTy).Contents (Elt F) → (⟨S1600000, .i32⟩ : BufTy).Contents (Elt F)),
    binary main_v3 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v11 main_v26 main_v27 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v20 main_v27 main_v28 (mulf : (⟨S1600000, .f32⟩ : BufTy).Contents (Elt F) → (⟨S1600000, .f32⟩ : BufTy).Contents (Elt F) → (⟨S1600000, .f32⟩ : BufTy).Contents (Elt F)),
    binary main_v11 main_v11 main_v29 (mulf : (⟨S50000, .f32⟩ : BufTy).Contents (Elt F) → (⟨S50000, .f32⟩ : BufTy).Contents (Elt F) → (⟨S50000, .f32⟩ : BufTy).Contents (Elt F)),
    binary main_v29 main_v6 main_v30 (mulf : (⟨S50000, .f32⟩ : BufTy).Contents (Elt F) → (⟨S50000, .f32⟩ : BufTy).Contents (Elt F) → (⟨S50000, .f32⟩ : BufTy).Contents (Elt F)),
    nullary main_cst_6 (constant S_ .f32 0x3F800000#32),
    unary main_cst_6 main_v31 (broadcastInDim S50000 ![] bcast_S_S50000 : (⟨S_, .f32⟩ : BufTy).Contents (Elt F) → (⟨S50000, .f32⟩ : BufTy).Contents (Elt F)),
    binary main_v30 main_v31 main_v32 (subf : (⟨S50000, .f32⟩ : BufTy).Contents (Elt F) → (⟨S50000, .f32⟩ : BufTy).Contents (Elt F) → (⟨S50000, .f32⟩ : BufTy).Contents (Elt F)),
    unary main_arg5 main_v33 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v33 main_v34 rfl shapeCasts_S1x64x64_S64x64,
    binary main_arg0 main_v34 main_v35 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v36 ((extractStridedSlice S1x3x64x64 ![0, 0, 0, 0] · slices_S4x3x64x64_S1x3x64x64_0_0_0_0) : (⟨S4x3x64x64, .f32⟩ : BufTy).Contents (Elt F) → (⟨S1x3x64x64, .f32⟩ : BufTy).Contents (Elt F)),
    reshape main_v36 main_v37 rfl shapeCasts_S1x3x64x64_S3x64x64,
    unary main_arg9 main_v38 ((extractStridedSlice S1x64 ![0, 0] · slices_S4x64_S1x64_0_0) : (⟨S4x64, .f32⟩ : BufTy).Contents (Elt F) → (⟨S1x64, .f32⟩ : BufTy).Contents (Elt F)),
    reshape main_v38 main_v39 rfl shapeCasts_S1x64_S64,
    unary main_v37 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v40 main_v41 rfl shapeCasts_S1x64x64_S64x64,
    binary main_arg3 main_v41 main_v42 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v28 main_v43 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_arg3 main_v49 main_v50 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v43 main_v51 (broadcastInDim S1600000x64 ![0, 1] bcast_S1600000x1_S1600000x64_0_1 : (⟨S1600000x1, .f32⟩ : BufTy).Contents (Elt F) → (⟨S1600000x64, .f32⟩ : BufTy).Contents (Elt F)),
    binary main_v51 main_v50 main_v52 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v53 (broadcastInDim S50000x64 ![] bcast_S_S50000x64 : (⟨S_, .f32⟩ : BufTy).Contents (Elt F) → (⟨S50000x64, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v56 (broadcastInDim S50000x1 ![0] bcast_S50000_S50000x1_0 : (⟨S50000, .f32⟩ : BufTy).Contents (Elt F) → (⟨S50000x1, .f32⟩ : BufTy).Contents (Elt F)),
    unary main_v56 main_v57 (broadcastInDim S50000x64 ![0, 1] bcast_S50000x1_S50000x64_0_1 : (⟨S50000x1, .f32⟩ : BufTy).Contents (Elt F) → (⟨S50000x64, .f32⟩ : BufTy).Contents (Elt F)),
    binary main_v57 main_arg3 main_v58 (mulf : (⟨S50000x64, .f32⟩ : BufTy).Contents (Elt F) → (⟨S50000x64, .f32⟩ : BufTy).Contents (Elt F) → (⟨S50000x64, .f32⟩ : BufTy).Contents (Elt F)),
    binary main_v55 main_v58 main_v59 (addf : (⟨S50000x64, .f32⟩ : BufTy).Contents (Elt F) → (⟨S50000x64, .f32⟩ : BufTy).Contents (Elt F) → (⟨S50000x64, .f32⟩ : BufTy).Contents (Elt F)),
    unary main_v37 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v60 main_v61 rfl shapeCasts_S1x64x64_S64x64,
    binary main_v59 main_v61 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v42 main_v62 main_v63 (addf : (⟨S50000x64, .f32⟩ : BufTy).Contents (Elt F) → (⟨S50000x64, .f32⟩ : BufTy).Contents (Elt F) → (⟨S50000x64, .f32⟩ : BufTy).Contents (Elt F)),
    unary main_v28 main_v64 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v65 (broadcastInDim S1600000 ![] bcast_S_S1600000 : (⟨S_, .i32⟩ : BufTy).Contents (Elt F) → (⟨S1600000, .i32⟩ : BufTy).Contents (Elt F)),
    binary main_v1 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v67 (broadcastInDim S1600000 ![] bcast_S_S1600000 : (⟨S_, .i32⟩ : BufTy).Contents (Elt F) → (⟨S1600000, .i32⟩ : BufTy).Contents (Elt F)),
    binary main_v1 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v59 main_v70 main_v71 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v64 main_v72 (broadcastInDim S1600000x64 ![0, 1] bcast_S1600000x1_S1600000x64_0_1 : (⟨S1600000x1, .f32⟩ : BufTy).Contents (Elt F) → (⟨S1600000x64, .f32⟩ : BufTy).Contents (Elt F)),
    binary main_v72 main_v71 main_v73 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v74 (broadcastInDim S50000x64 ![] bcast_S_S50000x64 : (⟨S_, .f32⟩ : BufTy).Contents (Elt F) → (⟨S50000x64, .f32⟩ : BufTy).Contents (Elt F)),
    unary main_v3 main_v75 (broadcastInDim S1600000x1 ![0] bcast_S1600000_S1600000x1_0 : (⟨S1600000, .i32⟩ : BufTy).Contents (Elt F) → (⟨S1600000x1, .i32⟩ : BufTy).Contents (Elt F)),
    ternary main_v74 main_v75 main_v73 main_v76 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v77 (broadcastInDim S50000x1 ![0] bcast_S50000_S50000x1_0 : (⟨S50000, .f32⟩ : BufTy).Contents (Elt F) → (⟨S50000x1, .f32⟩ : BufTy).Contents (Elt F)),
    unary main_v77 main_v78 (broadcastInDim S50000x64 ![0, 1] bcast_S50000x1_S50000x64_0_1 : (⟨S50000x1, .f32⟩ : BufTy).Contents (Elt F) → (⟨S50000x64, .f32⟩ : BufTy).Contents (Elt F)),
    binary main_v78 main_v59 main_v79 (mulf : (⟨S50000x64, .f32⟩ : BufTy).Contents (Elt F) → (⟨S50000x64, .f32⟩ : BufTy).Contents (Elt F) → (⟨S50000x64, .f32⟩ : BufTy).Contents (Elt F)),
    binary main_v76 main_v79 main_v80 (addf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x40000000#32),
    unary main_cst_13 main_v81 (broadcastInDim S50000x64 ![] bcast_S_S50000x64 : (⟨S_, .f32⟩ : BufTy).Contents (Elt F) → (⟨S50000x64, .f32⟩ : BufTy).Contents (Elt F)),
    binary main_v81 main_v80 main_v82 (mulf : (⟨S50000x64, .f32⟩ : BufTy).Contents (Elt F) → (⟨S50000x64, .f32⟩ : BufTy).Contents (Elt F) → (⟨S50000x64, .f32⟩ : BufTy).Contents (Elt F)),
    binary main_v82 main_arg3 main_v83 (subf : (⟨S50000x64, .f32⟩ : BufTy).Contents (Elt F) → (⟨S50000x64, .f32⟩ : BufTy).Contents (Elt F) → (⟨S50000x64, .f32⟩ : BufTy).Contents (Elt F)),
    unary main_v37 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v84 main_v85 rfl shapeCasts_S1x64x64_S64x64,
    binary main_v83 main_v85 main_v86 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v63 main_v86 main_v87 (addf : (⟨S50000x64, .f32⟩ : BufTy).Contents (Elt F) → (⟨S50000x64, .f32⟩ : BufTy).Contents (Elt F) → (⟨S50000x64, .f32⟩ : BufTy).Contents (Elt F)),
    unary main_v39 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    binary main_v35 main_v90 main_v91 (addf : (⟨S50000x64, .f32⟩ : BufTy).Contents (Elt F) → (⟨S50000x64, .f32⟩ : BufTy).Contents (Elt F) → (⟨S50000x64, .f32⟩ : BufTy).Contents (Elt F)),
    unary main_arg6 main_v92 ((extractStridedSlice S1x64 ![0, 0] · slices_S3x64_S1x64_0_0) : (⟨S3x64, .f32⟩ : BufTy).Contents (Elt F) → (⟨S1x64, .f32⟩ : BufTy).Contents (Elt F)),
    reshape main_v92 main_v93 rfl shapeCasts_S1x64_S64,
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v95 main_arg4 main_v96 (mulf : (⟨S50000x64, .f32⟩ : BufTy).Contents (Elt F) → (⟨S50000x64, .f32⟩ : BufTy).Contents (Elt F) → (⟨S50000x64, .f32⟩ : BufTy).Contents (Elt F)),
    binary main_v91 main_v96 main_v97 (addf : (⟨S50000x64, .f32⟩ : BufTy).Contents (Elt F) → (⟨S50000x64, .f32⟩ : BufTy).Contents (Elt F) → (⟨S50000x64, .f32⟩ : BufTy).Contents (Elt F)),
    unary main_arg7 main_v98 ((extractStridedSlice S1x64 ![0, 0] · slices_S4x64_S1x64_0_0) : (⟨S4x64, .f32⟩ : BufTy).Contents (Elt F) → (⟨S1x64, .f32⟩ : BufTy).Contents (Elt F)),
    reshape main_v98 main_v99 rfl shapeCasts_S1x64_S64,
    unary main_v99 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v97 main_v101 main_v102 (addf : (⟨S50000x64, .f32⟩ : BufTy).Contents (Elt F) → (⟨S50000x64, .f32⟩ : BufTy).Contents (Elt F) → (⟨S50000x64, .f32⟩ : BufTy).Contents (Elt F)),
    unary main_v102 main_v103 (Host.negf : (⟨S50000x64, .f32⟩ : BufTy).Contents (Elt F) → (⟨S50000x64, .f32⟩ : BufTy).Contents (Elt F)),
    unary main_v103 main_v104 (Host.exp : (⟨S50000x64, .f32⟩ : BufTy).Contents (Elt F) → (⟨S50000x64, .f32⟩ : BufTy).Contents (Elt F)),
    nullary main_cst_14 (constant S_ .f32 0x3F800000#32),
    unary main_cst_14 main_v105 (broadcastInDim S50000x64 ![] bcast_S_S50000x64 : (⟨S_, .f32⟩ : BufTy).Contents (Elt F) → (⟨S50000x64, .f32⟩ : BufTy).Contents (Elt F)),
    binary main_v105 main_v104 main_v106 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3F800000#32),
    unary main_cst_15 main_v107 (broadcastInDim S50000x64 ![] bcast_S_S50000x64 : (⟨S_, .f32⟩ : BufTy).Contents (Elt F) → (⟨S50000x64, .f32⟩ : BufTy).Contents (Elt F)),
    binary main_v107 main_v106 main_v108 (Host.divf : (⟨S50000x64, .f32⟩ : BufTy).Contents (Elt F) → (⟨S50000x64, .f32⟩ : BufTy).Contents (Elt F) → (⟨S50000x64, .f32⟩ : BufTy).Contents (Elt F)),
    unary main_arg5 main_v109 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v109 main_v110 rfl shapeCasts_S1x64x64_S64x64,
    binary main_arg0 main_v110 main_v111 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v112 ((extractStridedSlice S1x3x64x64 ![1, 0, 0, 0] · slices_S4x3x64x64_S1x3x64x64_1_0_0_0) : (⟨S4x3x64x64, .f32⟩ : BufTy).Contents (Elt F) → (⟨S1x3x64x64, .f32⟩ : BufTy).Contents (Elt F)),
    reshape main_v112 main_v113 rfl shapeCasts_S1x3x64x64_S3x64x64,
    unary main_arg9 main_v114 ((extractStridedSlice S1x64 ![1, 0] · slices_S4x64_S1x64_1_0) : (⟨S4x64, .f32⟩ : BufTy).Contents (Elt F) → (⟨S1x64, .f32⟩ : BufTy).Contents (Elt F)),
    reshape main_v114 main_v115 rfl shapeCasts_S1x64_S64,
    unary main_v113 main_v116 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v116 main_v117 rfl shapeCasts_S1x64x64_S64x64,
    binary main_arg3 main_v117 main_v118 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v28 main_v119 (broadcastInDim S1600000x1 ![0] bcast_S1600000_S1600000x1_0 : (⟨S1600000, .f32⟩ : BufTy).Contents (Elt F) → (⟨S1600000x1, .f32⟩ : BufTy).Contents (Elt F)),
    nullary main_c_16 (constantI S_ 32 0#32),
    unary main_c_16 main_v120 (broadcastInDim S1600000 ![] bcast_S_S1600000 : (⟨S_, .i32⟩ : BufTy).Contents (Elt F) → (⟨S1600000, .i32⟩ : BufTy).Contents (Elt F)),
    binary main_v1 main_v120 main_v121 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 50000#32),
    unary main_c_17 main_v122 (broadcastInDim S1600000 ![] bcast_S_S1600000 : (⟨S_, .i32⟩ : BufTy).Contents (Elt F) → (⟨S1600000, .i32⟩ : BufTy).Contents (Elt F)),
    binary main_v1 main_v122 main_v123 (addi : (⟨S1600000, .i32⟩ : BufTy).Contents (Elt F) → (⟨S1600000, .i32⟩ : BufTy).Contents (Elt F) → (⟨S1600000, .i32⟩ : BufTy).Contents (Elt F)),
    ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v124 main_v125 (broadcastInDim S1600000x1 ![0] bcast_S1600000_S1600000x1_0 : (⟨S1600000, .i32⟩ : BufTy).Contents (Elt F) → (⟨S1600000x1, .i32⟩ : BufTy).Contents (Elt F)),
    binary main_arg3 main_v125 main_v126 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v119 main_v127 (broadcastInDim S1600000x64 ![0, 1] bcast_S1600000x1_S1600000x64_0_1 : (⟨S1600000x1, .f32⟩ : BufTy).Contents (Elt F) → (⟨S1600000x64, .f32⟩ : BufTy).Contents (Elt F)),
    binary main_v127 main_v126 main_v128 (mulf : (⟨S1600000x64, .f32⟩ : BufTy).Contents (Elt F) → (⟨S1600000x64, .f32⟩ : BufTy).Contents (Elt F) → (⟨S1600000x64, .f32⟩ : BufTy).Contents (Elt F)),
    nullary main_cst_18 (constant S_ .f32 0x00000000#32),
    unary main_cst_18 main_v129 (broadcastInDim S50000x64 ![] bcast_S_S50000x64 : (⟨S_, .f32⟩ : BufTy).Contents (Elt F) → (⟨S50000x64, .f32⟩ : BufTy).Contents (Elt F)),
    unary main_v3 main_v130 (broadcastInDim S1600000x1 ![0] bcast_S1600000_S1600000x1_0 : (⟨S1600000, .i32⟩ : BufTy).Contents (Elt F) → (⟨S1600000x1, .i32⟩ : BufTy).Contents (Elt F)),
    ternary main_v129 main_v130 main_v128 main_v131 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x64 ![0, 1] bcast_S50000x1_S50000x64_0_1 : (⟨S50000x1, .f32⟩ : BufTy).Contents (Elt F) → (⟨S50000x64, .f32⟩ : BufTy).Contents (Elt F)),
    binary main_v133 main_arg3 main_v134 (mulf : (⟨S50000x64, .f32⟩ : BufTy).Contents (Elt F) → (⟨S50000x64, .f32⟩ : BufTy).Contents (Elt F) → (⟨S50000x64, .f32⟩ : BufTy).Contents (Elt F)),
    binary main_v131 main_v134 main_v135 (addf : (⟨S50000x64, .f32⟩ : BufTy).Contents (Elt F) → (⟨S50000x64, .f32⟩ : BufTy).Contents (Elt F) → (⟨S50000x64, .f32⟩ : BufTy).Contents (Elt F)),
    unary main_v113 main_v136 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v136 main_v137 rfl shapeCasts_S1x64x64_S64x64,
    binary main_v135 main_v137 main_v138 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v118 main_v138 main_v139 (addf : (⟨S50000x64, .f32⟩ : BufTy).Contents (Elt F) → (⟨S50000x64, .f32⟩ : BufTy).Contents (Elt F) → (⟨S50000x64, .f32⟩ : BufTy).Contents (Elt F)),
    unary main_v28 main_v140 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v141 (broadcastInDim S1600000 ![] bcast_S_S1600000 : (⟨S_, .i32⟩ : BufTy).Contents (Elt F) → (⟨S1600000, .i32⟩ : BufTy).Contents (Elt F)),
    binary main_v1 main_v141 main_v142 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 50000#32),
    unary main_c_20 main_v143 (broadcastInDim S1600000 ![] bcast_S_S1600000 : (⟨S_, .i32⟩ : BufTy).Contents (Elt F) → (⟨S1600000, .i32⟩ : BufTy).Contents (Elt F)),
    binary main_v1 main_v143 main_v144 (addi : (⟨S1600000, .i32⟩ : BufTy).Contents (Elt F) → (⟨S1600000, .i32⟩ : BufTy).Contents (Elt F) → (⟨S1600000, .i32⟩ : BufTy).Contents (Elt F)),
    ternary main_v142 main_v144 main_v1 main_v145 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v145 main_v146 (broadcastInDim S1600000x1 ![0] bcast_S1600000_S1600000x1_0 : (⟨S1600000, .i32⟩ : BufTy).Contents (Elt F) → (⟨S1600000x1, .i32⟩ : BufTy).Contents (Elt F)),
    binary main_v135 main_v146 main_v147 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v140 main_v148 (broadcastInDim S1600000x64 ![0, 1] bcast_S1600000x1_S1600000x64_0_1 : (⟨S1600000x1, .f32⟩ : BufTy).Contents (Elt F) → (⟨S1600000x64, .f32⟩ : BufTy).Contents (Elt F)),
    binary main_v148 main_v147 main_v149 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v150 (broadcastInDim S50000x64 ![] bcast_S_S50000x64 : (⟨S_, .f32⟩ : BufTy).Contents (Elt F) → (⟨S50000x64, .f32⟩ : BufTy).Contents (Elt F)),
    unary main_v3 main_v151 (broadcastInDim S1600000x1 ![0] bcast_S1600000_S1600000x1_0 : (⟨S1600000, .i32⟩ : BufTy).Contents (Elt F) → (⟨S1600000x1, .i32⟩ : BufTy).Contents (Elt F)),
    ternary main_v150 main_v151 main_v149 main_v152 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v153 (broadcastInDim S50000x1 ![0] bcast_S50000_S50000x1_0 : (⟨S50000, .f32⟩ : BufTy).Contents (Elt F) → (⟨S50000x1, .f32⟩ : BufTy).Contents (Elt F)),
    unary main_v153 main_v154 (broadcastInDim S50000x64 ![0, 1] bcast_S50000x1_S50000x64_0_1 : (⟨S50000x1, .f32⟩ : BufTy).Contents (Elt F) → (⟨S50000x64, .f32⟩ : BufTy).Contents (Elt F)),
    binary main_v154 main_v135 main_v155 (mulf : (⟨S50000x64, .f32⟩ : BufTy).Contents (Elt F) → (⟨S50000x64, .f32⟩ : BufTy).Contents (Elt F) → (⟨S50000x64, .f32⟩ : BufTy).Contents (Elt F)),
    binary main_v152 main_v155 main_v156 (addf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x40000000#32),
    unary main_cst_22 main_v157 (broadcastInDim S50000x64 ![] bcast_S_S50000x64 : (⟨S_, .f32⟩ : BufTy).Contents (Elt F) → (⟨S50000x64, .f32⟩ : BufTy).Contents (Elt F)),
    binary main_v157 main_v156 main_v158 (mulf : (⟨S50000x64, .f32⟩ : BufTy).Contents (Elt F) → (⟨S50000x64, .f32⟩ : BufTy).Contents (Elt F) → (⟨S50000x64, .f32⟩ : BufTy).Contents (Elt F)),
    binary main_v158 main_arg3 main_v159 (subf : (⟨S50000x64, .f32⟩ : BufTy).Contents (Elt F) → (⟨S50000x64, .f32⟩ : BufTy).Contents (Elt F) → (⟨S50000x64, .f32⟩ : BufTy).Contents (Elt F)),
    unary main_v113 main_v160 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v160 main_v161 rfl shapeCasts_S1x64x64_S64x64,
    binary main_v159 main_v161 main_v162 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v139 main_v162 main_v163 (addf : (⟨S50000x64, .f32⟩ : BufTy).Contents (Elt F) → (⟨S50000x64, .f32⟩ : BufTy).Contents (Elt F) → (⟨S50000x64, .f32⟩ : BufTy).Contents (Elt F)),
    unary main_v115 main_v164 (broadcastInDim S1x64 ![1] bcast_S64_S1x64_1 : (⟨S64, .f32⟩ : BufTy).Contents (Elt F) → (⟨S1x64, .f32⟩ : BufTy).Contents (Elt F)),
    unary main_v164 main_v165 (broadcastInDim S50000x64 ![0, 1] bcast_S1x64_S50000x64_0_1 : (⟨S1x64, .f32⟩ : BufTy).Contents (Elt F) → (⟨S50000x64, .f32⟩ : BufTy).Contents (Elt F)),
    binary main_v163 main_v165 main_v166 (addf : (⟨S50000x64, .f32⟩ : BufTy).Contents (Elt F) → (⟨S50000x64, .f32⟩ : BufTy).Contents (Elt F) → (⟨S50000x64, .f32⟩ : BufTy).Contents (Elt F)),
    binary main_v111 main_v166 main_v167 (addf : (⟨S50000x64, .f32⟩ : BufTy).Contents (Elt F) → (⟨S50000x64, .f32⟩ : BufTy).Contents (Elt F) → (⟨S50000x64, .f32⟩ : BufTy).Contents (Elt F)),
    unary main_arg6 main_v168 ((extractStridedSlice S1x64 ![1, 0] · slices_S3x64_S1x64_1_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v171 main_arg4 main_v172 (mulf : (⟨S50000x64, .f32⟩ : BufTy).Contents (Elt F) → (⟨S50000x64, .f32⟩ : BufTy).Contents (Elt F) → (⟨S50000x64, .f32⟩ : BufTy).Contents (Elt F)),
    binary main_v167 main_v172 main_v173 (addf : (⟨S50000x64, .f32⟩ : BufTy).Contents (Elt F) → (⟨S50000x64, .f32⟩ : BufTy).Contents (Elt F) → (⟨S50000x64, .f32⟩ : BufTy).Contents (Elt F)),
    unary main_arg7 main_v174 ((extractStridedSlice S1x64 ![1, 0] · slices_S4x64_S1x64_1_0) : (⟨S4x64, .f32⟩ : BufTy).Contents (Elt F) → (⟨S1x64, .f32⟩ : BufTy).Contents (Elt F)),
    reshape main_v174 main_v175 rfl shapeCasts_S1x64_S64,
    unary main_v175 main_v176 (broadcastInDim S1x64 ![1] bcast_S64_S1x64_1 : (⟨S64, .f32⟩ : BufTy).Contents (Elt F) → (⟨S1x64, .f32⟩ : BufTy).Contents (Elt F)),
    unary main_v176 main_v177 (broadcastInDim S50000x64 ![0, 1] bcast_S1x64_S50000x64_0_1 : (⟨S1x64, .f32⟩ : BufTy).Contents (Elt F) → (⟨S50000x64, .f32⟩ : BufTy).Contents (Elt F)),
    binary main_v173 main_v177 main_v178 (addf : (⟨S50000x64, .f32⟩ : BufTy).Contents (Elt F) → (⟨S50000x64, .f32⟩ : BufTy).Contents (Elt F) → (⟨S50000x64, .f32⟩ : BufTy).Contents (Elt F)),
    unary main_v178 main_v179 (Host.negf : (⟨S50000x64, .f32⟩ : BufTy).Contents (Elt F) → (⟨S50000x64, .f32⟩ : BufTy).Contents (Elt F)),
    unary main_v179 main_v180 (Host.exp : (⟨S50000x64, .f32⟩ : BufTy).Contents (Elt F) → (⟨S50000x64, .f32⟩ : BufTy).Contents (Elt F)),
    nullary main_cst_23 (constant S_ .f32 0x3F800000#32),
    unary main_cst_23 main_v181 (broadcastInDim S50000x64 ![] bcast_S_S50000x64 : (⟨S_, .f32⟩ : BufTy).Contents (Elt F) → (⟨S50000x64, .f32⟩ : BufTy).Contents (Elt F)),
    binary main_v181 main_v180 main_v182 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x3F800000#32),
    unary main_cst_24 main_v183 (broadcastInDim S50000x64 ![] bcast_S_S50000x64 : (⟨S_, .f32⟩ : BufTy).Contents (Elt F) → (⟨S50000x64, .f32⟩ : BufTy).Contents (Elt F)),
    binary main_v183 main_v182 main_v184 (Host.divf : (⟨S50000x64, .f32⟩ : BufTy).Contents (Elt F) → (⟨S50000x64, .f32⟩ : BufTy).Contents (Elt F) → (⟨S50000x64, .f32⟩ : BufTy).Contents (Elt F)),
    unary main_arg5 main_v185 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v185 main_v186 rfl shapeCasts_S1x64x64_S64x64,
    binary main_arg0 main_v186 main_v187 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v188 ((extractStridedSlice S1x3x64x64 ![2, 0, 0, 0] · slices_S4x3x64x64_S1x3x64x64_2_0_0_0) : (⟨S4x3x64x64, .f32⟩ : BufTy).Contents (Elt F) → (⟨S1x3x64x64, .f32⟩ : BufTy).Contents (Elt F)),
    reshape main_v188 main_v189 rfl shapeCasts_S1x3x64x64_S3x64x64,
    unary main_arg9 main_v190 ((extractStridedSlice S1x64 ![2, 0] · slices_S4x64_S1x64_2_0) : (⟨S4x64, .f32⟩ : BufTy).Contents (Elt F) → (⟨S1x64, .f32⟩ : BufTy).Contents (Elt F)),
    reshape main_v190 main_v191 rfl shapeCasts_S1x64_S64,
    unary main_v189 main_v192 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v192 main_v193 rfl shapeCasts_S1x64x64_S64x64,
    binary main_arg3 main_v193 main_v194 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v28 main_v195 (broadcastInDim S1600000x1 ![0] bcast_S1600000_S1600000x1_0 : (⟨S1600000, .f32⟩ : BufTy).Contents (Elt F) → (⟨S1600000x1, .f32⟩ : BufTy).Contents (Elt F)),
    nullary main_c_25 (constantI S_ 32 0#32),
    unary main_c_25 main_v196 (broadcastInDim S1600000 ![] bcast_S_S1600000 : (⟨S_, .i32⟩ : BufTy).Contents (Elt F) → (⟨S1600000, .i32⟩ : BufTy).Contents (Elt F)),
    binary main_v1 main_v196 main_v197 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v198 (broadcastInDim S1600000 ![] bcast_S_S1600000 : (⟨S_, .i32⟩ : BufTy).Contents (Elt F) → (⟨S1600000, .i32⟩ : BufTy).Contents (Elt F)),
    binary main_v1 main_v198 main_v199 (addi : (⟨S1600000, .i32⟩ : BufTy).Contents (Elt F) → (⟨S1600000, .i32⟩ : BufTy).Contents (Elt F) → (⟨S1600000, .i32⟩ : BufTy).Contents (Elt F)),
    ternary main_v197 main_v199 main_v1 main_v200 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v200 main_v201 (broadcastInDim S1600000x1 ![0] bcast_S1600000_S1600000x1_0 : (⟨S1600000, .i32⟩ : BufTy).Contents (Elt F) → (⟨S1600000x1, .i32⟩ : BufTy).Contents (Elt F)),
    binary main_arg3 main_v201 main_v202 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v195 main_v203 (broadcastInDim S1600000x64 ![0, 1] bcast_S1600000x1_S1600000x64_0_1 : (⟨S1600000x1, .f32⟩ : BufTy).Contents (Elt F) → (⟨S1600000x64, .f32⟩ : BufTy).Contents (Elt F)),
    binary main_v203 main_v202 main_v204 (mulf : (⟨S1600000x64, .f32⟩ : BufTy).Contents (Elt F) → (⟨S1600000x64, .f32⟩ : BufTy).Contents (Elt F) → (⟨S1600000x64, .f32⟩ : BufTy).Contents (Elt F)),
    nullary main_cst_27 (constant S_ .f32 0x00000000#32),
    unary main_cst_27 main_v205 (broadcastInDim S50000x64 ![] bcast_S_S50000x64 : (⟨S_, .f32⟩ : BufTy).Contents (Elt F) → (⟨S50000x64, .f32⟩ : BufTy).Contents (Elt F)),
    unary main_v3 main_v206 (broadcastInDim S1600000x1 ![0] bcast_S1600000_S1600000x1_0 : (⟨S1600000, .i32⟩ : BufTy).Contents (Elt F) → (⟨S1600000x1, .i32⟩ : BufTy).Contents (Elt F)),
    ternary main_v205 main_v206 main_v204 main_v207 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v208 (broadcastInDim S50000x1 ![0] bcast_S50000_S50000x1_0 : (⟨S50000, .f32⟩ : BufTy).Contents (Elt F) → (⟨S50000x1, .f32⟩ : BufTy).Contents (Elt F)),
    unary main_v208 main_v209 (broadcastInDim S50000x64 ![0, 1] bcast_S50000x1_S50000x64_0_1 : (⟨S50000x1, .f32⟩ : BufTy).Contents (Elt F) → (⟨S50000x64, .f32⟩ : BufTy).Contents (Elt F)),
    binary main_v209 main_arg3 main_v210 (mulf : (⟨S50000x64, .f32⟩ : BufTy).Contents (Elt F) → (⟨S50000x64, .f32⟩ : BufTy).Contents (Elt F) → (⟨S50000x64, .f32⟩ : BufTy).Contents (Elt F)),
    binary main_v207 main_v210 main_v211 (addf : (⟨S50000x64, .f32⟩ : BufTy).Contents (Elt F) → (⟨S50000x64, .f32⟩ : BufTy).Contents (Elt F) → (⟨S50000x64, .f32⟩ : BufTy).Contents (Elt F)),
    unary main_v189 main_v212 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v212 main_v213 rfl shapeCasts_S1x64x64_S64x64,
    binary main_v211 main_v213 main_v214 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v194 main_v214 main_v215 (addf : (⟨S50000x64, .f32⟩ : BufTy).Contents (Elt F) → (⟨S50000x64, .f32⟩ : BufTy).Contents (Elt F) → (⟨S50000x64, .f32⟩ : BufTy).Contents (Elt F)),
    unary main_v28 main_v216 (broadcastInDim S1600000x1 ![0] bcast_S1600000_S1600000x1_0 : (⟨S1600000, .f32⟩ : BufTy).Contents (Elt F) → (⟨S1600000x1, .f32⟩ : BufTy).Contents (Elt F)),
    nullary main_c_28 (constantI S_ 32 0#32),
    unary main_c_28 main_v217 (broadcastInDim S1600000 ![] bcast_S_S1600000 : (⟨S_, .i32⟩ : BufTy).Contents (Elt F) → (⟨S1600000, .i32⟩ : BufTy).Contents (Elt F)),
    binary main_v1 main_v217 main_v218 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 50000#32),
    unary main_c_29 main_v219 (broadcastInDim S1600000 ![] bcast_S_S1600000 : (⟨S_, .i32⟩ : BufTy).Contents (Elt F) → (⟨S1600000, .i32⟩ : BufTy).Contents (Elt F)),
    binary main_v1 main_v219 main_v220 (addi : (⟨S1600000, .i32⟩ : BufTy).Contents (Elt F) → (⟨S1600000, .i32⟩ : BufTy).Contents (Elt F) → (⟨S1600000, .i32⟩ : BufTy).Contents (Elt F)),
    ternary main_v218 main_v220 main_v1 main_v221 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v221 main_v222 (broadcastInDim S1600000x1 ![0] bcast_S1600000_S1600000x1_0 : (⟨S1600000, .i32⟩ : BufTy).Contents (Elt F) → (⟨S1600000x1, .i32⟩ : BufTy).Contents (Elt F)),
    binary main_v211 main_v222 main_v223 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v216 main_v224 (broadcastInDim S1600000x64 ![0, 1] bcast_S1600000x1_S1600000x64_0_1 : (⟨S1600000x1, .f32⟩ : BufTy).Contents (Elt F) → (⟨S1600000x64, .f32⟩ : BufTy).Contents (Elt F)),
    binary main_v224 main_v223 main_v225 (mulf : (⟨S1600000x64, .f32⟩ : BufTy).Contents (Elt F) → (⟨S1600000x64, .f32⟩ : BufTy).Contents (Elt F) → (⟨S1600000x64, .f32⟩ : BufTy).Contents (Elt F)),
    nullary main_cst_30 (constant S_ .f32 0x00000000#32),
    unary main_cst_30 main_v226 (broadcastInDim S50000x64 ![] bcast_S_S50000x64 : (⟨S_, .f32⟩ : BufTy).Contents (Elt F) → (⟨S50000x64, .f32⟩ : BufTy).Contents (Elt F)),
    unary main_v3 main_v227 (broadcastInDim S1600000x1 ![0] bcast_S1600000_S1600000x1_0 : (⟨S1600000, .i32⟩ : BufTy).Contents (Elt F) → (⟨S1600000x1, .i32⟩ : BufTy).Contents (Elt F)),
    ternary main_v226 main_v227 main_v225 main_v228 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v229 (broadcastInDim S50000x1 ![0] bcast_S50000_S50000x1_0 : (⟨S50000, .f32⟩ : BufTy).Contents (Elt F) → (⟨S50000x1, .f32⟩ : BufTy).Contents (Elt F)),
    unary main_v229 main_v230 (broadcastInDim S50000x64 ![0, 1] bcast_S50000x1_S50000x64_0_1 : (⟨S50000x1, .f32⟩ : BufTy).Contents (Elt F) → (⟨S50000x64, .f32⟩ : BufTy).Contents (Elt F)),
    binary main_v230 main_v211 main_v231 (mulf : (⟨S50000x64, .f32⟩ : BufTy).Contents (Elt F) → (⟨S50000x64, .f32⟩ : BufTy).Contents (Elt F) → (⟨S50000x64, .f32⟩ : BufTy).Contents (Elt F)),
    binary main_v228 main_v231 main_v232 (addf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x40000000#32),
    unary main_cst_31 main_v233 (broadcastInDim S50000x64 ![] bcast_S_S50000x64 : (⟨S_, .f32⟩ : BufTy).Contents (Elt F) → (⟨S50000x64, .f32⟩ : BufTy).Contents (Elt F)),
    binary main_v233 main_v232 main_v234 (mulf : (⟨S50000x64, .f32⟩ : BufTy).Contents (Elt F) → (⟨S50000x64, .f32⟩ : BufTy).Contents (Elt F) → (⟨S50000x64, .f32⟩ : BufTy).Contents (Elt F)),
    binary main_v234 main_arg3 main_v235 (subf : (⟨S50000x64, .f32⟩ : BufTy).Contents (Elt F) → (⟨S50000x64, .f32⟩ : BufTy).Contents (Elt F) → (⟨S50000x64, .f32⟩ : BufTy).Contents (Elt F)),
    unary main_v189 main_v236 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v236 main_v237 rfl shapeCasts_S1x64x64_S64x64,
    binary main_v235 main_v237 main_v238 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v215 main_v238 main_v239 (addf : (⟨S50000x64, .f32⟩ : BufTy).Contents (Elt F) → (⟨S50000x64, .f32⟩ : BufTy).Contents (Elt F) → (⟨S50000x64, .f32⟩ : BufTy).Contents (Elt F)),
    unary main_v191 main_v240 (broadcastInDim S1x64 ![1] bcast_S64_S1x64_1 : (⟨S64, .f32⟩ : BufTy).Contents (Elt F) → (⟨S1x64, .f32⟩ : BufTy).Contents (Elt F)),
    unary main_v240 main_v241 (broadcastInDim S50000x64 ![0, 1] bcast_S1x64_S50000x64_0_1 : (⟨S1x64, .f32⟩ : BufTy).Contents (Elt F) → (⟨S50000x64, .f32⟩ : BufTy).Contents (Elt F)),
    binary main_v239 main_v241 main_v242 (addf : (⟨S50000x64, .f32⟩ : BufTy).Contents (Elt F) → (⟨S50000x64, .f32⟩ : BufTy).Contents (Elt F) → (⟨S50000x64, .f32⟩ : BufTy).Contents (Elt F)),
    binary main_v187 main_v242 main_v243 (addf : (⟨S50000x64, .f32⟩ : BufTy).Contents (Elt F) → (⟨S50000x64, .f32⟩ : BufTy).Contents (Elt F) → (⟨S50000x64, .f32⟩ : BufTy).Contents (Elt F)),
    unary main_arg7 main_v244 ((extractStridedSlice S1x64 ![2, 0] · slices_S4x64_S1x64_2_0) : (⟨S4x64, .f32⟩ : BufTy).Contents (Elt F) → (⟨S1x64, .f32⟩ : BufTy).Contents (Elt F)),
    reshape main_v244 main_v245 rfl shapeCasts_S1x64_S64,
    unary main_v245 main_v246 (broadcastInDim S1x64 ![1] bcast_S64_S1x64_1 : (⟨S64, .f32⟩ : BufTy).Contents (Elt F) → (⟨S1x64, .f32⟩ : BufTy).Contents (Elt F)),
    unary main_v246 main_v247 (broadcastInDim S50000x64 ![0, 1] bcast_S1x64_S50000x64_0_1 : (⟨S1x64, .f32⟩ : BufTy).Contents (Elt F) → (⟨S50000x64, .f32⟩ : BufTy).Contents (Elt F)),
    binary main_v243 main_v247 main_v248 (addf : (⟨S50000x64, .f32⟩ : BufTy).Contents (Elt F) → (⟨S50000x64, .f32⟩ : BufTy).Contents (Elt F) → (⟨S50000x64, .f32⟩ : BufTy).Contents (Elt F)),
    unary main_v248 main_v249 (Host.tanh : (⟨S50000x64, .f32⟩ : BufTy).Contents (Elt F) → (⟨S50000x64, .f32⟩ : BufTy).Contents (Elt F)),
    binary main_v184 main_arg4 main_v250 (mulf : (⟨S50000x64, .f32⟩ : BufTy).Contents (Elt F) → (⟨S50000x64, .f32⟩ : BufTy).Contents (Elt F) → (⟨S50000x64, .f32⟩ : BufTy).Contents (Elt F)),
    binary main_v108 main_v249 main_v251 (mulf : (⟨S50000x64, .f32⟩ : BufTy).Contents (Elt F) → (⟨S50000x64, .f32⟩ : BufTy).Contents (Elt F) → (⟨S50000x64, .f32⟩ : BufTy).Contents (Elt F)),
    binary main_v250 main_v251 main_v252 (addf : (⟨S50000x64, .f32⟩ : BufTy).Contents (Elt F) → (⟨S50000x64, .f32⟩ : BufTy).Contents (Elt F) → (⟨S50000x64, .f32⟩ : BufTy).Contents (Elt F)),
    unary main_arg5 main_v253 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v253 main_v254 rfl shapeCasts_S1x64x64_S64x64,
    binary main_arg0 main_v254 main_v255 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v256 ((extractStridedSlice S1x3x64x64 ![3, 0, 0, 0] · slices_S4x3x64x64_S1x3x64x64_3_0_0_0) : (⟨S4x3x64x64, .f32⟩ : BufTy).Contents (Elt F) → (⟨S1x3x64x64, .f32⟩ : BufTy).Contents (Elt F)),
    reshape main_v256 main_v257 rfl shapeCasts_S1x3x64x64_S3x64x64,
    unary main_arg9 main_v258 ((extractStridedSlice S1x64 ![3, 0] · slices_S4x64_S1x64_3_0) : (⟨S4x64, .f32⟩ : BufTy).Contents (Elt F) → (⟨S1x64, .f32⟩ : BufTy).Contents (Elt F)),
    reshape main_v258 main_v259 rfl shapeCasts_S1x64_S64,
    unary main_v257 main_v260 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v260 main_v261 rfl shapeCasts_S1x64x64_S64x64,
    binary main_arg3 main_v261 main_v262 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v28 main_v263 (broadcastInDim S1600000x1 ![0] bcast_S1600000_S1600000x1_0 : (⟨S1600000, .f32⟩ : BufTy).Contents (Elt F) → (⟨S1600000x1, .f32⟩ : BufTy).Contents (Elt F)),
    nullary main_c_32 (constantI S_ 32 0#32),
    unary main_c_32 main_v264 (broadcastInDim S1600000 ![] bcast_S_S1600000 : (⟨S_, .i32⟩ : BufTy).Contents (Elt F) → (⟨S1600000, .i32⟩ : BufTy).Contents (Elt F)),
    binary main_v1 main_v264 main_v265 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 50000#32),
    unary main_c_33 main_v266 (broadcastInDim S1600000 ![] bcast_S_S1600000 : (⟨S_, .i32⟩ : BufTy).Contents (Elt F) → (⟨S1600000, .i32⟩ : BufTy).Contents (Elt F)),
    binary main_v1 main_v266 main_v267 (addi : (⟨S1600000, .i32⟩ : BufTy).Contents (Elt F) → (⟨S1600000, .i32⟩ : BufTy).Contents (Elt F) → (⟨S1600000, .i32⟩ : BufTy).Contents (Elt F)),
    ternary main_v265 main_v267 main_v1 main_v268 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v268 main_v269 (broadcastInDim S1600000x1 ![0] bcast_S1600000_S1600000x1_0 : (⟨S1600000, .i32⟩ : BufTy).Contents (Elt F) → (⟨S1600000x1, .i32⟩ : BufTy).Contents (Elt F)),
    binary main_arg3 main_v269 main_v270 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v263 main_v271 (broadcastInDim S1600000x64 ![0, 1] bcast_S1600000x1_S1600000x64_0_1 : (⟨S1600000x1, .f32⟩ : BufTy).Contents (Elt F) → (⟨S1600000x64, .f32⟩ : BufTy).Contents (Elt F)),
    binary main_v271 main_v270 main_v272 (mulf : (⟨S1600000x64, .f32⟩ : BufTy).Contents (Elt F) → (⟨S1600000x64, .f32⟩ : BufTy).Contents (Elt F) → (⟨S1600000x64, .f32⟩ : BufTy).Contents (Elt F)),
    nullary main_cst_34 (constant S_ .f32 0x00000000#32),
    unary main_cst_34 main_v273 (broadcastInDim S50000x64 ![] bcast_S_S50000x64 : (⟨S_, .f32⟩ : BufTy).Contents (Elt F) → (⟨S50000x64, .f32⟩ : BufTy).Contents (Elt F)),
    unary main_v3 main_v274 (broadcastInDim S1600000x1 ![0] bcast_S1600000_S1600000x1_0 : (⟨S1600000, .i32⟩ : BufTy).Contents (Elt F) → (⟨S1600000x1, .i32⟩ : BufTy).Contents (Elt F)),
    ternary main_v273 main_v274 main_v272 main_v275 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v276 (broadcastInDim S50000x1 ![0] bcast_S50000_S50000x1_0 : (⟨S50000, .f32⟩ : BufTy).Contents (Elt F) → (⟨S50000x1, .f32⟩ : BufTy).Contents (Elt F)),
    unary main_v276 main_v277 (broadcastInDim S50000x64 ![0, 1] bcast_S50000x1_S50000x64_0_1 : (⟨S50000x1, .f32⟩ : BufTy).Contents (Elt F) → (⟨S50000x64, .f32⟩ : BufTy).Contents (Elt F)),
    binary main_v277 main_arg3 main_v278 (mulf : (⟨S50000x64, .f32⟩ : BufTy).Contents (Elt F) → (⟨S50000x64, .f32⟩ : BufTy).Contents (Elt F) → (⟨S50000x64, .f32⟩ : BufTy).Contents (Elt F)),
    binary main_v275 main_v278 main_v279 (addf : (⟨S50000x64, .f32⟩ : BufTy).Contents (Elt F) → (⟨S50000x64, .f32⟩ : BufTy).Contents (Elt F) → (⟨S50000x64, .f32⟩ : BufTy).Contents (Elt F)),
    unary main_v257 main_v280 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v280 main_v281 rfl shapeCasts_S1x64x64_S64x64,
    binary main_v279 main_v281 main_v282 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v262 main_v282 main_v283 (addf : (⟨S50000x64, .f32⟩ : BufTy).Contents (Elt F) → (⟨S50000x64, .f32⟩ : BufTy).Contents (Elt F) → (⟨S50000x64, .f32⟩ : BufTy).Contents (Elt F)),
    unary main_v28 main_v284 (broadcastInDim S1600000x1 ![0] bcast_S1600000_S1600000x1_0 : (⟨S1600000, .f32⟩ : BufTy).Contents (Elt F) → (⟨S1600000x1, .f32⟩ : BufTy).Contents (Elt F)),
    nullary main_c_35 (constantI S_ 32 0#32),
    unary main_c_35 main_v285 (broadcastInDim S1600000 ![] bcast_S_S1600000 : (⟨S_, .i32⟩ : BufTy).Contents (Elt F) → (⟨S1600000, .i32⟩ : BufTy).Contents (Elt F)),
    binary main_v1 main_v285 main_v286 (cmpi .slt : (⟨S1600000, .i32⟩ : BufTy).Contents (Elt F) → (⟨S1600000, .i32⟩ : BufTy).Contents (Elt F) → (⟨S1600000, .i1⟩ : BufTy).Contents (Elt F)),
    nullary main_c_36 (constantI S_ 32 50000#32),
    unary main_c_36 main_v287 (broadcastInDim S1600000 ![] bcast_S_S1600000 : (⟨S_, .i32⟩ : BufTy).Contents (Elt F) → (⟨S1600000, .i32⟩ : BufTy).Contents (Elt F)),
    binary main_v1 main_v287 main_v288 (addi : (⟨S1600000, .i32⟩ : BufTy).Contents (Elt F) → (⟨S1600000, .i32⟩ : BufTy).Contents (Elt F) → (⟨S1600000, .i32⟩ : BufTy).Contents (Elt F)),
    ternary main_v286 main_v288 main_v1 main_v289 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v289 main_v290 (broadcastInDim S1600000x1 ![0] bcast_S1600000_S1600000x1_0 : (⟨S1600000, .i32⟩ : BufTy).Contents (Elt F) → (⟨S1600000x1, .i32⟩ : BufTy).Contents (Elt F)),
    binary main_v279 main_v290 main_v291 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    unary main_v284 main_v292 (broadcastInDim S1600000x64 ![0, 1] bcast_S1600000x1_S1600000x64_0_1 : (⟨S1600000x1, .f32⟩ : BufTy).Contents (Elt F) → (⟨S1600000x64, .f32⟩ : BufTy).Contents (Elt F)),
    binary main_v292 main_v291 main_v293 (mulf : (⟨S1600000x64, .f32⟩ : BufTy).Contents (Elt F) → (⟨S1600000x64, .f32⟩ : BufTy).Contents (Elt F) → (⟨S1600000x64, .f32⟩ : BufTy).Contents (Elt F)),
    nullary main_cst_37 (constant S_ .f32 0x00000000#32),
    unary main_cst_37 main_v294 (broadcastInDim S50000x64 ![] bcast_S_S50000x64 : (⟨S_, .f32⟩ : BufTy).Contents (Elt F) → (⟨S50000x64, .f32⟩ : BufTy).Contents (Elt F)),
    unary main_v3 main_v295 (broadcastInDim S1600000x1 ![0] bcast_S1600000_S1600000x1_0 : (⟨S1600000, .i32⟩ : BufTy).Contents (Elt F) → (⟨S1600000x1, .i32⟩ : BufTy).Contents (Elt F)),
    ternary main_v294 main_v295 main_v293 main_v296 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v32 main_v297 (broadcastInDim S50000x1 ![0] bcast_S50000_S50000x1_0 : (⟨S50000, .f32⟩ : BufTy).Contents (Elt F) → (⟨S50000x1, .f32⟩ : BufTy).Contents (Elt F)),
    unary main_v297 main_v298 (broadcastInDim S50000x64 ![0, 1] bcast_S50000x1_S50000x64_0_1 : (⟨S50000x1, .f32⟩ : BufTy).Contents (Elt F) → (⟨S50000x64, .f32⟩ : BufTy).Contents (Elt F)),
    binary main_v298 main_v279 main_v299 (mulf : (⟨S50000x64, .f32⟩ : BufTy).Contents (Elt F) → (⟨S50000x64, .f32⟩ : BufTy).Contents (Elt F) → (⟨S50000x64, .f32⟩ : BufTy).Contents (Elt F)),
    binary main_v296 main_v299 main_v300 (addf : (⟨S50000x64, .f32⟩ : BufTy).Contents (Elt F) → (⟨S50000x64, .f32⟩ : BufTy).Contents (Elt F) → (⟨S50000x64, .f32⟩ : BufTy).Contents (Elt F)),
    nullary main_cst_38 (constant S_ .f32 0x40000000#32),
    unary main_cst_38 main_v301 (broadcastInDim S50000x64 ![] bcast_S_S50000x64 : (⟨S_, .f32⟩ : BufTy).Contents (Elt F) → (⟨S50000x64, .f32⟩ : BufTy).Contents (Elt F)),
    binary main_v301 main_v300 main_v302 (mulf : (⟨S50000x64, .f32⟩ : BufTy).Contents (Elt F) → (⟨S50000x64, .f32⟩ : BufTy).Contents (Elt F) → (⟨S50000x64, .f32⟩ : BufTy).Contents (Elt F)),
    binary main_v302 main_arg3 main_v303 (subf : (⟨S50000x64, .f32⟩ : BufTy).Contents (Elt F) → (⟨S50000x64, .f32⟩ : BufTy).Contents (Elt F) → (⟨S50000x64, .f32⟩ : BufTy).Contents (Elt F)),
    unary main_v257 main_v304 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v304 main_v305 rfl shapeCasts_S1x64x64_S64x64,
    binary main_v303 main_v305 main_v306 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v283 main_v306 main_v307 (addf : (⟨S50000x64, .f32⟩ : BufTy).Contents (Elt F) → (⟨S50000x64, .f32⟩ : BufTy).Contents (Elt F) → (⟨S50000x64, .f32⟩ : BufTy).Contents (Elt F)),
    unary main_v259 main_v308 (broadcastInDim S1x64 ![1] bcast_S64_S1x64_1 : (⟨S64, .f32⟩ : BufTy).Contents (Elt F) → (⟨S1x64, .f32⟩ : BufTy).Contents (Elt F)),
    unary main_v308 main_v309 (broadcastInDim S50000x64 ![0, 1] bcast_S1x64_S50000x64_0_1 : (⟨S1x64, .f32⟩ : BufTy).Contents (Elt F) → (⟨S50000x64, .f32⟩ : BufTy).Contents (Elt F)),
    binary main_v307 main_v309 main_v310 (addf : (⟨S50000x64, .f32⟩ : BufTy).Contents (Elt F) → (⟨S50000x64, .f32⟩ : BufTy).Contents (Elt F) → (⟨S50000x64, .f32⟩ : BufTy).Contents (Elt F)),
    binary main_v255 main_v310 main_v311 (addf : (⟨S50000x64, .f32⟩ : BufTy).Contents (Elt F) → (⟨S50000x64, .f32⟩ : BufTy).Contents (Elt F) → (⟨S50000x64, .f32⟩ : BufTy).Contents (Elt F)),
    unary main_arg6 main_v312 ((extractStridedSlice S1x64 ![2, 0] · slices_S3x64_S1x64_2_0) : (⟨S3x64, .f32⟩ : BufTy).Contents (Elt F) → (⟨S1x64, .f32⟩ : BufTy).Contents (Elt F)),
    reshape main_v312 main_v313 rfl shapeCasts_S1x64_S64,
    unary main_v313 main_v314 (broadcastInDim S1x64 ![1] bcast_S64_S1x64_1 : (⟨S64, .f32⟩ : BufTy).Contents (Elt F) → (⟨S1x64, .f32⟩ : BufTy).Contents (Elt F)),
    unary main_v314 main_v315 (broadcastInDim S50000x64 ![0, 1] bcast_S1x64_S50000x64_0_1 : (⟨S1x64, .f32⟩ : BufTy).Contents (Elt F) → (⟨S50000x64, .f32⟩ : BufTy).Contents (Elt F)),
    binary main_v315 main_v252 main_v316 (mulf : (⟨S50000x64, .f32⟩ : BufTy).Contents (Elt F) → (⟨S50000x64, .f32⟩ : BufTy).Contents (Elt F) → (⟨S50000x64, .f32⟩ : BufTy).Contents (Elt F)),
    binary main_v311 main_v316 main_v317 (addf : (⟨S50000x64, .f32⟩ : BufTy).Contents (Elt F) → (⟨S50000x64, .f32⟩ : BufTy).Contents (Elt F) → (⟨S50000x64, .f32⟩ : BufTy).Contents (Elt F)),
    unary main_arg7 main_v318 ((extractStridedSlice S1x64 ![3, 0] · slices_S4x64_S1x64_3_0) : (⟨S4x64, .f32⟩ : BufTy).Contents (Elt F) → (⟨S1x64, .f32⟩ : BufTy).Contents (Elt F)),
    reshape main_v318 main_v319 rfl shapeCasts_S1x64_S64,
    unary main_v319 main_v320 (broadcastInDim S1x64 ![1] bcast_S64_S1x64_1 : (⟨S64, .f32⟩ : BufTy).Contents (Elt F) → (⟨S1x64, .f32⟩ : BufTy).Contents (Elt F)),
    unary main_v320 main_v321 (broadcastInDim S50000x64 ![0, 1] bcast_S1x64_S50000x64_0_1 : (⟨S1x64, .f32⟩ : BufTy).Contents (Elt F) → (⟨S50000x64, .f32⟩ : BufTy).Contents (Elt F)),
    binary main_v317 main_v321 main_v322 (addf : (⟨S50000x64, .f32⟩ : BufTy).Contents (Elt F) → (⟨S50000x64, .f32⟩ : BufTy).Contents (Elt F) → (⟨S50000x64, .f32⟩ : BufTy).Contents (Elt F)),
    unary main_v322 main_v323 (Host.negf : (⟨S50000x64, .f32⟩ : BufTy).Contents (Elt F) → (⟨S50000x64, .f32⟩ : BufTy).Contents (Elt F)),
    unary main_v323 main_v324 (Host.exp : (⟨S50000x64, .f32⟩ : BufTy).Contents (Elt F) → (⟨S50000x64, .f32⟩ : BufTy).Contents (Elt F)),
    nullary main_cst_39 (constant S_ .f32 0x3F800000#32),
    unary main_cst_39 main_v325 (broadcastInDim S50000x64 ![] bcast_S_S50000x64 : (⟨S_, .f32⟩ : BufTy).Contents (Elt F) → (⟨S50000x64, .f32⟩ : BufTy).Contents (Elt F)),
    binary main_v325 main_v324 main_v326 (addf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x3F800000#32),
    unary main_cst_40 main_v327 (broadcastInDim S50000x64 ![] bcast_S_S50000x64 : (⟨S_, .f32⟩ : BufTy).Contents (Elt F) → (⟨S50000x64, .f32⟩ : BufTy).Contents (Elt F)),
    binary main_v327 main_v326 main_v328 (Host.divf : (⟨S50000x64, .f32⟩ : BufTy).Contents (Elt F) → (⟨S50000x64, .f32⟩ : BufTy).Contents (Elt F) → (⟨S50000x64, .f32⟩ : BufTy).Contents (Elt F)),
    unary main_v252 main_v329 (Host.tanh : (⟨S50000x64, .f32⟩ : BufTy).Contents (Elt F) → (⟨S50000x64, .f32⟩ : BufTy).Contents (Elt F)),
    binary main_v328 main_v329 main_v330 (mulf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v330) (TRef.of (T := ⟨S50000x64, .f32⟩) main_call1_v0) (TRef.of (T := ⟨S50000x64, .f32⟩) main_v331) maximumf,
    binary main_v331 main_arg10 main_v332 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v333 (broadcastInDim S1x64 ![1] bcast_S64_S1x64_1 : (⟨S64, .f32⟩ : BufTy).Contents (Elt F) → (⟨S1x64, .f32⟩ : BufTy).Contents (Elt F)),
    unary main_v333 main_v334 (broadcastInDim S50000x64 ![0, 1] bcast_S1x64_S50000x64_0_1 : (⟨S1x64, .f32⟩ : BufTy).Contents (Elt F) → (⟨S50000x64, .f32⟩ : BufTy).Contents (Elt F)),
    binary main_v332 main_v334 main_v335 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., binary_bufs_sub .., binary_bufs_sub .., binary_bufs_sub .., unary_bufs_sub .., reshape_bufs_sub .., binary_bufs_sub .., unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 16384 in
set_option maxHeartbeats 400000000 in
/-- Every weakly fair execution of @main terminates with each TensorCore buffer at the fold of the operations'
    results over its launch contents. -/
theorem ran (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefProp.lean ====
/-
  The graph propagation as array terms of the edge list, the edge weights and a node array: the weighted degree, its
  inverse square root where the degree is positive (0 elsewhere), the normalised edge coefficient
  -d[src] w d[dst], the diagonal d d deg - 1 of the scaled Laplacian, the sum over incoming edges of the coefficient
  times the source node's row, and the first propagation of h (edge sum plus diagonal times h). Each is the
  composition of array operations in which the program computes it.
-/
import proofs.«138098_j15135464751774_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The source node of every edge (row 0 of the edge list). -/
def srcIdx (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The target node of every edge (row 1 of the edge list). -/
def dstIdx (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A node index with a negative value wrapped once by the number of nodes, as a one-column index array. -/
def wrapCol (v : (⟨S1600000, .i32⟩ : BufTy).Contents (Elt F)) : (⟨S1600000x1, .i32⟩ : BufTy).Contents (Elt F) :=
  broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 50000#32))) v)

/-- The weighted degree: the sum of the weights of the edges leaving each node. -/
def degree (ei : (⟨S2x1600000, .i32⟩ : BufTy).Contents (Elt F)) (ew : (⟨S1600000, .f32⟩ : BufTy).Contents (Elt F)) : (⟨S50000, .f32⟩ : BufTy).Contents (Elt F) :=
  Host.scatterAdd scatter_S50000_S1600000x1_S1600000_n_0_0_1 (broadcastInDim S50000 ![] bcast_S_S50000 (constant S_ .f32 0x00000000#32)) (broadcastInDim S1600000x1 ![0] bcast_S1600000_S1600000x1_0 (srcIdx ei)) ew

/-- deg^(-1/2) where the degree is positive, 0 elsewhere. -/
def invSqrtDeg (ei : (⟨S2x1600000, .i32⟩ : BufTy).Contents (Elt F)) (ew : (⟨S1600000, .f32⟩ : BufTy).Contents (Elt F)) : (⟨S50000, .f32⟩ : BufTy).Contents (Elt F) :=
  select (cmpf .ogt (degree ei ew) (broadcastInDim S50000 ![] bcast_S_S50000 (constant S_ .f32 0x00000000#32))) (Host.powf (degree ei ew) (broadcastInDim S50000 ![] bcast_S_S50000 (constant S_ .f32 0xBF000000#32))) (broadcastInDim S50000 ![] bcast_S_S50000 (id (constant S_ .f32 0x00000000#32)))

/-- The off-diagonal Laplacian coefficient of every edge: -d[src] w d[dst]. -/
def edgeCoef (ei : (⟨S2x1600000, .i32⟩ : BufTy).Contents (Elt F)) (ew : (⟨S1600000, .f32⟩ : BufTy).Contents (Elt F)) : (⟨S1600000, .f32⟩ : BufTy).Contents (Elt F) :=
  mulf (mulf (Host.negf (Host.gather gather_S50000_S1600000x1_S1600000_n_0_n_n_0_1_1 (invSqrtDeg ei ew) (wrapCol (srcIdx ei)))) ew) (Host.gather gather_S50000_S1600000x1_S1600000_n_0_n_n_0_1_1 (invSqrtDeg ei ew) (wrapCol (dstIdx ei)))

/-- The Laplacian's diagonal: d d deg - 1. -/
def lapDiag (ei : (⟨S2x1600000, .i32⟩ : BufTy).Contents (Elt F)) (ew : (⟨S1600000, .f32⟩ : BufTy).Contents (Elt F)) : (⟨S50000, .f32⟩ : BufTy).Contents (Elt F) :=
  subf (mulf (mulf (invSqrtDeg ei ew) (invSqrtDeg ei ew)) (degree ei ew)) (broadcastInDim S50000 ![] bcast_S_S50000 (constant S_ .f32 0x3F800000#32))

/-- The sum over the edges entering each node of the coefficient times the source node's row of `z`. -/
def edgeSum (ei : (⟨S2x1600000, .i32⟩ : BufTy).Contents (Elt F)) (ew : (⟨S1600000, .f32⟩ : BufTy).Contents (Elt F)) (z : (⟨S50000x64, .f32⟩ : BufTy).Contents (Elt F)) : (⟨S50000x64, .f32⟩ : BufTy).Contents (Elt F) :=
  Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (dstIdx ei)) (mulf (broadcastInDim S1600000x64 ![0, 1] bcast_S1600000x1_S1600000x64_0_1 (broadcastInDim S1600000x1 ![0] bcast_S1600000_S1600000x1_0 (edgeCoef ei ew))) (Host.gather gather_S50000x64_S1600000x1_S1600000x64_1_0_n_n_0_1_164 z (wrapCol (srcIdx ei))))

/-- The diagonal as a one-column array. -/
def lapDiagCol (ei : (⟨S2x1600000, .i32⟩ : BufTy).Contents (Elt F)) (ew : (⟨S1600000, .f32⟩ : BufTy).Contents (Elt F)) : (⟨S50000x1, .f32⟩ : BufTy).Contents (Elt F) :=
  broadcastInDim S50000x1 ![0] bcast_S50000_S50000x1_0 (lapDiag ei ew)

/-- The first propagation of the hidden state: its edge sum plus the diagonal times it. -/
def prop1 (ei : (⟨S2x1600000, .i32⟩ : BufTy).Contents (Elt F)) (ew : (⟨S1600000, .f32⟩ : BufTy).Contents (Elt F)) (h : (⟨S50000x64, .f32⟩ : BufTy).Contents (Elt F)) : (⟨S50000x64, .f32⟩ : BufTy).Contents (Elt F) :=
  addf (edgeSum ei ew h) (mulf (broadcastInDim S50000x64 ![0, 1] bcast_S50000x1_S50000x64_0_1 (lapDiagCol ei ew)) h)

/-- The edge sum of the first propagation. -/
def edgeSum2 (ei : (⟨S2x1600000, .i32⟩ : BufTy).Contents (Elt F)) (ew : (⟨S1600000, .f32⟩ : BufTy).Contents (Elt F)) (h : (⟨S50000x64, .f32⟩ : BufTy).Contents (Elt F)) : (⟨S50000x64, .f32⟩ : BufTy).Contents (Elt F) :=
  edgeSum ei ew (prop1 ei ew h)

end Cert.ReferenceIdeal.Hand

end
-- ==== Proof.RefTerms.lean ====
/-
  The plain program's gates as array terms of its twelve arguments, stage by stage: the slices of the weight
  arrays, a bias row stretched over the nodes, the Chebyshev sum h θ0 + T1 θ1 + T2 θ2 + bias with
  T2 = 2 (A2 + D T1) - h, each gate's pre-activation x W + cheb, the logistic function written 1 / (1 + e^(-z)), and
  the three results: the new cell state F c + I T, the new hidden state O tanh(Cn), and max(Hn, 0) lw + lb.
-/
import proofs.«138098_j15135464751774_2_alg».proof.Proof.RefProp

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The product of a node array with a 64 x 64 weight. -/
def nodeDot (l : (⟨S50000x64, .f32⟩ : BufTy).Contents (Elt F)) (r : (⟨S64x64, .f32⟩ : BufTy).Contents (Elt F)) : (⟨S50000x64, .f32⟩ : BufTy).Contents (Elt F) :=
  Host.dotGeneral dot_S50000x64_S64x64_S50000x64_1_0_0_1_n_n none l r

/-- 1 / (1 + e^(-z)), entry by entry. -/
def sigm (z : (⟨S50000x64, .f32⟩ : BufTy).Contents (Elt F)) : (⟨S50000x64, .f32⟩ : BufTy).Contents (Elt F) :=
  Host.divf (broadcastInDim S50000x64 ![] bcast_S_S50000x64 (constant S_ .f32 0x3F800000#32)) (addf (broadcastInDim S50000x64 ![] bcast_S_S50000x64 (constant S_ .f32 0x3F800000#32)) (Host.exp (Host.negf z)))

/-- A vector of 64 entries repeated on every node. -/
def overNodes (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The second Chebyshev term 2 (A2 + D T1) - h. -/
def chebT2 (a1 : (⟨S2x1600000, .i32⟩ : BufTy).Contents (Elt F)) (a2 : (⟨S1600000, .f32⟩ : BufTy).Contents (Elt F)) (a3 : (⟨S50000x64, .f32⟩ : BufTy).Contents (Elt F)) : (⟨S50000x64, .f32⟩ : BufTy).Contents (Elt F) :=
  subf (mulf (broadcastInDim S50000x64 ![] bcast_S_S50000x64 (constant S_ .f32 0x40000000#32)) (addf (edgeSum2 a1 a2 a3) (mulf (broadcastInDim S50000x64 ![0, 1] bcast_S50000x1_S50000x64_0_1 (lapDiagCol a1 a2)) (prop1 a1 a2 a3)))) a3

/-- Gate 0's input weight. -/
def wx0 (a5 : (⟨S4x64x64, .f32⟩ : BufTy).Contents (Elt F)) : (⟨S64x64, .f32⟩ : BufTy).Contents (Elt F) :=
  shapeCast _ (extractStridedSlice S1x64x64 ![0, 0, 0] a5 slices_S4x64x64_S1x64x64_0_0_0) shapeCasts_S1x64x64_S64x64
/-- Gate 0's three Chebyshev weights. -/
def th0 (a8 : (⟨S4x3x64x64, .f32⟩ : BufTy).Contents (Elt F)) : (⟨S3x64x64, .f32⟩ : BufTy).Contents (Elt F) :=
  shapeCast _ (extractStridedSlice S1x3x64x64 ![0, 0, 0, 0] a8 slices_S4x3x64x64_S1x3x64x64_0_0_0_0) shapeCasts_S1x3x64x64_S3x64x64
def th0_0 (a8 : (⟨S4x3x64x64, .f32⟩ : BufTy).Contents (Elt F)) : (⟨S64x64, .f32⟩ : BufTy).Contents (Elt F) :=
  shapeCast _ (extractStridedSlice S1x64x64 ![0, 0, 0] (th0 a8) slices_S3x64x64_S1x64x64_0_0_0) shapeCasts_S1x64x64_S64x64
def th0_1 (a8 : (⟨S4x3x64x64, .f32⟩ : BufTy).Contents (Elt F)) : (⟨S64x64, .f32⟩ : BufTy).Contents (Elt F) :=
  shapeCast _ (extractStridedSlice S1x64x64 ![1, 0, 0] (th0 a8) slices_S3x64x64_S1x64x64_1_0_0) shapeCasts_S1x64x64_S64x64
def th0_2 (a8 : (⟨S4x3x64x64, .f32⟩ : BufTy).Contents (Elt F)) : (⟨S64x64, .f32⟩ : BufTy).Contents (Elt F) :=
  shapeCast _ (extractStridedSlice S1x64x64 ![2, 0, 0] (th0 a8) slices_S3x64x64_S1x64x64_2_0_0) shapeCasts_S1x64x64_S64x64
/-- Row 0 of a [4, 64] bias. -/
def row4_0 (v : (⟨S4x64, .f32⟩ : BufTy).Contents (Elt F)) : (⟨S64, .f32⟩ : BufTy).Contents (Elt F) :=
  shapeCast _ (extractStridedSlice S1x64 ![0, 0] v slices_S4x64_S1x64_0_0) shapeCasts_S1x64_S64
/-- Gate 0's Chebyshev sum with its bias. -/
def cheb0 (a1 : (⟨S2x1600000, .i32⟩ : BufTy).Contents (Elt F)) (a2 : (⟨S1600000, .f32⟩ : BufTy).Contents (Elt F)) (a3 : (⟨S50000x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (addf (addf (nodeDot a3 (th0_0 a8)) (nodeDot (prop1 a1 a2 a3) (th0_1 a8))) (nodeDot (chebT2 a1 a2 a3) (th0_2 a8))) (overNodes (row4_0 a9))
/-- Gate 0's pre-activation before peephole and gate bias. -/
def pre0 (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a5 : (⟨S4x64x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (nodeDot a0 (wx0 a5)) (cheb0 a1 a2 a3 a8 a9)

/-- Gate 1's input weight. -/
def wx1 (a5 : (⟨S4x64x64, .f32⟩ : BufTy).Contents (Elt F)) : (⟨S64x64, .f32⟩ : BufTy).Contents (Elt F) :=
  shapeCast _ (extractStridedSlice S1x64x64 ![1, 0, 0] a5 slices_S4x64x64_S1x64x64_1_0_0) shapeCasts_S1x64x64_S64x64
/-- Gate 1's three Chebyshev weights. -/
def th1 (a8 : (⟨S4x3x64x64, .f32⟩ : BufTy).Contents (Elt F)) : (⟨S3x64x64, .f32⟩ : BufTy).Contents (Elt F) :=
  shapeCast _ (extractStridedSlice S1x3x64x64 ![1, 0, 0, 0] a8 slices_S4x3x64x64_S1x3x64x64_1_0_0_0) shapeCasts_S1x3x64x64_S3x64x64
def th1_0 (a8 : (⟨S4x3x64x64, .f32⟩ : BufTy).Contents (Elt F)) : (⟨S64x64, .f32⟩ : BufTy).Contents (Elt F) :=
  shapeCast _ (extractStridedSlice S1x64x64 ![0, 0, 0] (th1 a8) slices_S3x64x64_S1x64x64_0_0_0) shapeCasts_S1x64x64_S64x64
def th1_1 (a8 : (⟨S4x3x64x64, .f32⟩ : BufTy).Contents (Elt F)) : (⟨S64x64, .f32⟩ : BufTy).Contents (Elt F) :=
  shapeCast _ (extractStridedSlice S1x64x64 ![1, 0, 0] (th1 a8) slices_S3x64x64_S1x64x64_1_0_0) shapeCasts_S1x64x64_S64x64
def th1_2 (a8 : (⟨S4x3x64x64, .f32⟩ : BufTy).Contents (Elt F)) : (⟨S64x64, .f32⟩ : BufTy).Contents (Elt F) :=
  shapeCast _ (extractStridedSlice S1x64x64 ![2, 0, 0] (th1 a8) slices_S3x64x64_S1x64x64_2_0_0) shapeCasts_S1x64x64_S64x64
/-- Row 1 of a [4, 64] bias. -/
def row4_1 (v : (⟨S4x64, .f32⟩ : BufTy).Contents (Elt F)) : (⟨S64, .f32⟩ : BufTy).Contents (Elt F) :=
  shapeCast _ (extractStridedSlice S1x64 ![1, 0] v slices_S4x64_S1x64_1_0) shapeCasts_S1x64_S64
/-- Gate 1's Chebyshev sum with its bias. -/
def cheb1 (a1 : (⟨S2x1600000, .i32⟩ : BufTy).Contents (Elt F)) (a2 : (⟨S1600000, .f32⟩ : BufTy).Contents (Elt F)) (a3 : (⟨S50000x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (addf (addf (nodeDot a3 (th1_0 a8)) (nodeDot (prop1 a1 a2 a3) (th1_1 a8))) (nodeDot (chebT2 a1 a2 a3) (th1_2 a8))) (overNodes (row4_1 a9))
/-- Gate 1's pre-activation before peephole and gate bias. -/
def pre1 (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a5 : (⟨S4x64x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (nodeDot a0 (wx1 a5)) (cheb1 a1 a2 a3 a8 a9)

/-- Gate 2's input weight. -/
def wx2 (a5 : (⟨S4x64x64, .f32⟩ : BufTy).Contents (Elt F)) : (⟨S64x64, .f32⟩ : BufTy).Contents (Elt F) :=
  shapeCast _ (extractStridedSlice S1x64x64 ![2, 0, 0] a5 slices_S4x64x64_S1x64x64_2_0_0) shapeCasts_S1x64x64_S64x64
/-- Gate 2's three Chebyshev weights. -/
def th2 (a8 : (⟨S4x3x64x64, .f32⟩ : BufTy).Contents (Elt F)) : (⟨S3x64x64, .f32⟩ : BufTy).Contents (Elt F) :=
  shapeCast _ (extractStridedSlice S1x3x64x64 ![2, 0, 0, 0] a8 slices_S4x3x64x64_S1x3x64x64_2_0_0_0) shapeCasts_S1x3x64x64_S3x64x64
def th2_0 (a8 : (⟨S4x3x64x64, .f32⟩ : BufTy).Contents (Elt F)) : (⟨S64x64, .f32⟩ : BufTy).Contents (Elt F) :=
  shapeCast _ (extractStridedSlice S1x64x64 ![0, 0, 0] (th2 a8) slices_S3x64x64_S1x64x64_0_0_0) shapeCasts_S1x64x64_S64x64
def th2_1 (a8 : (⟨S4x3x64x64, .f32⟩ : BufTy).Contents (Elt F)) : (⟨S64x64, .f32⟩ : BufTy).Contents (Elt F) :=
  shapeCast _ (extractStridedSlice S1x64x64 ![1, 0, 0] (th2 a8) slices_S3x64x64_S1x64x64_1_0_0) shapeCasts_S1x64x64_S64x64
def th2_2 (a8 : (⟨S4x3x64x64, .f32⟩ : BufTy).Contents (Elt F)) : (⟨S64x64, .f32⟩ : BufTy).Contents (Elt F) :=
  shapeCast _ (extractStridedSlice S1x64x64 ![2, 0, 0] (th2 a8) slices_S3x64x64_S1x64x64_2_0_0) shapeCasts_S1x64x64_S64x64
/-- Row 2 of a [4, 64] bias. -/
def row4_2 (v : (⟨S4x64, .f32⟩ : BufTy).Contents (Elt F)) : (⟨S64, .f32⟩ : BufTy).Contents (Elt F) :=
  shapeCast _ (extractStridedSlice S1x64 ![2, 0] v slices_S4x64_S1x64_2_0) shapeCasts_S1x64_S64
/-- Gate 2's Chebyshev sum with its bias. -/
def cheb2 (a1 : (⟨S2x1600000, .i32⟩ : BufTy).Contents (Elt F)) (a2 : (⟨S1600000, .f32⟩ : BufTy).Contents (Elt F)) (a3 : (⟨S50000x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (addf (addf (nodeDot a3 (th2_0 a8)) (nodeDot (prop1 a1 a2 a3) (th2_1 a8))) (nodeDot (chebT2 a1 a2 a3) (th2_2 a8))) (overNodes (row4_2 a9))
/-- Gate 2's pre-activation before peephole and gate bias. -/
def pre2 (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a5 : (⟨S4x64x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (nodeDot a0 (wx2 a5)) (cheb2 a1 a2 a3 a8 a9)

/-- Gate 3's input weight. -/
def wx3 (a5 : (⟨S4x64x64, .f32⟩ : BufTy).Contents (Elt F)) : (⟨S64x64, .f32⟩ : BufTy).Contents (Elt F) :=
  shapeCast _ (extractStridedSlice S1x64x64 ![3, 0, 0] a5 slices_S4x64x64_S1x64x64_3_0_0) shapeCasts_S1x64x64_S64x64
/-- Gate 3's three Chebyshev weights. -/
def th3 (a8 : (⟨S4x3x64x64, .f32⟩ : BufTy).Contents (Elt F)) : (⟨S3x64x64, .f32⟩ : BufTy).Contents (Elt F) :=
  shapeCast _ (extractStridedSlice S1x3x64x64 ![3, 0, 0, 0] a8 slices_S4x3x64x64_S1x3x64x64_3_0_0_0) shapeCasts_S1x3x64x64_S3x64x64
def th3_0 (a8 : (⟨S4x3x64x64, .f32⟩ : BufTy).Contents (Elt F)) : (⟨S64x64, .f32⟩ : BufTy).Contents (Elt F) :=
  shapeCast _ (extractStridedSlice S1x64x64 ![0, 0, 0] (th3 a8) slices_S3x64x64_S1x64x64_0_0_0) shapeCasts_S1x64x64_S64x64
def th3_1 (a8 : (⟨S4x3x64x64, .f32⟩ : BufTy).Contents (Elt F)) : (⟨S64x64, .f32⟩ : BufTy).Contents (Elt F) :=
  shapeCast _ (extractStridedSlice S1x64x64 ![1, 0, 0] (th3 a8) slices_S3x64x64_S1x64x64_1_0_0) shapeCasts_S1x64x64_S64x64
def th3_2 (a8 : (⟨S4x3x64x64, .f32⟩ : BufTy).Contents (Elt F)) : (⟨S64x64, .f32⟩ : BufTy).Contents (Elt F) :=
  shapeCast _ (extractStridedSlice S1x64x64 ![2, 0, 0] (th3 a8) slices_S3x64x64_S1x64x64_2_0_0) shapeCasts_S1x64x64_S64x64
/-- Row 3 of a [4, 64] bias. -/
def row4_3 (v : (⟨S4x64, .f32⟩ : BufTy).Contents (Elt F)) : (⟨S64, .f32⟩ : BufTy).Contents (Elt F) :=
  shapeCast _ (extractStridedSlice S1x64 ![3, 0] v slices_S4x64_S1x64_3_0) shapeCasts_S1x64_S64
/-- Gate 3's Chebyshev sum with its bias. -/
def cheb3 (a1 : (⟨S2x1600000, .i32⟩ : BufTy).Contents (Elt F)) (a2 : (⟨S1600000, .f32⟩ : BufTy).Contents (Elt F)) (a3 : (⟨S50000x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (addf (addf (nodeDot a3 (th3_0 a8)) (nodeDot (prop1 a1 a2 a3) (th3_1 a8))) (nodeDot (chebT2 a1 a2 a3) (th3_2 a8))) (overNodes (row4_3 a9))
/-- Gate 3's pre-activation before peephole and gate bias. -/
def pre3 (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a5 : (⟨S4x64x64, .f32⟩ : BufTy).Contents (Elt F)) (a8 : (⟨S4x3x64x64, .f32⟩ : BufTy).Contents (Elt F)) (a9 : (⟨S4x64, .f32⟩ : BufTy).Contents (Elt F)) : (⟨S50000x64, .f32⟩ : BufTy).Contents (Elt F) :=
  addf (nodeDot a0 (wx3 a5)) (cheb3 a1 a2 a3 a8 a9)
/-- Row 0 of the [3, 64] peephole weights. -/
def row3_0 (v : (⟨S3x64, .f32⟩ : BufTy).Contents (Elt F)) : (⟨S64, .f32⟩ : BufTy).Contents (Elt F) :=
  shapeCast _ (extractStridedSlice S1x64 ![0, 0] v slices_S3x64_S1x64_0_0) shapeCasts_S1x64_S64
/-- Row 1 of the [3, 64] peephole weights. -/
def row3_1 (v : (⟨S3x64, .f32⟩ : BufTy).Contents (Elt F)) : (⟨S64, .f32⟩ : BufTy).Contents (Elt F) :=
  shapeCast _ (extractStridedSlice S1x64 ![1, 0] v slices_S3x64_S1x64_1_0) shapeCasts_S1x64_S64
/-- Row 2 of the [3, 64] peephole weights. -/
def row3_2 (v : (⟨S3x64, .f32⟩ : BufTy).Contents (Elt F)) : (⟨S64, .f32⟩ : BufTy).Contents (Elt F) :=
  shapeCast _ (extractStridedSlice S1x64 ![2, 0] v slices_S3x64_S1x64_2_0) shapeCasts_S1x64_S64

/-- The input gate. -/
def gI (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  sigm (addf (addf (pre0 a0 a1 a2 a3 a5 a8 a9) (mulf (overNodes (row3_0 a6)) a4)) (overNodes (row4_0 a7)))
/-- The forget gate. -/
def gF (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  sigm (addf (addf (pre1 a0 a1 a2 a3 a5 a8 a9) (mulf (overNodes (row3_1 a6)) a4)) (overNodes (row4_1 a7)))
/-- The cell candidate. -/
def gT (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  Host.tanh (addf (pre2 a0 a1 a2 a3 a5 a8 a9) (overNodes (row4_2 a7)))
/-- The new cell state F c + I T. -/
def cellNew (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  addf (mulf (gF a0 a1 a2 a3 a4 a5 a6 a7 a8 a9 a10 a11) a4) (mulf (gI a0 a1 a2 a3 a4 a5 a6 a7 a8 a9 a10 a11) (gT a0 a1 a2 a3 a4 a5 a6 a7 a8 a9 a10 a11))
/-- The output gate. -/
def gO (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  sigm (addf (addf (pre3 a0 a1 a2 a3 a5 a8 a9) (mulf (overNodes (row3_2 a6)) (cellNew a0 a1 a2 a3 a4 a5 a6 a7 a8 a9 a10 a11))) (overNodes (row4_3 a7)))
/-- The new hidden state O tanh(Cn). -/
def hiddenNew (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  mulf (gO a0 a1 a2 a3 a4 a5 a6 a7 a8 a9 a10 a11) (Host.tanh (cellNew a0 a1 a2 a3 a4 a5 a6 a7 a8 a9 a10 a11))
/-- The projected output max(Hn, 0) lw + lb. -/
def projected (a0 : (⟨S50000x64, .f32⟩ : BufTy).Contents (Elt F)) (a1 : (⟨S2x1600000, .i32⟩ : BufTy).Contents (Elt F)) (a2 : (⟨S1600000, .f32⟩ : BufTy).Contents (Elt F)) (a3 : (⟨S50000x64, .f32⟩ : BufTy).Contents (Elt F)) (a4 : (⟨S50000x64, .f32⟩ : BufTy).Contents (Elt F)) (a5 : (⟨S4x64x64, .f32⟩ : BufTy).Contents (Elt F)) (a6 : (⟨S3x64, .f32⟩ : BufTy).Contents (Elt F)) (a7 : (⟨S4x64, .f32⟩ : BufTy).Contents (Elt F)) (a8 : (⟨S4x3x64x64, .f32⟩ : BufTy).Contents (Elt F)) (a9 : (⟨S4x64, .f32⟩ : BufTy).Contents (Elt F)) (a10 : (⟨S64x64, .f32⟩ : BufTy).Contents (Elt F)) (a11 : (⟨S64, .f32⟩ : BufTy).Contents (Elt F)) : (⟨S50000x64, .f32⟩ : BufTy).Contents (Elt F) :=
  addf (nodeDot (maximumf (hiddenNew a0 a1 a2 a3 a4 a5 a6 a7 a8 a9 a10 a11) (broadcastInDim S50000x64 ![] bcast_S_S50000x64 (constant S_ .f32 0x00000000#32))) a10) (overNodes a11)

end Cert.ReferenceIdeal.Hand

end
-- ==== Proof.RefRunOut0.lean ====
/-
  The plain array program's fold, read at the projected output: the fold of the 383 operations' results over the launch memory, at
  that buffer, is the staged term of the twelve arguments, by unfolding.
-/
import proofs.«138098_j15135464751774_2_alg».proof.Proof.RefOps
import proofs.«138098_j15135464751774_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- After the operations, the buffer of the projected output holds its staged term of the arguments. -/
theorem fold_projected (m : (ℓ : Loc nD τ sig) → Buf (Elt F) ℓ) (c : Dev nD) :
    after ops (launchContents m c) (Proc.devRef .tc main_v335) = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  after_results_simp <;> rfl

end Cert.ReferenceIdeal.Hand

end
-- ==== Proof.RefRunOut1.lean ====
/-
  The plain array program's fold, read at the new hidden state: the fold of the 383 operations' results over the launch memory, at
  that buffer, is the staged term of the twelve arguments, by unfolding.
-/
import proofs.«138098_j15135464751774_2_alg».proof.Proof.RefOps
import proofs.«138098_j15135464751774_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- After the operations, the buffer of the new hidden state holds its staged term of the arguments. -/
theorem fold_hidden (m : (ℓ : Loc nD τ sig) → Buf (Elt F) ℓ) (c : Dev nD) :
    after ops (launchContents m c) (Proc.devRef .tc main_v330) = hiddenNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  after_results_simp <;> rfl

end Cert.ReferenceIdeal.Hand

end
-- ==== Proof.RefRunOut2.lean ====
/-
  The plain array program's fold, read at the new cell state: the fold of the 383 operations' results over the launch memory, at
  that buffer, is the staged term of the twelve arguments, by unfolding.
-/
import proofs.«138098_j15135464751774_2_alg».proof.Proof.RefOps
import proofs.«138098_j15135464751774_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- After the operations, the buffer of the new cell state holds its staged term of the arguments. -/
theorem fold_cell (m : (ℓ : Loc nD τ sig) → Buf (Elt F) ℓ) (c : Dev nD) :
    after ops (launchContents m c) (Proc.devRef .tc main_v252) = cellNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  after_results_simp <;> rfl

end Cert.ReferenceIdeal.Hand

end
-- ==== Proof.RefRunArgs.lean ====
/-
  The plain array program writes none of its twelve arguments: each operation writes only its own result buffer, a
  buffer different from every argument, so the fold of the operations' results leaves each argument as launched.
-/
import proofs.«138098_j15135464751774_2_alg».proof.Proof.RefOps
import proofs.«138098_j15135464751774_2_alg».proof.Proof.RefTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 400000000 in
/-- No operation writes argument 0: it ends as launched. -/
theorem fold_arg0 (m : (ℓ : Loc nD τ sig) → Buf (Elt F) ℓ) (c : Dev nD) :
    after ops (launchContents m c) (Proc.devRef .tc main_arg0) = m ((c.tc : Thread nD τ).loc main_arg0) :=
  StableHlo.after_of_forall_not_mem (b := Proc.devRef .tc main_arg0) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 1: it ends as launched. -/
theorem fold_arg1 (m : (ℓ : Loc nD τ sig) → Buf (Elt F) ℓ) (c : Dev nD) :
    after ops (launchContents m c) (Proc.devRef .tc main_arg1) = m ((c.tc : Thread nD τ).loc main_arg1) :=
  StableHlo.after_of_forall_not_mem (b := Proc.devRef .tc main_arg1) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 2: it ends as launched. -/
theorem fold_arg2 (m : (ℓ : Loc nD τ sig) → Buf (Elt F) ℓ) (c : Dev nD) :
    after ops (launchContents m c) (Proc.devRef .tc main_arg2) = m ((c.tc : Thread nD τ).loc main_arg2) :=
  StableHlo.after_of_forall_not_mem (b := Proc.devRef .tc main_arg2) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 3: it ends as launched. -/
theorem fold_arg3 (m : (ℓ : Loc nD τ sig) → Buf (Elt F) ℓ) (c : Dev nD) :
    after ops (launchContents m c) (Proc.devRef .tc main_arg3) = m ((c.tc : Thread nD τ).loc main_arg3) :=
  StableHlo.after_of_forall_not_mem (b := Proc.devRef .tc main_arg3) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 4: it ends as launched. -/
theorem fold_arg4 (m : (ℓ : Loc nD τ sig) → Buf (Elt F) ℓ) (c : Dev nD) :
    after ops (launchContents m c) (Proc.devRef .tc main_arg4) = m ((c.tc : Thread nD τ).loc main_arg4) :=
  StableHlo.after_of_forall_not_mem (b := Proc.devRef .tc main_arg4) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 5: it ends as launched. -/
theorem fold_arg5 (m : (ℓ : Loc nD τ sig) → Buf (Elt F) ℓ) (c : Dev nD) :
    after ops (launchContents m c) (Proc.devRef .tc main_arg5) = m ((c.tc : Thread nD τ).loc main_arg5) :=
  StableHlo.after_of_forall_not_mem (b := Proc.devRef .tc main_arg5) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 6: it ends as launched. -/
theorem fold_arg6 (m : (ℓ : Loc nD τ sig) → Buf (Elt F) ℓ) (c : Dev nD) :
    after ops (launchContents m c) (Proc.devRef .tc main_arg6) = m ((c.tc : Thread nD τ).loc main_arg6) :=
  StableHlo.after_of_forall_not_mem (b := Proc.devRef .tc main_arg6) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 7: it ends as launched. -/
theorem fold_arg7 (m : (ℓ : Loc nD τ sig) → Buf (Elt F) ℓ) (c : Dev nD) :
    after ops (launchContents m c) (Proc.devRef .tc main_arg7) = m ((c.tc : Thread nD τ).loc main_arg7) :=
  StableHlo.after_of_forall_not_mem (b := Proc.devRef .tc main_arg7) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 8: it ends as launched. -/
theorem fold_arg8 (m : (ℓ : Loc nD τ sig) → Buf (Elt F) ℓ) (c : Dev nD) :
    after ops (launchContents m c) (Proc.devRef .tc main_arg8) = m ((c.tc : Thread nD τ).loc main_arg8) :=
  StableHlo.after_of_forall_not_mem (b := Proc.devRef .tc main_arg8) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 9: it ends as launched. -/
theorem fold_arg9 (m : (ℓ : Loc nD τ sig) → Buf (Elt F) ℓ) (c : Dev nD) :
    after ops (launchContents m c) (Proc.devRef .tc main_arg9) = m ((c.tc : Thread nD τ).loc main_arg9) :=
  StableHlo.after_of_forall_not_mem (b := Proc.devRef .tc main_arg9) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 10: it ends as launched. -/
theorem fold_arg10 (m : (ℓ : Loc nD τ sig) → Buf (Elt F) ℓ) (c : Dev nD) :
    after ops (launchContents m c) (Proc.devRef .tc main_arg10) = m ((c.tc : Thread nD τ).loc main_arg10) :=
  StableHlo.after_of_forall_not_mem (b := Proc.devRef .tc main_arg10) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

set_option maxRecDepth 16384 in
set_option maxHeartbeats 400000000 in
/-- No operation writes argument 11: it ends as launched. -/
theorem fold_arg11 (m : (ℓ : Loc nD τ sig) → Buf (Elt F) ℓ) (c : Dev nD) :
    after ops (launchContents m c) (Proc.devRef .tc main_arg11) = m ((c.tc : Thread nD τ).loc main_arg11) :=
  StableHlo.after_of_forall_not_mem (b := Proc.devRef .tc main_arg11) _ _ (List.forall_iff_forall_mem.mp (by
    simp only [ops, StableHlo.TRef.nullary, StableHlo.TRef.unary, StableHlo.TRef.binary, StableHlo.TRef.ternary, List.Forall,
      StableHlo.nullary_writes, StableHlo.unary_writes, StableHlo.binary_writes, StableHlo.ternary_writes, StableHlo.reshape_writes, Finset.mem_singleton]
    repeat' apply And.intro
    all_goals exact StableHlo.devRef_ne_of_ne (by decide)))

end Cert.ReferenceIdeal.Hand

end
-- ==== Proof.RefRun.lean ====
/-
  The plain array program's run, read back at its three results: every weakly fair execution ends with the
  projected output, the new hidden state and the new cell state at the staged terms of the twelve arguments, and the
  arguments as launched. Each buffer ends at the fold of the operations' results; the fold at each of the fifteen
  buffers is read in a module of its own.
-/
import proofs.«138098_j15135464751774_2_alg».proof.Proof.RefOps
import proofs.«138098_j15135464751774_2_alg».proof.Proof.RefTerms
import proofs.«138098_j15135464751774_2_alg».proof.Proof.RefRunOut0
import proofs.«138098_j15135464751774_2_alg».proof.Proof.RefRunOut1
import proofs.«138098_j15135464751774_2_alg».proof.Proof.RefRunOut2
import proofs.«138098_j15135464751774_2_alg».proof.Proof.RefRunArgs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of @main terminates with each result at its staged term of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v335) = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v330) = hiddenNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v252) = cellNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v335).trans (fold_projected m c),
      (h c main_v330).trans (fold_hidden m c),
      (h c main_v252).trans (fold_cell m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c),
      (h c main_arg11).trans (fold_arg11 m c)⟩)
    (ran m ρ)

end Cert.ReferenceIdeal.Hand

end
-- ==== Proof.RefRead.lean ====
/-
  The plain program's gates read entry by entry.

  A block of a weight array along its first axis, flattened, reads the array at that block's coordinates; a bias row
  repeated on every node reads its entry; the product of a node array with a 64 x 64 weight at (r, j) is the sum over l
  of X(r, l) W(l, j); the second Chebyshev term at (r, l) is 2 (A2(r, l) + D(r) T1(r, l)) - h(r, l); the entrywise
  1 / (1 + e^(-z)) is the logistic function. With these, each gate's pre-activation, the input, forget and output
  gates, the cell candidate, the new cell state, the new hidden state and the projected output are, at every node r
  and unit j, the values of the index-by-index specification at the arrays read off the program's twelve arguments,
  the first propagation, the edge sum of the second and the Laplacian's diagonal entering as whole arrays.
-/
import proofs.«138098_j15135464751774_2_alg».proof.Proof.RefTerms
import proofs.«138098_j15135464751774_2_alg».proof.Proof.GateSpec
import proofs.«138098_j15135464751774_2_alg».proof.Proof.LibHostRows
import proofs.«138098_j15135464751774_2_alg».proof.Proof.LibRealClosure
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

/-! ## Layout operations at an index, over any extents -/

section Layout
variable {α : Type} {n0 n1 n2 n3 : ℕ}

/-- Row `K` of an [n0, n1] array, cut out as a [1, n1] block and flattened: entry b is the array's entry (K, b). -/
theorem slab2_read (K : ℕ) (hK : K < n0)
    (hs : (⟨2, ![n0, n1]⟩ : Shape).Slices ![K, 0] ⟨2, ![1, n1]⟩)
    (hc : (⟨2, ![1, n1]⟩ : Shape).ShapeCasts ⟨1, ![n1]⟩)
    (x : (⟨2, ![n0, n1]⟩ : Shape).Idx → α) (b : Fin n1) :
    shapeCast ⟨1, ![n1]⟩ (extractStridedSlice ⟨2, ![1, n1]⟩ ![K, 0] x hs) hc (ix1 b) = x (ix2 ⟨K, hK⟩ b) := by
  refine (shapeCast_apply _ hc (ix1 b) (ix2 (0 : Fin 1) b) ?_).trans ?_
  · rw [Shape.rowMajor_val_two, Shape.rowMajor_val_one]
    show 0 * n1 + b.val = b.val
    rw [Nat.zero_mul, Nat.zero_add]
  · refine extractStridedSlice_apply _ x hs _ _ fun a => ?_
    match a with
    | ⟨0, _⟩ => rfl
    | ⟨1, _⟩ => exact (Nat.zero_add _).symm

/-- Block `K` of an [n0, n1, n2] array along its first axis, as an [n1, n2] matrix. -/
theorem slab3_read (K : ℕ) (hK : K < n0)
    (hs : (⟨3, ![n0, n1, n2]⟩ : Shape).Slices ![K, 0, 0] ⟨3, ![1, n1, n2]⟩)
    (hc : (⟨3, ![1, n1, n2]⟩ : Shape).ShapeCasts ⟨2, ![n1, n2]⟩)
    (x : (⟨3, ![n0, n1, n2]⟩ : Shape).Idx → α) (a : Fin n1) (b : Fin n2) :
    shapeCast ⟨2, ![n1, n2]⟩ (extractStridedSlice ⟨3, ![1, n1, n2]⟩ ![K, 0, 0] x hs) hc (ix2 a b) = x (ix3 ⟨K, hK⟩ a b) := by
  refine (shapeCast_apply _ hc (ix2 a b) (ix3 (0 : Fin 1) a b) ?_).trans ?_
  · rw [Shape.rowMajor_val_three, Shape.rowMajor_val_two]
    show (0 * n1 + a.val) * n2 + b.val = a.val * n2 + b.val
    rw [Nat.zero_mul, Nat.zero_add]
  · refine extractStridedSlice_apply _ x hs _ _ fun c => ?_
    match c with
    | ⟨0, _⟩ => rfl
    | ⟨1, _⟩ => exact (Nat.zero_add _).symm
    | ⟨2, _⟩ => exact (Nat.zero_add _).symm

/-- Block `K` of an [n0, n1, n2, n3] array along its first axis, as an [n1, n2, n3] array. -/
theorem slab4_read (K : ℕ) (hK : K < n0)
    (hs : (⟨4, ![n0, n1, n2, n3]⟩ : Shape).Slices ![K, 0, 0, 0] ⟨4, ![1, n1, n2, n3]⟩)
    (hc : (⟨4, ![1, n1, n2, n3]⟩ : Shape).ShapeCasts ⟨3, ![n1, n2, n3]⟩)
    (x : (⟨4, ![n0, n1, n2, n3]⟩ : Shape).Idx → α) (a : Fin n1) (b : Fin n2) (c : Fin n3) :
    shapeCast ⟨3, ![n1, n2, n3]⟩ (extractStridedSlice ⟨4, ![1, n1, n2, n3]⟩ ![K, 0, 0, 0] x hs) hc (ix3 a b c)
      = x (ix4 ⟨K, hK⟩ a b c) := by
  refine (shapeCast_apply _ hc (ix3 a b c) (ix4 (0 : Fin 1) a b c) ?_).trans ?_
  · rw [Shape.rowMajor_val_four, Shape.rowMajor_val_three]
    show ((0 * n1 + a.val) * n2 + b.val) * n3 + c.val = (a.val * n2 + b.val) * n3 + c.val
    rw [Nat.zero_mul, Nat.zero_add]
  · refine extractStridedSlice_apply _ x hs _ _ fun e => ?_
    match e with
    | ⟨0, _⟩ => rfl
    | ⟨1, _⟩ => exact (Nat.zero_add _).symm
    | ⟨2, _⟩ => exact (Nat.zero_add _).symm
    | ⟨3, _⟩ => exact (Nat.zero_add _).symm

/-- A scalar stretched over an [n0, n1] array reads the scalar. -/
theorem bcast_scalar2 (h : (⟨0, ![]⟩ : Shape).BroadcastsInDim ⟨2, ![n0, n1]⟩ (![] : Fin 0 → Fin 2))
    (c : (⟨0, ![]⟩ : Shape).Idx → α) (a : Fin n0) (b : Fin n1) :
    broadcastInDim ⟨2, ![n0, n1]⟩ (![] : Fin 0 → Fin 2) h c (ix2 a b) = c ix0 :=
  broadcastInDim_apply _ h c _ _ fun d => d.elim0

end Layout

/-! ## The weight blocks and bias rows -/

section Weights
variable {F : FTy → Type} [FloatOps F]

theorem wx0_read (a5 : (⟨S4x64x64, .f32⟩ : BufTy).Contents (Elt F)) (l j : Fin 64) : wx0 (F := F) a5 (ix2 l j) = a5 (ix3 0 l j) :=
  slab3_read 0 (by decide) _ _ a5 l j
theorem th0_read (a8 : (⟨S4x3x64x64, .f32⟩ : BufTy).Contents (Elt F)) (q : Fin 3) (l j : Fin 64) : th0 (F := F) a8 (ix3 q l j) = a8 (ix4 0 q l j) :=
  slab4_read 0 (by decide) _ _ a8 q l j
theorem th0_0_read (a8 : (⟨S4x3x64x64, .f32⟩ : BufTy).Contents (Elt F)) (l j : Fin 64) : th0_0 (F := F) a8 (ix2 l j) = a8 (ix4 0 0 l j) :=
  (slab3_read 0 (by decide) _ _ (th0 (F := F) a8) l j).trans (th0_read a8 0 l j)
theorem th0_1_read (a8 : (⟨S4x3x64x64, .f32⟩ : BufTy).Contents (Elt F)) (l j : Fin 64) : th0_1 (F := F) a8 (ix2 l j) = a8 (ix4 0 1 l j) :=
  (slab3_read 1 (by decide) _ _ (th0 (F := F) a8) l j).trans (th0_read a8 1 l j)
theorem th0_2_read (a8 : (⟨S4x3x64x64, .f32⟩ : BufTy).Contents (Elt F)) (l j : Fin 64) : th0_2 (F := F) a8 (ix2 l j) = a8 (ix4 0 2 l j) :=
  (slab3_read 2 (by decide) _ _ (th0 (F := F) a8) l j).trans (th0_read a8 2 l j)
theorem row4_0_read (v : (⟨S4x64, .f32⟩ : BufTy).Contents (Elt F)) (j : Fin 64) : row4_0 (F := F) v (ix1 j) = v (ix2 0 j) :=
  slab2_read 0 (by decide) _ _ v j

theorem wx1_read (a5 : (⟨S4x64x64, .f32⟩ : BufTy).Contents (Elt F)) (l j : Fin 64) : wx1 (F := F) a5 (ix2 l j) = a5 (ix3 1 l j) :=
  slab3_read 1 (by decide) _ _ a5 l j
theorem th1_read (a8 : (⟨S4x3x64x64, .f32⟩ : BufTy).Contents (Elt F)) (q : Fin 3) (l j : Fin 64) : th1 (F := F) a8 (ix3 q l j) = a8 (ix4 1 q l j) :=
  slab4_read 1 (by decide) _ _ a8 q l j
theorem th1_0_read (a8 : (⟨S4x3x64x64, .f32⟩ : BufTy).Contents (Elt F)) (l j : Fin 64) : th1_0 (F := F) a8 (ix2 l j) = a8 (ix4 1 0 l j) :=
  (slab3_read 0 (by decide) _ _ (th1 (F := F) a8) l j).trans (th1_read a8 0 l j)
theorem th1_1_read (a8 : (⟨S4x3x64x64, .f32⟩ : BufTy).Contents (Elt F)) (l j : Fin 64) : th1_1 (F := F) a8 (ix2 l j) = a8 (ix4 1 1 l j) :=
  (slab3_read 1 (by decide) _ _ (th1 (F := F) a8) l j).trans (th1_read a8 1 l j)
theorem th1_2_read (a8 : (⟨S4x3x64x64, .f32⟩ : BufTy).Contents (Elt F)) (l j : Fin 64) : th1_2 (F := F) a8 (ix2 l j) = a8 (ix4 1 2 l j) :=
  (slab3_read 2 (by decide) _ _ (th1 (F := F) a8) l j).trans (th1_read a8 2 l j)
theorem row4_1_read (v : (⟨S4x64, .f32⟩ : BufTy).Contents (Elt F)) (j : Fin 64) : row4_1 (F := F) v (ix1 j) = v (ix2 1 j) :=
  slab2_read 1 (by decide) _ _ v j

theorem wx2_read (a5 : (⟨S4x64x64, .f32⟩ : BufTy).Contents (Elt F)) (l j : Fin 64) : wx2 (F := F) a5 (ix2 l j) = a5 (ix3 2 l j) :=
  slab3_read 2 (by decide) _ _ a5 l j
theorem th2_read (a8 : (⟨S4x3x64x64, .f32⟩ : BufTy).Contents (Elt F)) (q : Fin 3) (l j : Fin 64) : th2 (F := F) a8 (ix3 q l j) = a8 (ix4 2 q l j) :=
  slab4_read 2 (by decide) _ _ a8 q l j
theorem th2_0_read (a8 : (⟨S4x3x64x64, .f32⟩ : BufTy).Contents (Elt F)) (l j : Fin 64) : th2_0 (F := F) a8 (ix2 l j) = a8 (ix4 2 0 l j) :=
  (slab3_read 0 (by decide) _ _ (th2 (F := F) a8) l j).trans (th2_read a8 0 l j)
theorem th2_1_read (a8 : (⟨S4x3x64x64, .f32⟩ : BufTy).Contents (Elt F)) (l j : Fin 64) : th2_1 (F := F) a8 (ix2 l j) = a8 (ix4 2 1 l j) :=
  (slab3_read 1 (by decide) _ _ (th2 (F := F) a8) l j).trans (th2_read a8 1 l j)
theorem th2_2_read (a8 : (⟨S4x3x64x64, .f32⟩ : BufTy).Contents (Elt F)) (l j : Fin 64) : th2_2 (F := F) a8 (ix2 l j) = a8 (ix4 2 2 l j) :=
  (slab3_read 2 (by decide) _ _ (th2 (F := F) a8) l j).trans (th2_read a8 2 l j)
theorem row4_2_read (v : (⟨S4x64, .f32⟩ : BufTy).Contents (Elt F)) (j : Fin 64) : row4_2 (F := F) v (ix1 j) = v (ix2 2 j) :=
  slab2_read 2 (by decide) _ _ v j

theorem wx3_read (a5 : (⟨S4x64x64, .f32⟩ : BufTy).Contents (Elt F)) (l j : Fin 64) : wx3 (F := F) a5 (ix2 l j) = a5 (ix3 3 l j) :=
  slab3_read 3 (by decide) _ _ a5 l j
theorem th3_read (a8 : (⟨S4x3x64x64, .f32⟩ : BufTy).Contents (Elt F)) (q : Fin 3) (l j : Fin 64) : th3 (F := F) a8 (ix3 q l j) = a8 (ix4 3 q l j) :=
  slab4_read 3 (by decide) _ _ a8 q l j
theorem th3_0_read (a8 : (⟨S4x3x64x64, .f32⟩ : BufTy).Contents (Elt F)) (l j : Fin 64) : th3_0 (F := F) a8 (ix2 l j) = a8 (ix4 3 0 l j) :=
  (slab3_read 0 (by decide) _ _ (th3 (F := F) a8) l j).trans (th3_read a8 0 l j)
theorem th3_1_read (a8 : (⟨S4x3x64x64, .f32⟩ : BufTy).Contents (Elt F)) (l j : Fin 64) : th3_1 (F := F) a8 (ix2 l j) = a8 (ix4 3 1 l j) :=
  (slab3_read 1 (by decide) _ _ (th3 (F := F) a8) l j).trans (th3_read a8 1 l j)
theorem th3_2_read (a8 : (⟨S4x3x64x64, .f32⟩ : BufTy).Contents (Elt F)) (l j : Fin 64) : th3_2 (F := F) a8 (ix2 l j) = a8 (ix4 3 2 l j) :=
  (slab3_read 2 (by decide) _ _ (th3 (F := F) a8) l j).trans (th3_read a8 2 l j)
theorem row4_3_read (v : (⟨S4x64, .f32⟩ : BufTy).Contents (Elt F)) (j : Fin 64) : row4_3 (F := F) v (ix1 j) = v (ix2 3 j) :=
  slab2_read 3 (by decide) _ _ v j

theorem row3_0_read (v : (⟨S3x64, .f32⟩ : BufTy).Contents (Elt F)) (j : Fin 64) : row3_0 (F := F) v (ix1 j) = v (ix2 0 j) :=
  slab2_read 0 (by decide) _ _ v j
theorem row3_1_read (v : (⟨S3x64, .f32⟩ : BufTy).Contents (Elt F)) (j : Fin 64) : row3_1 (F := F) v (ix1 j) = v (ix2 1 j) :=
  slab2_read 1 (by decide) _ _ v j
theorem row3_2_read (v : (⟨S3x64, .f32⟩ : BufTy).Contents (Elt F)) (j : Fin 64) : row3_2 (F := F) v (ix1 j) = v (ix2 2 j) :=
  slab2_read 2 (by decide) _ _ v j

/-- A vector of 64 entries repeated on every node reads its entry j at every (r, j). -/
theorem overNodes_read (v : (⟨S64, .f32⟩ : BufTy).Contents (Elt F)) (r : Fin 50000) (j : Fin 64) :
    overNodes (F := F) v (ix2 r j) = v (ix1 j) :=
  (Cert.Lib.HostRows.bcast_row bcast_S1x64_S50000x64_0_1 _ r j).trans (Cert.Lib.HostRows.bcast_vec_row bcast_S64_S1x64_1 v 0 j)

/-- The Laplacian's diagonal as a column reads the diagonal at its row. -/
theorem lapDiagCol_read (a1 : (⟨S2x1600000, .i32⟩ : BufTy).Contents (Elt F)) (a2 : (⟨S1600000, .f32⟩ : BufTy).Contents (Elt F)) (r : Fin 50000) (c : Fin 1) :
    lapDiagCol (F := F) a1 a2 (ix2 r c) = lapDiag (F := F) a1 a2 (ix1 r) :=
  Cert.Lib.HostRows.bcast_vec_col bcast_S50000_S50000x1_0 _ r c

end Weights

/-! ## The scalar constants stretched over the nodes -/

theorem bcastOne_read (r : Fin 50000) (j : Fin 64) :
    broadcastInDim S50000x64 ![] bcast_S_S50000x64 (constant (F := Ideal) S_ .f32 0x3F800000#32) (ix2 r j) = (1 : EReal) :=
  (bcast_scalar2 bcast_S_S50000x64 _ r j).trans Cert.LibRealClosure.ofBits_f32_one

theorem bcastZero_read (r : Fin 50000) (j : Fin 64) :
    broadcastInDim S50000x64 ![] bcast_S_S50000x64 (constant (F := Ideal) S_ .f32 0x00000000#32) (ix2 r j) = (0 : EReal) :=
  (bcast_scalar2 bcast_S_S50000x64 _ r j).trans Cert.LibRealClosure.ofBits_f32_zero

theorem bcastTwo_read (r : Fin 50000) (j : Fin 64) :
    broadcastInDim S50000x64 ![] bcast_S_S50000x64 (constant (F := Ideal) S_ .f32 0x40000000#32) (ix2 r j) = Cert.GateSpec.two :=
  bcast_scalar2 bcast_S_S50000x64 _ r j

/-! ## The node product -/

/-- In the node product the left operand's row coordinate is the result's. -/
theorem nodeDot_lhs_row (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show (0 : Fin S50000x64.rank) ∉ dot_S50000x64_S64x64_S50000x64_1_0_0_1_n_n.lhsBatch by decide),
    dif_pos (show (0 : Fin S50000x64.rank) ∈ dot_S50000x64_S64x64_S50000x64_1_0_0_1_n_n.lhsNonContracting by decide)]
  rfl

/-- In the node product the right operand's column coordinate is the result's. -/
theorem nodeDot_rhs_col (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show (1 : Fin S64x64.rank) ∉ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The product of a node array with a 64 x 64 weight at (r, j): the sum over l of X(r, l) W(l, j). -/
theorem nodeDot_read (X : (⟨S50000x64, .f32⟩ : BufTy).Contents (Elt Ideal)) (W : (⟨S64x64, .f32⟩ : BufTy).Contents (Elt Ideal))
    (r : Fin 50000) (j : Fin 64) :
    nodeDot (F := Ideal) X W (ix2 r j) = ∑ l : Fin 64, X (ix2 r l) * W (ix2 l j) := by
  unfold nodeDot
  refine Cert.Lib.HostRows.dotGeneral_read dot_S50000x64_S64x64_S50000x64_1_0_0_1_n_n 64 rfl rfl X W (ix2 r j) _ _
    (fun k => congrArg X ?_) (fun k => congrArg W ?_)
  · -- the left operand is read at (r, k): axis 0 follows the result's row, axis 1 is the contracted one
    funext a
    refine Fin.ext ?_
    match a with
    | ⟨0, _⟩ => exact nodeDot_lhs_row _ _
    | ⟨1, _⟩ => exact (DotDims.lhsIdx_val_of_single _ rfl _ _).trans (contrEquiv1_symm_val _ 64 rfl rfl k)
  · -- the right operand is read at (k, j): axis 0 is the contracted one, axis 1 follows the result's column
    funext a
    refine Fin.ext ?_
    match a with
    | ⟨0, _⟩ => exact (DotDims.rhsIdx_val_of_single _ rfl _ _).trans (contrEquiv1_symm_val _ 64 rfl rfl k)
    | ⟨1, _⟩ => exact nodeDot_rhs_col _ _

/-! ## The second Chebyshev term -/

theorem chebT2_read (a1 : (⟨S2x1600000, .i32⟩ : BufTy).Contents (Elt Ideal)) (a2 : (⟨S1600000, .f32⟩ : BufTy).Contents (Elt Ideal)) (a3 : (⟨S50000x64, .f32⟩ : BufTy).Contents (Elt Ideal)) (r : Fin 50000) (l : Fin 64) :
    chebT2 (F := Ideal) a1 a2 a3 (ix2 r l)
      = Cert.GateSpec.two * (edgeSum2 (F := Ideal) a1 a2 a3 (ix2 r l) + lapDiag (F := Ideal) a1 a2 (ix1 r) * prop1 (F := Ideal) a1 a2 a3 (ix2 r l))
        - a3 (ix2 r l) := by
  unfold chebT2
  rw [subf_apply, mulf_apply, addf_apply, mulf_apply, bcastTwo_read, Cert.Lib.HostRows.bcast_col, lapDiagCol_read]

/-- The node product with its operands' entries along the contracted coordinate known. -/
theorem nodeDot_read_of (X : (⟨S50000x64, .f32⟩ : BufTy).Contents (Elt Ideal)) (W : (⟨S64x64, .f32⟩ : BufTy).Contents (Elt Ideal))
    (r : Fin 50000) (j : Fin 64) (x w : Fin 64 → EReal) (hx : ∀ l, X (ix2 r l) = x l) (hw : ∀ l, W (ix2 l j) = w l) :
    nodeDot (F := Ideal) X W (ix2 r j) = ∑ l : Fin 64, x l * w l :=
  (nodeDot_read X W r j).trans (Finset.sum_congr rfl fun l _ => by rw [hx, hw])

/-! ## The four pre-activations -/

/-- Gate 0's pre-activation at (r, j), every sum written out. -/
theorem pre0_expand (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a5 : (⟨S4x64x64, .f32⟩ : BufTy).Contents (Elt Ideal)) (a8 : (⟨S4x3x64x64, .f32⟩ : BufTy).Contents (Elt Ideal)) (a9 : (⟨S4x64, .f32⟩ : BufTy).Contents (Elt Ideal)) (r : Fin 50000) (j : Fin 64) :
    pre0 (F := Ideal) a0 a1 a2 a3 a5 a8 a9 (ix2 r j)
      = (∑ l : Fin 64, a0 (ix2 r l) * a5 (ix3 0 l j))
        + ((((∑ l : Fin 64, a3 (ix2 r l) * a8 (ix4 0 0 l j))
              + (∑ l : Fin 64, prop1 (F := Ideal) a1 a2 a3 (ix2 r l) * a8 (ix4 0 1 l j)))
            + (∑ l : Fin 64, (Cert.GateSpec.two * (edgeSum2 (F := Ideal) a1 a2 a3 (ix2 r l)
                  + lapDiag (F := Ideal) a1 a2 (ix1 r) * prop1 (F := Ideal) a1 a2 a3 (ix2 r l)) - a3 (ix2 r l)) * a8 (ix4 0 2 l j)))
          + a9 (ix2 0 j)) := by
  unfold pre0 cheb0
  rw [addf_apply, addf_apply, addf_apply, addf_apply,
    nodeDot_read_of a0 (wx0 a5) r j _ _ (fun l => rfl) (fun l => wx0_read a5 l j),
    nodeDot_read_of a3 (th0_0 a8) r j _ _ (fun l => rfl) (fun l => th0_0_read a8 l j),
    nodeDot_read_of (prop1 (F := Ideal) a1 a2 a3) (th0_1 a8) r j _ _ (fun l => rfl) (fun l => th0_1_read a8 l j),
    nodeDot_read_of (chebT2 (F := Ideal) a1 a2 a3) (th0_2 a8) r j _ _ (fun l => chebT2_read a1 a2 a3 r l) (fun l => th0_2_read a8 l j),
    overNodes_read, row4_0_read]

theorem pre0_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    pre0 (F := Ideal) a0 a1 a2 a3 a5 a8 a9 (ix2 r j) = (Cert.GateSpec.arraysOf a0 a3 a4 (prop1 (F := Ideal) a1 a2 a3) (edgeSum2 (F := Ideal) a1 a2 a3) (lapDiag (F := Ideal) a1 a2) a5 a6 a7 a8 a9 a10 a11).pre 0 r j :=
  pre0_expand a0 a1 a2 a3 a5 a8 a9 r j

/-- Gate 1's pre-activation at (r, j), every sum written out. -/
theorem pre1_expand (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a5 : (⟨S4x64x64, .f32⟩ : BufTy).Contents (Elt Ideal)) (a8 : (⟨S4x3x64x64, .f32⟩ : BufTy).Contents (Elt Ideal)) (a9 : (⟨S4x64, .f32⟩ : BufTy).Contents (Elt Ideal)) (r : Fin 50000) (j : Fin 64) :
    pre1 (F := Ideal) a0 a1 a2 a3 a5 a8 a9 (ix2 r j)
      = (∑ l : Fin 64, a0 (ix2 r l) * a5 (ix3 1 l j))
        + ((((∑ l : Fin 64, a3 (ix2 r l) * a8 (ix4 1 0 l j))
              + (∑ l : Fin 64, prop1 (F := Ideal) a1 a2 a3 (ix2 r l) * a8 (ix4 1 1 l j)))
            + (∑ l : Fin 64, (Cert.GateSpec.two * (edgeSum2 (F := Ideal) a1 a2 a3 (ix2 r l)
                  + lapDiag (F := Ideal) a1 a2 (ix1 r) * prop1 (F := Ideal) a1 a2 a3 (ix2 r l)) - a3 (ix2 r l)) * a8 (ix4 1 2 l j)))
          + a9 (ix2 1 j)) := by
  unfold pre1 cheb1
  rw [addf_apply, addf_apply, addf_apply, addf_apply,
    nodeDot_read_of a0 (wx1 a5) r j _ _ (fun l => rfl) (fun l => wx1_read a5 l j),
    nodeDot_read_of a3 (th1_0 a8) r j _ _ (fun l => rfl) (fun l => th1_0_read a8 l j),
    nodeDot_read_of (prop1 (F := Ideal) a1 a2 a3) (th1_1 a8) r j _ _ (fun l => rfl) (fun l => th1_1_read a8 l j),
    nodeDot_read_of (chebT2 (F := Ideal) a1 a2 a3) (th1_2 a8) r j _ _ (fun l => chebT2_read a1 a2 a3 r l) (fun l => th1_2_read a8 l j),
    overNodes_read, row4_1_read]

theorem pre1_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    pre1 (F := Ideal) a0 a1 a2 a3 a5 a8 a9 (ix2 r j) = (Cert.GateSpec.arraysOf a0 a3 a4 (prop1 (F := Ideal) a1 a2 a3) (edgeSum2 (F := Ideal) a1 a2 a3) (lapDiag (F := Ideal) a1 a2) a5 a6 a7 a8 a9 a10 a11).pre 1 r j :=
  pre1_expand a0 a1 a2 a3 a5 a8 a9 r j

/-- Gate 2's pre-activation at (r, j), every sum written out. -/
theorem pre2_expand (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a5 : (⟨S4x64x64, .f32⟩ : BufTy).Contents (Elt Ideal)) (a8 : (⟨S4x3x64x64, .f32⟩ : BufTy).Contents (Elt Ideal)) (a9 : (⟨S4x64, .f32⟩ : BufTy).Contents (Elt Ideal)) (r : Fin 50000) (j : Fin 64) :
    pre2 (F := Ideal) a0 a1 a2 a3 a5 a8 a9 (ix2 r j)
      = (∑ l : Fin 64, a0 (ix2 r l) * a5 (ix3 2 l j))
        + ((((∑ l : Fin 64, a3 (ix2 r l) * a8 (ix4 2 0 l j))
              + (∑ l : Fin 64, prop1 (F := Ideal) a1 a2 a3 (ix2 r l) * a8 (ix4 2 1 l j)))
            + (∑ l : Fin 64, (Cert.GateSpec.two * (edgeSum2 (F := Ideal) a1 a2 a3 (ix2 r l)
                  + lapDiag (F := Ideal) a1 a2 (ix1 r) * prop1 (F := Ideal) a1 a2 a3 (ix2 r l)) - a3 (ix2 r l)) * a8 (ix4 2 2 l j)))
          + a9 (ix2 2 j)) := by
  unfold pre2 cheb2
  rw [addf_apply, addf_apply, addf_apply, addf_apply,
    nodeDot_read_of a0 (wx2 a5) r j _ _ (fun l => rfl) (fun l => wx2_read a5 l j),
    nodeDot_read_of a3 (th2_0 a8) r j _ _ (fun l => rfl) (fun l => th2_0_read a8 l j),
    nodeDot_read_of (prop1 (F := Ideal) a1 a2 a3) (th2_1 a8) r j _ _ (fun l => rfl) (fun l => th2_1_read a8 l j),
    nodeDot_read_of (chebT2 (F := Ideal) a1 a2 a3) (th2_2 a8) r j _ _ (fun l => chebT2_read a1 a2 a3 r l) (fun l => th2_2_read a8 l j),
    overNodes_read, row4_2_read]

theorem pre2_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    pre2 (F := Ideal) a0 a1 a2 a3 a5 a8 a9 (ix2 r j) = (Cert.GateSpec.arraysOf a0 a3 a4 (prop1 (F := Ideal) a1 a2 a3) (edgeSum2 (F := Ideal) a1 a2 a3) (lapDiag (F := Ideal) a1 a2) a5 a6 a7 a8 a9 a10 a11).pre 2 r j :=
  pre2_expand a0 a1 a2 a3 a5 a8 a9 r j

/-- Gate 3's pre-activation at (r, j), every sum written out. -/
theorem pre3_expand (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a5 : (⟨S4x64x64, .f32⟩ : BufTy).Contents (Elt Ideal)) (a8 : (⟨S4x3x64x64, .f32⟩ : BufTy).Contents (Elt Ideal)) (a9 : (⟨S4x64, .f32⟩ : BufTy).Contents (Elt Ideal)) (r : Fin 50000) (j : Fin 64) :
    pre3 (F := Ideal) a0 a1 a2 a3 a5 a8 a9 (ix2 r j)
      = (∑ l : Fin 64, a0 (ix2 r l) * a5 (ix3 3 l j))
        + ((((∑ l : Fin 64, a3 (ix2 r l) * a8 (ix4 3 0 l j))
              + (∑ l : Fin 64, prop1 (F := Ideal) a1 a2 a3 (ix2 r l) * a8 (ix4 3 1 l j)))
            + (∑ l : Fin 64, (Cert.GateSpec.two * (edgeSum2 (F := Ideal) a1 a2 a3 (ix2 r l)
                  + lapDiag (F := Ideal) a1 a2 (ix1 r) * prop1 (F := Ideal) a1 a2 a3 (ix2 r l)) - a3 (ix2 r l)) * a8 (ix4 3 2 l j)))
          + a9 (ix2 3 j)) := by
  unfold pre3 cheb3
  rw [addf_apply, addf_apply, addf_apply, addf_apply,
    nodeDot_read_of a0 (wx3 a5) r j _ _ (fun l => rfl) (fun l => wx3_read a5 l j),
    nodeDot_read_of a3 (th3_0 a8) r j _ _ (fun l => rfl) (fun l => th3_0_read a8 l j),
    nodeDot_read_of (prop1 (F := Ideal) a1 a2 a3) (th3_1 a8) r j _ _ (fun l => rfl) (fun l => th3_1_read a8 l j),
    nodeDot_read_of (chebT2 (F := Ideal) a1 a2 a3) (th3_2 a8) r j _ _ (fun l => chebT2_read a1 a2 a3 r l) (fun l => th3_2_read a8 l j),
    overNodes_read, row4_3_read]

theorem pre3_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    pre3 (F := Ideal) a0 a1 a2 a3 a5 a8 a9 (ix2 r j) = (Cert.GateSpec.arraysOf a0 a3 a4 (prop1 (F := Ideal) a1 a2 a3) (edgeSum2 (F := Ideal) a1 a2 a3) (lapDiag (F := Ideal) a1 a2) a5 a6 a7 a8 a9 a10 a11).pre 3 r j :=
  pre3_expand a0 a1 a2 a3 a5 a8 a9 r j

/-! ## The host's elementwise operations at an index, on the extended reals -/

section Elementwise
variable {s : Shape}

theorem hostDivf_read (a b : FVec Ideal s .f32) (i : s.Idx) : Host.divf a b i = Ideal.div (a i) (b i) := rfl
theorem hostExp_read (a : FVec Ideal s .f32) (i : s.Idx) : Host.exp a i = Ideal.exp (a i) := rfl
theorem hostNegf_read (a : FVec Ideal s .f32) (i : s.Idx) : Host.negf a i = -(a i) := rfl
theorem hostTanh_read (a : FVec Ideal s .f32) (i : s.Idx) : Host.tanh a i = Ideal.tanh (a i) := rfl

end Elementwise

/-- 1 / (1 + e^(-z)) entry by entry is the logistic function of the entry. -/
theorem sigm_read (z : (⟨S50000x64, .f32⟩ : BufTy).Contents (Elt Ideal)) (r : Fin 50000) (j : Fin 64) :
    sigm (F := Ideal) z (ix2 r j) = Ideal.logistic (z (ix2 r j)) := by
  unfold sigm
  rw [hostDivf_read, addf_apply, hostExp_read, hostNegf_read, bcastOne_read]
  rfl

/-! ## The gates and the three results -/

theorem gI_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    gI (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).gateI r j := by
  unfold gI
  rw [sigm_read, addf_apply, addf_apply, mulf_apply, pre0_read a0 a1 a2 a3 a4 a5 a6 a7 a8 a9 a10 a11 r j, overNodes_read, overNodes_read,
    row3_0_read, row4_0_read]
  rfl

theorem gF_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    gF (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).gateF r j := by
  unfold gF
  rw [sigm_read, addf_apply, addf_apply, mulf_apply, pre1_read a0 a1 a2 a3 a4 a5 a6 a7 a8 a9 a10 a11 r j, overNodes_read, overNodes_read,
    row3_1_read, row4_1_read]
  rfl

theorem gT_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    gT (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).gateT r j := by
  unfold gT
  rw [hostTanh_read, addf_apply, pre2_read a0 a1 a2 a3 a4 a5 a6 a7 a8 a9 a10 a11 r j, overNodes_read, row4_2_read]
  rfl

/-- The new cell state at (r, j). -/
theorem cellNew_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    cellNew (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).Cn r j := by
  unfold cellNew
  rw [addf_apply, mulf_apply, mulf_apply, gF_read, gI_read, gT_read]
  rfl

theorem gO_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    gO (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).gateO r j := by
  unfold gO
  rw [sigm_read, addf_apply, addf_apply, mulf_apply, pre3_read a0 a1 a2 a3 a4 a5 a6 a7 a8 a9 a10 a11 r j, overNodes_read, overNodes_read,
    row3_2_read, row4_3_read, cellNew_read]
  rfl

/-- The new hidden state at (r, j). -/
theorem hiddenNew_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    hiddenNew (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).Hn r j := by
  unfold hiddenNew
  rw [mulf_apply, hostTanh_read, gO_read, cellNew_read]
  rfl

/-- The projected output at (r, j). -/
theorem projected_read (a0 : (⟨S50000x64, .f32⟩ : BufTy).Contents (Elt Ideal)) (a1 : (⟨S2x1600000, .i32⟩ : BufTy).Contents (Elt Ideal)) (a2 : (⟨S1600000, .f32⟩ : BufTy).Contents (Elt Ideal)) (a3 : (⟨S50000x64, .f32⟩ : BufTy).Contents (Elt Ideal)) (a4 : (⟨S50000x64, .f32⟩ : BufTy).Contents (Elt Ideal)) (a5 : (⟨S4x64x64, .f32⟩ : BufTy).Contents (Elt Ideal)) (a6 : (⟨S3x64, .f32⟩ : BufTy).Contents (Elt Ideal)) (a7 : (⟨S4x64, .f32⟩ : BufTy).Contents (Elt Ideal)) (a8 : (⟨S4x3x64x64, .f32⟩ : BufTy).Contents (Elt Ideal)) (a9 : (⟨S4x64, .f32⟩ : BufTy).Contents (Elt Ideal)) (a10 : (⟨S64x64, .f32⟩ : BufTy).Contents (Elt Ideal)) (a11 : (⟨S64, .f32⟩ : BufTy).Contents (Elt Ideal)) (r : Fin 50000) (j : Fin 64) :
    projected (F := Ideal) a0 a1 a2 a3 a4 a5 a6 a7 a8 a9 a10 a11 (ix2 r j) = (Cert.GateSpec.arraysOf a0 a3 a4 (prop1 (F := Ideal) a1 a2 a3) (edgeSum2 (F := Ideal) a1 a2 a3) (lapDiag (F := Ideal) a1 a2) a5 a6 a7 a8 a9 a10 a11).hout r j := by
  unfold projected
  rw [addf_apply,
    nodeDot_read_of _ a10 r j (fun l => max ((Cert.GateSpec.arraysOf a0 a3 a4 (prop1 (F := Ideal) a1 a2 a3) (edgeSum2 (F := Ideal) a1 a2 a3) (lapDiag (F := Ideal) a1 a2) a5 a6 a7 a8 a9 a10 a11).Hn r l) 0) (fun l => a10 (ix2 l j))
      (fun l => by rw [maximumf_apply, hiddenNew_read, bcastZero_read]) (fun l => rfl),
    overNodes_read]
  rfl

end Cert.ReferenceIdeal.Hand

end
-- ==== Proof.Bridge.lean ====
/-
  The two programs compute the graph propagation by the same operations on the same arrays: the Laplacian's
  diagonal, the first propagation of the hidden state and the edge sum of the second are the same arrays whichever
  program's text spells them.
-/
import proofs.«138098_j15135464751774_2_alg».proof.Proof.KIProp
import proofs.«138098_j15135464751774_2_alg».proof.Proof.RefProp

noncomputable section

namespace Cert.Bridge

open Idealize.ShloMosaic

variable {F : FTy → Type} [FloatOps F]

/-- The Laplacian's diagonal. -/
theorem lapDiag_agree (a1 : (⟨Cert.KernelIdeal.S2x1600000, .i32⟩ : BufTy).Contents (Elt F)) (a2 : (⟨Cert.KernelIdeal.S1600000, .f32⟩ : BufTy).Contents (Elt F)) :
    Cert.ReferenceIdeal.Hand.lapDiag (F := F) a1 a2 = Cert.KernelIdeal.Hand.lapDiag (F := F) a1 a2 := rfl

/-- The first propagation of the hidden state. -/
theorem prop1_agree (a1 : (⟨Cert.KernelIdeal.S2x1600000, .i32⟩ : BufTy).Contents (Elt F)) (a2 : (⟨Cert.KernelIdeal.S1600000, .f32⟩ : BufTy).Contents (Elt F)) (a3 : (⟨Cert.KernelIdeal.S50000x64, .f32⟩ : BufTy).Contents (Elt F)) :
    Cert.ReferenceIdeal.Hand.prop1 (F := F) a1 a2 a3 = Cert.KernelIdeal.Hand.prop1 (F := F) a1 a2 a3 := rfl

/-- The edge sum of the second propagation. -/
theorem edgeSum2_agree (a1 : (⟨Cert.KernelIdeal.S2x1600000, .i32⟩ : BufTy).Contents (Elt F)) (a2 : (⟨Cert.KernelIdeal.S1600000, .f32⟩ : BufTy).Contents (Elt F)) (a3 : (⟨Cert.KernelIdeal.S50000x64, .f32⟩ : BufTy).Contents (Elt F)) :
    Cert.ReferenceIdeal.Hand.edgeSum2 (F := F) a1 a2 a3 = Cert.KernelIdeal.Hand.edgeSum2 (F := F) a1 a2 a3 := rfl

end Cert.Bridge

end
-- ==== Proof.lean ====
/-
  The certificate's claims for the graph-convolutional LSTM cell: a kernel that packs the four gates' sixteen
  64 x 64 products into one 256-lane product per block of 2000 nodes, against the plain array program.

  Frames. Each kernel program is a straight host stretch (degree, normalisation, two propagations, the packed
  weight and bias) followed by one pipelined region; the region's body loads its eleven input blocks whole, computes,
  and stores its three output blocks whole, so every execution terminates without fault and the arguments, which
  nothing writes, end as launched. The plain program is a straight line of array operations.

  Values at the exact instance. After the run each result array of the kernel, at node r and unit j, is its block's
  payload; the payloads are the gates of the cell with the packed pre-activation
  (x | h | T1 | 2 A2 + (2 D) T1 - h) Wpacked + (conv bias + gate bias), which regroups to
  x Wx + ((h θ0 + T1 θ1) + (2 (A2 + D T1) - h) θ2 + conv bias) + gate bias: a sum over 256 lanes is four sums over 64,
  addition of extended reals is commutative and associative, and the nonnegative real 2 distributes over any sum of
  extended reals. The plain program's three results read at (r, j) are the same specification, and the two programs
  compute the propagated arrays T1, A2 and the diagonal D by the same operations on the same arguments. The
  idealization rewrote nothing, so `preserves` has no conjunct.
-/
import proofs.«138098_j15135464751774_2_alg».proof.Defs
import proofs.«138098_j15135464751774_2_alg».proof.Proof.Gen.Kernel
import proofs.«138098_j15135464751774_2_alg».proof.Proof.Gen.KernelIdeal
import proofs.«138098_j15135464751774_2_alg».proof.Proof.Gen.ReferenceIdeal
import proofs.«138098_j15135464751774_2_alg».proof.Proof.Gen.Pre_finite_inputs
import proofs.«138098_j15135464751774_2_alg».proof.Proof.KFrame
import proofs.«138098_j15135464751774_2_alg».proof.Proof.KIValue
import proofs.«138098_j15135464751774_2_alg».proof.Proof.RefRun
import proofs.«138098_j15135464751774_2_alg».proof.Proof.RefRead
import proofs.«138098_j15135464751774_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.Hand.run (F := Ideal) m ρ)

theorem preserves : Cert.preserves_Kernel_KernelIdeal := trivial

/-- The plain program's cell arrays, read off the kernel's arguments, are the kernel's: the propagated arrays are
    the same terms. -/
theorem arrays_agree (m : (ℓ : Loc Cert.KernelIdeal.nD Cert.KernelIdeal.τ Cert.KernelIdeal.sig) → Buf (Elt Ideal) ℓ) (c : Dev Cert.KernelIdeal.nD) :
    Cert.GateSpec.arraysOf (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.ReferenceIdeal.Hand.prop1 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Hand.edgeSum2 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Hand.lapDiag (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Hand.kerArrays m c := rfl

theorem algebraic : Cert.algebraic_KernelIdeal_ReferenceIdeal := by
  intro m ρ m' ρ' _ hagree
  refine ⟨fun c => Cert.KernelIdeal.Hand.finalHoutArr m c, fun c => Cert.KernelIdeal.Hand.finalHnArr m c,
    fun c => Cert.KernelIdeal.Hand.finalCnArr m c, Cert.KernelIdeal.Hand.run_final (F := Ideal) m ρ, ?_⟩
  refine (θ_run Cert.ReferenceIdeal.defs _ _).mono (fun _ h c => ?_) (Cert.ReferenceIdeal.Hand.run (F := Ideal) m' ρ')
  obtain ⟨h0, h1, h2, h3, h4, h5, h6, h7, h8, h9, h10, h11⟩ := hagree c
  refine ⟨(h c).1.trans ?_, (h c).2.1.trans ?_, (h c).2.2.1.trans ?_, (h c).2.2.2⟩
  · rw [h0, h1, h2, h3, h4, h5, h6, h7, h8, h9, h10, h11]
    funext i
    obtain ⟨r, j, rfl⟩ : ∃ (r : Fin 50000) (j : Fin 64), i = ix2 r j := ⟨i 0, i 1, eq_ix2 i⟩
    exact (Cert.ReferenceIdeal.Hand.projected_read _ _ _ _ _ _ _ _ _ _ _ _ r j).trans
      ((congrArg (fun P : Cert.GateSpec.Arrays => P.hout r j) (arrays_agree m c)).trans (Cert.KernelIdeal.Hand.finalHout_spec m c r j).symm)
  · rw [h0, h1, h2, h3, h4, h5, h6, h7, h8, h9, h10, h11]
    funext i
    obtain ⟨r, j, rfl⟩ : ∃ (r : Fin 50000) (j : Fin 64), i = ix2 r j := ⟨i 0, i 1, eq_ix2 i⟩
    exact (Cert.ReferenceIdeal.Hand.hiddenNew_read _ _ _ _ _ _ _ _ _ _ _ _ r j).trans
      ((congrArg (fun P : Cert.GateSpec.Arrays => P.Hn r j) (arrays_agree m c)).trans (Cert.KernelIdeal.Hand.finalHn_spec m c r j).symm)
  · rw [h0, h1, h2, h3, h4, h5, h6, h7, h8, h9, h10, h11]
    funext i
    obtain ⟨r, j, rfl⟩ : ∃ (r : Fin 50000) (j : Fin 64), i = ix2 r j := ⟨i 0, i 1, eq_ix2 i⟩
    exact (Cert.ReferenceIdeal.Hand.cellNew_read _ _ _ _ _ _ _ _ _ _ _ _ r j).trans
      ((congrArg (fun P : Cert.GateSpec.Arrays => P.Cn r j) (arrays_agree m c)).trans (Cert.KernelIdeal.Hand.finalCn_spec m c r j).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
